-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S50000 : Shape := ⟨1, ![50000]⟩
abbrev S128x160 : Shape := ⟨2, ![128, 160]⟩
abbrev S160 : Shape := ⟨1, ![160]⟩
abbrev S160x160 : Shape := ⟨2, ![160, 160]⟩
abbrev S160x128 : Shape := ⟨2, ![160, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x160 : S_.BroadcastsInDim S128x160 (![] : Fin 0 → Fin S128x160.rank)
  reducesTo_S128x160_S_d0_1 : S128x160.ReducesTo [0, 1] S_
  bcast_S_S160 : S_.BroadcastsInDim S160 (![] : Fin 0 → Fin S160.rank)
  reducesTo_S160_S_d0 : S160.ReducesTo [0] S_
  bcast_S_S160x160 : S_.BroadcastsInDim S160x160 (![] : Fin 0 → Fin S160x160.rank)
  reducesTo_S160x160_S_d0_1 : S160x160.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S160x128 .f32) (main_arg10 : FVec F S128 .f32) (main_arg11 : FVec F S128x10 .f32) (main_arg12 : FVec F S10 .f32) (main_v33 : IVec S_ 1) : IVec S_ 1 :=
  let main_v34 : FVec F S160x128 .f32 := Host.absf main_arg9
  let main_cst_12 : FVec F S_ .f32 := constant S_ .f32 0x7F800000#32
  let main_v35 : FVec F S160x128 .f32 := broadcastInDim S160x128 ![] bcast_S_S160x128 main_cst_12
  let main_v36 : IVec S160x128 1 := cmpf .olt main_v34 main_v35
  let main_c_13 : IVec S_ 1 := constantI S_ 1 1#1
  let main_v37 : IVec S_ 1 := (fun x v => Host.reduce IntOp.andi x v reducesTo_S160x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg11
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S160 .f32) (main_arg7 : FVec F S160x160 .f32) (main_arg8 : FVec F S160 .f32) (main_arg9 : FVec F S160x128 .f32) (main_arg10 : FVec F S128 .f32) (main_arg11 : FVec F S128x10 .f32) (main_arg12 : FVec F S10 .f32) (main_v13 : IVec S_ 1) (main_v16 : IVec S160x160 1) : IVec S_ 1 :=
  let main_c_5 : IVec S_ 1 := constantI S_ 1 1#1
  let main_v17 : IVec S_ 1 := (fun x v => Host.reduce IntOp.andi x v reducesTo_S160x160_S_d0_1 h_S_) main_v16 main_c_5
  let main_v18 : IVec S_ 1 := andi main_v13 main_v17
  let main_v19 : FVec F S160 .f32 := Host.absf main_arg6
  let main_cst_6 : FVec F S_ .f32 := constant S_ .f32 0x7F800000#32
  let main_v20 : FVec F S160 .f32 := broadcastInDim S160 ![] bcast_S_S160 main_cst_6
  let main_v21 : IVec S160 1 := cmpf .olt main_v19 main_v20
  let main_c_7 : IVec S_ 1 := constantI S_ 1 1#1
  let main_v22 : IVec S_ 1 := (fun x v => Host.reduce IntOp.andi x v reducesTo_S160_S_d0 h_S_) main_v21 main_c_7
  let main_v23 : IVec S_ 1 := andi main_v18 main_v22
  let main_v24 : FVec F S160x160 .f32 := Host.absf main_arg7
  let main_cst_8 : FVec F S_ .f32 := constant S_ .f32 0x7F800000#32
  let main_v25 : FVec F S160x160 .f32 := broadcastInDim S160x160 ![] bcast_S_S160x160 main_cst_8
  let main_v26 : IVec S160x160 1 := cmpf .olt main_v24 main_v25
  let main_c_9 : IVec S_ 1 := constantI S_ 1 1#1
  let main_v27 : IVec S_ 1 := (fun x v => Host.reduce IntOp.andi x v reducesTo_S160x160_S_d0_1 h_S_) main_v26 main_c_9
  let main_v28 : IVec S_ 1 := andi main_v23 main_v27
  let main_v29 : FVec F S160 .f32 := Host.absf main_arg8
  let main_cst_10 : FVec F S_ .f32 := constant S_ .f32 0x7F800000#32
  let main_v30 : FVec F S160 .f32 := broadcastInDim S160 ![] bcast_S_S160 main_cst_10
  let main_v31 : IVec S160 1 := cmpf .olt main_v29 main_v30
  let main_c_11 : IVec S_ 1 := constantI S_ 1 1#1
  let main_v32 : IVec S_ 1 := (fun x v => Host.reduce IntOp.andi x v reducesTo_S160_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x500000 32) (main_arg2 : IVec S50000 32) (main_arg3 : FVec F S128x160 .f32) (main_arg4 : FVec F S160 .f32) (main_arg5 : FVec F S160x160 .f32) (main_arg6 : FVec F S160 .f32) (main_arg7 : FVec F S160x160 .f32) (main_arg8 : FVec F S160 .f32) (main_arg9 : FVec F S160x128 .f32) (main_arg10 : FVec F S128 .f32) (main_arg11 : FVec F S128x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x160 .f32 := Host.absf main_arg3
  let main_cst_0 : FVec F S_ .f32 := constant S_ .f32 0x7F800000#32
  let main_v5 : FVec F S128x160 .f32 := broadcastInDim S128x160 ![] bcast_S_S128x160 main_cst_0
  let main_v6 : IVec S128x160 1 := cmpf .olt main_v4 main_v5
  let main_c_1 : IVec S_ 1 := constantI S_ 1 1#1
  let main_v7 : IVec S_ 1 := (fun x v => Host.reduce IntOp.andi x v reducesTo_S128x160_S_d0_1 h_S_) main_v6 main_c_1
  let main_v8 : IVec S_ 1 := andi main_v3 main_v7
  let main_v9 : FVec F S160 .f32 := Host.absf main_arg4
  let main_cst_2 : FVec F S_ .f32 := constant S_ .f32 0x7F800000#32
  let main_v10 : FVec F S160 .f32 := broadcastInDim S160 ![] bcast_S_S160 main_cst_2
  let main_v11 : IVec S160 1 := cmpf .olt main_v9 main_v10
  let main_c_3 : IVec S_ 1 := constantI S_ 1 1#1
  let main_v12 : IVec S_ 1 := (fun x v => Host.reduce IntOp.andi x v reducesTo_S160_S_d0 h_S_) main_v11 main_c_3
  let main_v13 : IVec S_ 1 := andi main_v8 main_v12
  let main_v14 : FVec F S160x160 .f32 := Host.absf main_arg5
  let main_cst_4 : FVec F S_ .f32 := constant S_ .f32 0x7F800000#32
  let main_v15 : FVec F S160x160 .f32 := broadcastInDim S160x160 ![] bcast_S_S160x160 main_cst_4
  let main_v16 : IVec S160x160 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x500000 : Shape := ⟨2, ![2, 500000]⟩
abbrev S50000 : Shape := ⟨1, ![50000]⟩
abbrev S128x160 : Shape := ⟨2, ![128, 160]⟩
abbrev S160 : Shape := ⟨1, ![160]⟩
abbrev S160x160 : Shape := ⟨2, ![160, 160]⟩
abbrev S160x128 : Shape := ⟨2, ![160, 128]⟩
abbrev S128 : Shape := ⟨1, ![128]⟩
abbrev S128x10 : Shape := ⟨2, ![128, 10]⟩
abbrev S10 : Shape := ⟨1, ![10]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000x1 : Shape := ⟨2, ![50000, 1]⟩
abbrev S1x160 : Shape := ⟨2, ![1, 160]⟩
abbrev S50000x160 : Shape := ⟨2, ![50000, 160]⟩
abbrev S2000x128 : Shape := ⟨2, ![2000, 128]⟩
abbrev S2000x1 : Shape := ⟨2, ![2000, 1]⟩
abbrev S2000x160 : Shape := ⟨2, ![2000, 160]⟩
abbrev S500000x160 : Shape := ⟨2, ![500000, 160]⟩
abbrev S1x128 : Shape := ⟨2, ![1, 128]⟩
abbrev S500000x128 : Shape := ⟨2, ![500000, 128]⟩
abbrev S50x128 : Shape := ⟨2, ![50, 128]⟩
abbrev S50 : Shape := ⟨1, ![50]⟩
abbrev S50x1 : Shape := ⟨2, ![50, 1]⟩
abbrev S1x10 : Shape := ⟨2, ![1, 10]⟩
abbrev S50x10 : Shape := ⟨2, ![50, 10]⟩

abbrev nBuf : Space → Nat
  | .hbm => 138
  | .vmem => 57
  | .smem => 0
  | _ => 0

abbrev hbmTy0_0 (i : Nat) : BufTy := match i % 128 with
  | 0 => ⟨S50000x128, .f32⟩
  | 1 => ⟨S2x500000, .i32⟩
  | 2 => ⟨S50000, .i32⟩
  | 3 => ⟨S128x160, .f32⟩
  | 4 => ⟨S160, .f32⟩
  | 5 => ⟨S160x160, .f32⟩
  | 6 => ⟨S160, .f32⟩
  | 7 => ⟨S160x160, .f32⟩
  | 8 => ⟨S160, .f32⟩
  | 9 => ⟨S160x128, .f32⟩
  | 10 => ⟨S128, .f32⟩
  | 11 => ⟨S128x10, .f32⟩
  | 12 => ⟨S10, .f32⟩
  | 13 => ⟨S1x500000, .i32⟩
  | 14 => ⟨S500000, .i32⟩
  | 15 => ⟨S1x500000, .i32⟩
  | 16 => ⟨S500000, .i32⟩
  | 17 => ⟨S_, .f32⟩
  | 18 => ⟨S500000, .f32⟩
  | 19 => ⟨S_, .f32⟩
  | 20 => ⟨S50000, .f32⟩
  | 21 => ⟨S500000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000, .f32⟩
  | 31 => ⟨S50000x1, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000, .f32⟩
  | 50 => ⟨S500000, .f32⟩
  | 51 => ⟨S500000x1, .f32⟩
  | 52 => ⟨S1x160, .f32⟩
  | 53 => ⟨S50000x160, .f32⟩
  | 54 => ⟨S50000x160, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x160, .f32⟩
  | 64 => ⟨S500000x160, .f32⟩
  | 65 => ⟨S500000x160, .f32⟩
  | 66 => ⟨S_, .f32⟩
  | 67 => ⟨S50000x160, .f32⟩
  | 68 => ⟨S500000x1, .i32⟩
  | 69 => ⟨S50000x160, .f32⟩
  | 70 => ⟨S1x160, .f32⟩
  | 71 => ⟨S50000x160, .f32⟩
  | 72 => ⟨S50000x160, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S500000x160, .f32⟩
  | 82 => ⟨S500000x160, .f32⟩
  | 83 => ⟨S500000x160, .f32⟩
  | 84 => ⟨S_, .f32⟩
  | 85 => ⟨S50000x160, .f32⟩
  | 86 => ⟨S500000x1, .i32⟩
  | 87 => ⟨S50000x160, .f32⟩
  | 88 => ⟨S1x160, .f32⟩
  | 89 => ⟨S50000x160, .f32⟩
  | 90 => ⟨S50000x160, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x160, .f32⟩
  | 100 => ⟨S500000x160, .f32⟩
  | 101 => ⟨S500000x160, .f32⟩
  | 102 => ⟨S_, .f32⟩
  | 103 => ⟨S50000x160, .f32⟩
  | 104 => ⟨S500000x1, .i32⟩
  | 105 => ⟨S50000x160, .f32⟩
  | 106 => ⟨S1x128, .f32⟩
  | 107 => ⟨S50000x128, .f32⟩
  | 108 => ⟨S50000x128, .f32⟩
  | 109 => ⟨S_, .i32⟩
  | 110 => ⟨S500000, .i32⟩
  | 111 => ⟨S500000, .i1⟩
  | 112 => ⟨S_, .i32⟩
  | 113 => ⟨S500000, .i32⟩
  | 114 => ⟨S500000, .i32⟩
  | 115 => ⟨S500000, .i32⟩
  | 116 => ⟨S500000x1, .i32⟩
  | 117 => ⟨S500000x128, .f32⟩
  | 118 => ⟨S500000x128, .f32⟩
  | 119 => ⟨S500000x128, .f32⟩
  | 120 => ⟨S_, .f32⟩
  | 121 => ⟨S50000x128, .f32⟩
  | 122 => ⟨S500000x1, .i32⟩
  | 123 => ⟨S50000x128, .f32⟩
  | 124 => ⟨S50000x128, .f32⟩
  | 125 => ⟨S_, .f32⟩
  | 126 => ⟨S50x128, .f32⟩
  | 127 => ⟨S50000x1, .i32⟩
  | _ => ⟨S50000x128, .f32⟩

abbrev hbmTy0_1 (i : Nat) : BufTy := match i % 128 with
  | 0 => ⟨S50x128, .f32⟩
  | 1 => ⟨S_, .f32⟩
  | 2 => ⟨S50000, .f32⟩
  | 3 => ⟨S_, .f32⟩
  | 4 => ⟨S50, .f32⟩
  | 5 => ⟨S50000x1, .i32⟩
  | 6 => ⟨S50, .f32⟩
  | 7 => ⟨S50x1, .f32⟩
  | 8 => ⟨S1x10, .f32⟩
  | 9 => ⟨S50x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x160, .f32⟩
  | .local _ .vmem, ⟨3, _⟩ => ⟨S1x160, .f32⟩
  | .local _ .vmem, ⟨4, _⟩ => ⟨S2000x1, .f32⟩
  | .local _ .vmem, ⟨5, _⟩ => ⟨S2000x1, .f32⟩
  | .local _ .vmem, ⟨6, _⟩ => ⟨S2000x160, .f32⟩
  | .local _ .vmem, ⟨7, _⟩ => ⟨S2000x160, .f32⟩
  | .local _ .vmem, ⟨8, _⟩ => ⟨S2000x160, .f32⟩
  | .local _ .vmem, ⟨9, _⟩ => ⟨S2000x160, .f32⟩
  | .local _ .vmem, ⟨10, _⟩ => ⟨S2000x160, .f32⟩
  | .local _ .vmem, ⟨11, _⟩ => ⟨S2000x160, .f32⟩
  | .local _ .vmem, ⟨12, _⟩ => ⟨S2000x160, .f32⟩
  | .local _ .vmem, ⟨13, _⟩ => ⟨S2000x160, .f32⟩
  | .local _ .vmem, ⟨14, _⟩ => ⟨S160x160, .f32⟩
  | .local _ .vmem, ⟨15, _⟩ => ⟨S1x160, .f32⟩
  | .local _ .vmem, ⟨16, _⟩ => ⟨S2000x1, .f32⟩
  | .local _ .vmem, ⟨17, _⟩ => ⟨S2000x1, .f32⟩
  | .local _ .vmem, ⟨18, _⟩ => ⟨S2000x160, .f32⟩
  | .local _ .vmem, ⟨19, _⟩ => ⟨S2000x160, .f32⟩
  | .local _ .vmem, ⟨20, _⟩ => ⟨S2000x160, .f32⟩
  | .local _ .vmem, ⟨21, _⟩ => ⟨S2000x160, .f32⟩
  | .local _ .vmem, ⟨22, _⟩ => ⟨S2000x160, .f32⟩
  | .local _ .vmem, ⟨23, _⟩ => ⟨S2000x160, .f32⟩
  | .local _ .vmem, ⟨24, _⟩ => ⟨S2000x160, .f32⟩
  | .local _ .vmem, ⟨25, _⟩ => ⟨S2000x160, .f32⟩
  | .local _ .vmem, ⟨26, _⟩ => ⟨S160x160, .f32⟩
  | .local _ .vmem, ⟨27, _⟩ => ⟨S1x160, .f32⟩
  | .local _ .vmem, ⟨28, _⟩ => ⟨S2000x1, .f32⟩
  | .local _ .vmem, ⟨29, _⟩ => ⟨S2000x1, .f32⟩
  | .local _ .vmem, ⟨30, _⟩ => ⟨S2000x160, .f32⟩
  | .local _ .vmem, ⟨31, _⟩ => ⟨S2000x160, .f32⟩
  | .local _ .vmem, ⟨32, _⟩ => ⟨S2000x160, .f32⟩
  | .local _ .vmem, ⟨33, _⟩ => ⟨S2000x160, .f32⟩
  | .local _ .vmem, ⟨34, _⟩ => ⟨S2000x160, .f32⟩
  | .local _ .vmem, ⟨35, _⟩ => ⟨S2000x160, .f32⟩
  | .local _ .vmem, ⟨36, _⟩ => ⟨S2000x160, .f32⟩
  | .local _ .vmem, ⟨37, _⟩ => ⟨S2000x160, .f32⟩
  | .local _ .vmem, ⟨38, _⟩ => ⟨S160x128, .f32⟩
  | .local _ .vmem, ⟨39, _⟩ => ⟨S1x128, .f32⟩
  | .local _ .vmem, ⟨40, _⟩ => ⟨S2000x1, .f32⟩
  | .local _ .vmem, ⟨41, _⟩ => ⟨S2000x1, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | .local _ .vmem, ⟨52, _⟩ => ⟨S50x128, .f32⟩
  | .local _ .vmem, ⟨53, _⟩ => ⟨S50x1, .f32⟩
  | .local _ .vmem, ⟨54, _⟩ => ⟨S128x10, .f32⟩
  | .local _ .vmem, ⟨55, _⟩ => ⟨S1x10, .f32⟩
  | .local _ .vmem, ⟨56, _⟩ => ⟨S50x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32_0 : Ref sig .tc := ⟨.hbm, 53, rfl⟩
abbrev main_v32_1 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46_0 : Ref sig .tc := ⟨.hbm, 71, rfl⟩
abbrev main_v46_1 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60_0 : Ref sig .tc := ⟨.hbm, 89, rfl⟩
abbrev main_v60_1 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74_0 : Ref sig .tc := ⟨.hbm, 107, rfl⟩
abbrev main_v74_1 : Ref sig .tc := ⟨.hbm, 108, rfl⟩
abbrev main_c_15 : Ref sig .tc := ⟨.hbm, 109, rfl⟩
abbrev main_v75 : Ref sig .tc := ⟨.hbm, 110, rfl⟩
abbrev main_v76 : Ref sig .tc := ⟨.hbm, 111, rfl⟩
abbrev main_c_16 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_18 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_19 : Ref sig .tc := ⟨.hbm, 129, rfl⟩
abbrev main_v91 : Ref sig .tc := ⟨.hbm, 130, rfl⟩
abbrev main_cst_20 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc5_stg0_0 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem4_1 : DmaSem sig := 41
abbrev cc3_sem5_0 : DmaSem sig := 42
abbrev cc3_sem5_1 : DmaSem sig := 43
abbrev cc3_sem6_0 : DmaSem sig := 44
abbrev cc3_sem6_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc5_sem0_0 : DmaSem sig := 52
abbrev cc5_sem1_0 : DmaSem sig := 53
abbrev cc5_sem2_0 : DmaSem sig := 54
abbrev cc5_sem3_0 : DmaSem sig := 55
abbrev cc5_sem4_0 : DmaSem sig := 56

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x160 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x160 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S160x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x160 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x160 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x160 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S160x160 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x160 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x160 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x160 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x160 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x160 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S160x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S50x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S50x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S50x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  shapeCasts_S50000_S50000x1 : S50000.ShapeCasts S50000x1
  shapeCasts_S500000_S500000x1 : S500000.ShapeCasts S500000x1
  shapeCasts_S160_S1x160 : S160.ShapeCasts S1x160
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x160_S128x160_0_0 : ∀ a, (![0, 0] : Fin 2 → Nat) a + S128x160.size a ≤ S128x160.size a
  h_S128x160 : 0 < S128x160.numel
  inb_S2000x160_S2000x160_0_0 : ∀ a, (![0, 0] : Fin 2 → Nat) a + S2000x160.size a ≤ S2000x160.size a
  h_S2000x160 : 0 < S2000x160.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x160 : S2000x1.Broadcasts S2000x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S2000x160 : S1x160.Broadcasts S2000x160
  bcast_S500000x1_S500000x160_0_1 : S500000x1.BroadcastsInDim S500000x160 (![0, 1] : Fin 2 → Fin S500000x160.rank)
  bcast_S_S50000x160 : S_.BroadcastsInDim S50000x160 (![] : Fin 0 → Fin S50000x160.rank)
  shapeCasts_S2000x160_S2000x160 : S2000x160.ShapeCasts S2000x160
  inb_S160x160_S160x160_0_0 : ∀ a, (![0, 0] : Fin 2 → Nat) a + S160x160.size a ≤ S160x160.size a
  h_S160x160 : 0 < S160x160.numel
  shapeCasts_S128_S1x128 : S128.ShapeCasts S1x128
  inb_S160x128_S160x128_0_0 : ∀ a, (![0, 0] : Fin 2 → Nat) a + S160x128.size a ≤ S160x128.size a
  h_S160x128 : 0 < S160x128.numel
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  shapeCasts_S2000x128_S2000x128 : S2000x128.ShapeCasts S2000x128
  bcast_S_S50x128 : S_.BroadcastsInDim S50x128 (![] : Fin 0 → Fin S50x128.rank)
  bcast_S50000_S50000x1_0 : S50000.BroadcastsInDim S50000x1 (![0] : Fin 1 → Fin S50000x1.rank)
  bcast_S_S50 : S_.BroadcastsInDim S50 (![] : Fin 0 → Fin S50.rank)
  shapeCasts_S50_S50x1 : S50.ShapeCasts S50x1
  shapeCasts_S10_S1x10 : S10.ShapeCasts S1x10
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S50x1_S50x1_0_0 : ∀ a, (![0, 0] : Fin 2 → Nat) a + S50x1.size a ≤ S50x1.size a
  h_S50x1 : 0 < S50x1.numel
  shapeCasts_S50x1_S50x1 : S50x1.ShapeCasts S50x1
  broadcasts_S50x1_S50x128 : S50x1.Broadcasts S50x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S50x10 : S1x10.Broadcasts S50x10
  reduces_S50x10_S50 : S50x10.Reduces [1] S50
  broadcasts_S50x1_S50x10 : S50x1.Broadcasts S50x10
  inb_S50x10_S50x10_0_0 : ∀ a, (![0, 0] : Fin 2 → Nat) a + S50x10.size a ≤ S50x10.size a
  h_S50x10 : 0 < S50x10.numel
  scatter_S50000_S500000x1_S500000_n_0_0_1_wf : ScatterDims.WF S50000 S500000x1 S500000 [] [0] [0] 1
  gather_S50000_S500000x1_S500000_n_0_n_n_0_1_1_wf : GatherDims.WF S50000 S500000x1 S500000 [] [0] [] [0] [] 1 ![1]
  dot_S2000x128_S128x160_S2000x160_1_0_0_1_n_n_wf : DotDims.WF S2000x128 S128x160 S2000x160 [1] [0] [0] [1] [] []
  gather_S50000x160_S500000x1_S500000x160_1_0_n_n_0_1_1160_wf : GatherDims.WF S50000x160 S500000x1 S500000x160 [1] [0] [] [0] [] 1 ![1, 160]
  scatter_S50000x160_S500000x1_S500000x160_1_0_0_1_wf : ScatterDims.WF S50000x160 S500000x1 S500000x160 [1] [0] [0] 1
  dot_S2000x160_S160x160_S2000x160_1_0_0_1_n_n_wf : DotDims.WF S2000x160 S160x160 S2000x160 [1] [0] [0] [1] [] []
  dot_S2000x160_S160x128_S2000x128_1_0_0_1_n_n_wf : DotDims.WF S2000x160 S160x128 S2000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50x128_S50000x1_S50000x128_1_0_0_1_wf : ScatterDims.WF S50x128 S50000x1 S50000x128 [1] [0] [0] 1
  scatter_S50_S50000x1_S50000_n_0_0_1_wf : ScatterDims.WF S50 S50000x1 S50000 [] [0] [0] 1
  dot_S50x128_S128x10_S50x10_1_0_0_1_n_n_wf : DotDims.WF S50x128 S128x10 S50x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x160.size a ≤ S128x160.size a
  hwx0_1 : ∀ i : grid0.Coords, EltTy.bits .f32 = 32 ∨ (Rect.block (s := S128x160) S128x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x160.size a ≤ S50000x160.size a
  hwx0_4 : ∀ i : grid0.Coords, EltTy.bits .f32 = 32 ∨ (Rect.block (s := S50000x160) S2000x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x160.size a ≤ S50000x160.size a
  hwx0_5 : ∀ i : grid0.Coords, EltTy.bits .f32 = 32 ∨ (Rect.block (s := S50000x160) S2000x160.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x160.size a ≤ S50000x160.size a
  hwx1_0 : ∀ i : grid1.Coords, EltTy.bits .f32 = 32 ∨ (Rect.block (s := S50000x160) S2000x160.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x160.size a ≤ S50000x160.size a
  hwx1_1 : ∀ i : grid1.Coords, EltTy.bits .f32 = 32 ∨ (Rect.block (s := S50000x160) S2000x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S160x160.size a ≤ S160x160.size a
  hwx1_2 : ∀ i : grid1.Coords, EltTy.bits .f32 = 32 ∨ (Rect.block (s := S160x160) S160x160.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x160.size a ≤ S1x160.size a
  hwx1_3 : ∀ i : grid1.Coords, EltTy.bits .f32 = 32 ∨ (Rect.block (s := S1x160) S1x160.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x160.size a ≤ S50000x160.size a
  hwx1_5 : ∀ i : grid1.Coords, EltTy.bits .f32 = 32 ∨ (Rect.block (s := S50000x160) S2000x160.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x160.size a ≤ S50000x160.size a
  hwx1_6 : ∀ i : grid1.Coords, EltTy.bits .f32 = 32 ∨ (Rect.block (s := S50000x160) S2000x160.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x160.size a ≤ S50000x160.size a
  hwx2_0 : ∀ i : grid2.Coords, EltTy.bits .f32 = 32 ∨ (Rect.block (s := S50000x160) S2000x160.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x160.size a ≤ S50000x160.size a
  hwx2_1 : ∀ i : grid2.Coords, EltTy.bits .f32 = 32 ∨ (Rect.block (s := S50000x160) S2000x160.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S160x160.size a ≤ S160x160.size a
  hwx2_2 : ∀ i : grid2.Coords, EltTy.bits .f32 = 32 ∨ (Rect.block (s := S160x160) S160x160.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x160.size a ≤ S1x160.size a
  hwx2_3 : ∀ i : grid2.Coords, EltTy.bits .f32 = 32 ∨ (Rect.block (s := S1x160) S1x160.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .f32 = 32 ∨ (Rect.block (s := S50000x1) S2000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x160.size a ≤ S50000x160.size a
  hwx2_5 : ∀ i : grid2.Coords, EltTy.bits .f32 = 32 ∨ (Rect.block (s := S50000x160) S2000x160.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x160.size a ≤ S50000x160.size a
  hwx2_6 : ∀ i : grid2.Coords, EltTy.bits .f32 = 32 ∨ (Rect.block (s := S50000x160) S2000x160.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x160.size a ≤ S50000x160.size a
  hwx3_0 : ∀ i : grid3.Coords, EltTy.bits .f32 = 32 ∨ (Rect.block (s := S50000x160) S2000x160.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x160.size a ≤ S50000x160.size a
  hwx3_1 : ∀ i : grid3.Coords, EltTy.bits .f32 = 32 ∨ (Rect.block (s := S50000x160) S2000x160.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S160x128.size a ≤ S160x128.size a
  hwx3_2 : ∀ i : grid3.Coords, EltTy.bits .f32 = 32 ∨ (Rect.block (s := S160x128) S160x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x1.size a ≤ S50000x1.size a
  hwx3_4 : ∀ i : grid3.Coords, EltTy.bits .f32 = 32 ∨ (Rect.block (s := S50000x1) S2000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S50x128.size a ≤ S50x128.size a
  hwx5_0 : ∀ i : grid5.Coords, EltTy.bits .f32 = 32 ∨ (Rect.block (s := S50x128) S50x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S50x1.size a ≤ S50x1.size a
  hwx5_1 : ∀ i : grid5.Coords, EltTy.bits .f32 = 32 ∨ (Rect.block (s := S50x1) S50x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x10.size a ≤ S128x10.size a
  hwx5_2 : ∀ i : grid5.Coords, EltTy.bits .f32 = 32 ∨ (Rect.block (s := S128x10) S128x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x10.size a ≤ S1x10.size a
  hwx5_3 : ∀ i : grid5.Coords, EltTy.bits .f32 = 32 ∨ (Rect.block (s := S1x10) S1x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S50x10.size a ≤ S50x10.size a
  hwx5_4 : ∀ i : grid5.Coords, EltTy.bits .f32 = 32 ∨ (Rect.block (s := S50x10) S50x10.size (cc5_transform_4 i) (hinb5_4 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def dot_S2000x128_S128x160_S2000x160_1_0_0_1_n_n : DotDims S2000x128 S128x160 S2000x160 where
  lhsContracting := [1]
  rhsContracting := [0]
  lhsNonContracting := [0]
  rhsNonContracting := [1]
  lhsBatch := []
  rhsBatch := []
  wf := dot_S2000x128_S128x160_S2000x160_1_0_0_1_n_n_wf
def gather_S50000x160_S500000x1_S500000x160_1_0_n_n_0_1_1160 : GatherDims S50000x160 S500000x1 S500000x160 where
  offsetDims := [1]
  collapsedSliceDims := [0]
  operandBatchingDims := []
  startIndicesBatchingDims := []
  startIndexMap := [0]
  indexVectorDim := 1
  sliceSizes := ![1, 160]
  wf := gather_S50000x160_S500000x1_S500000x160_1_0_n_n_0_1_1160_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def dot_S2000x160_S160x160_S2000x160_1_0_0_1_n_n : DotDims S2000x160 S160x160 S2000x160 where
  lhsContracting := [1]
  rhsContracting := [0]
  lhsNonContracting := [0]
  rhsNonContracting := [1]
  lhsBatch := []
  rhsBatch := []
  wf := dot_S2000x160_S160x160_S2000x160_1_0_0_1_n_n_wf
def dot_S2000x160_S160x128_S2000x128_1_0_0_1_n_n : DotDims S2000x160 S160x128 S2000x128 where
  lhsContracting := [1]
  rhsContracting := [0]
  lhsNonContracting := [0]
  rhsNonContracting := [1]
  lhsBatch := []
  rhsBatch := []
  wf := dot_S2000x160_S160x128_S2000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50x128_S50000x1_S50000x128_1_0_0_1 : ScatterDims S50x128 S50000x1 S50000x128 where
  updateWindowDims := [1]
  insertedWindowDims := [0]
  scatterDimsToOperandDims := [0]
  indexVectorDim := 1
  wf := scatter_S50x128_S50000x1_S50000x128_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def dot_S50x128_S128x10_S50x10_1_0_0_1_n_n : DotDims S50x128 S128x10 S50x10 where
  lhsContracting := [1]
  rhsContracting := [0]
  lhsNonContracting := [0]
  rhsNonContracting := [1]
  lhsBatch := []
  rhsBatch := []
  wf := dot_S50x128_S128x10_S50x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_0) S2000x160.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32_1) S2000x160.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32_1) S2000x160.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S160x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46_0) S2000x160.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v46_1) S2000x160.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v58) S2000x160.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46_1) S2000x160.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S160x160.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x160.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S2000x160.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S2000x160.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v72) S2000x160.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60_1) S2000x160.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S160x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v14) S2000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v74_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v74_1) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v86) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74_1) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v87) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v90) S50x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v95) S50x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S128x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S50x10.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S50000 : Shape := ⟨1, ![50000]⟩
abbrev S128x160 : Shape := ⟨2, ![128, 160]⟩
abbrev S160 : Shape := ⟨1, ![160]⟩
abbrev S160x160 : Shape := ⟨2, ![160, 160]⟩
abbrev S160x128 : Shape := ⟨2, ![160, 128]⟩
abbrev S128 : Shape := ⟨1, ![128]⟩
abbrev S128x10 : Shape := ⟨2, ![128, 10]⟩
abbrev S10 : Shape := ⟨1, ![10]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S50000x160 : Shape := ⟨2, ![50000, 160]⟩
abbrev S500000x160 : Shape := ⟨2, ![500000, 160]⟩
abbrev S50000x1 : Shape := ⟨2, ![50000, 1]⟩
abbrev S1x160 : Shape := ⟨2, ![1, 160]⟩
abbrev S500000x128 : Shape := ⟨2, ![500000, 128]⟩
abbrev S1x128 : Shape := ⟨2, ![1, 128]⟩
abbrev S50x128 : Shape := ⟨2, ![50, 128]⟩
abbrev S50 : Shape := ⟨1, ![50]⟩
abbrev S50x1 : Shape := ⟨2, ![50, 1]⟩
abbrev S50x10 : Shape := ⟨2, ![50, 10]⟩
abbrev S1x10 : Shape := ⟨2, ![1, 10]⟩

abbrev nBuf : Space → Nat
  | .hbm => 250
  | .vmem => 0
  | .smem => 0
  | _ => 0

abbrev hbmTy0_0 (i : Nat) : BufTy := match i % 128 with
  | 0 => ⟨S50000x128, .f32⟩
  | 1 => ⟨S2x500000, .i32⟩
  | 2 => ⟨S50000, .i32⟩
  | 3 => ⟨S128x160, .f32⟩
  | 4 => ⟨S160, .f32⟩
  | 5 => ⟨S160x160, .f32⟩
  | 6 => ⟨S160, .f32⟩
  | 7 => ⟨S160x160, .f32⟩
  | 8 => ⟨S160, .f32⟩
  | 9 => ⟨S160x128, .f32⟩
  | 10 => ⟨S128, .f32⟩
  | 11 => ⟨S128x10, .f32⟩
  | 12 => ⟨S10, .f32⟩
  | 13 => ⟨S1x500000, .i32⟩
  | 14 => ⟨S500000, .i32⟩
  | 15 => ⟨S1x500000, .i32⟩
  | 16 => ⟨S500000, .i32⟩
  | 17 => ⟨S_, .f32⟩
  | 18 => ⟨S500000, .f32⟩
  | 19 => ⟨S_, .f32⟩
  | 20 => ⟨S50000, .f32⟩
  | 21 => ⟨S500000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000x160, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000, .f32⟩
  | 46 => ⟨S500000, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x160, .f32⟩
  | 56 => ⟨S500000x1, .f32⟩
  | 57 => ⟨S500000x160, .f32⟩
  | 58 => ⟨S500000x160, .f32⟩
  | 59 => ⟨S_, .f32⟩
  | 60 => ⟨S50000x160, .f32⟩
  | 61 => ⟨S500000x1, .i32⟩
  | 62 => ⟨S50000x160, .f32⟩
  | 63 => ⟨S_, .f32⟩
  | 64 => ⟨S50000, .f32⟩
  | 65 => ⟨S50000, .f32⟩
  | 66 => ⟨S50000, .f32⟩
  | 67 => ⟨S50000x1, .f32⟩
  | 68 => ⟨S50000x160, .f32⟩
  | 69 => ⟨S50000x160, .f32⟩
  | 70 => ⟨S50000x160, .f32⟩
  | 71 => ⟨S1x160, .f32⟩
  | 72 => ⟨S50000x160, .f32⟩
  | 73 => ⟨S50000x160, .f32⟩
  | 74 => ⟨S50000x160, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000, .f32⟩
  | 93 => ⟨S500000, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x160, .f32⟩
  | 103 => ⟨S500000x1, .f32⟩
  | 104 => ⟨S500000x160, .f32⟩
  | 105 => ⟨S500000x160, .f32⟩
  | 106 => ⟨S_, .f32⟩
  | 107 => ⟨S50000x160, .f32⟩
  | 108 => ⟨S500000x1, .i32⟩
  | 109 => ⟨S50000x160, .f32⟩
  | 110 => ⟨S_, .f32⟩
  | 111 => ⟨S50000, .f32⟩
  | 112 => ⟨S50000, .f32⟩
  | 113 => ⟨S50000, .f32⟩
  | 114 => ⟨S50000x1, .f32⟩
  | 115 => ⟨S50000x160, .f32⟩
  | 116 => ⟨S50000x160, .f32⟩
  | 117 => ⟨S50000x160, .f32⟩
  | 118 => ⟨S1x160, .f32⟩
  | 119 => ⟨S50000x160, .f32⟩
  | 120 => ⟨S50000x160, .f32⟩
  | 121 => ⟨S50000x160, .f32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S50000x128, .f32⟩

abbrev hbmTy0_1 (i : Nat) : BufTy := match i % 128 with
  | 0 => ⟨S500000, .i32⟩
  | 1 => ⟨S500000x1, .i32⟩
  | 2 => ⟨S500000, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000, .f32⟩
  | 12 => ⟨S500000, .f32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x160, .f32⟩
  | 22 => ⟨S500000x1, .f32⟩
  | 23 => ⟨S500000x160, .f32⟩
  | 24 => ⟨S500000x160, .f32⟩
  | 25 => ⟨S_, .f32⟩
  | 26 => ⟨S50000x160, .f32⟩
  | 27 => ⟨S500000x1, .i32⟩
  | 28 => ⟨S50000x160, .f32⟩
  | 29 => ⟨S_, .f32⟩
  | 30 => ⟨S50000, .f32⟩
  | 31 => ⟨S50000, .f32⟩
  | 32 => ⟨S50000, .f32⟩
  | 33 => ⟨S50000x1, .f32⟩
  | 34 => ⟨S50000x160, .f32⟩
  | 35 => ⟨S50000x160, .f32⟩
  | 36 => ⟨S50000x160, .f32⟩
  | 37 => ⟨S1x160, .f32⟩
  | 38 => ⟨S50000x160, .f32⟩
  | 39 => ⟨S50000x160, .f32⟩
  | 40 => ⟨S50000x128, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S500000x1, .i32⟩
  | 58 => ⟨S500000, .f32⟩
  | 59 => ⟨S500000, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .f32⟩
  | 69 => ⟨S500000x1, .f32⟩
  | 70 => ⟨S500000x128, .f32⟩
  | 71 => ⟨S500000x128, .f32⟩
  | 72 => ⟨S_, .f32⟩
  | 73 => ⟨S50000x128, .f32⟩
  | 74 => ⟨S500000x1, .i32⟩
  | 75 => ⟨S50000x128, .f32⟩
  | 76 => ⟨S_, .f32⟩
  | 77 => ⟨S50000, .f32⟩
  | 78 => ⟨S50000, .f32⟩
  | 79 => ⟨S50000, .f32⟩
  | 80 => ⟨S50000x1, .f32⟩
  | 81 => ⟨S50000x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50x128, .f32⟩
  | 89 => ⟨S50000x1, .i32⟩
  | 90 => ⟨S50x128, .f32⟩
  | 91 => ⟨S_, .f32⟩
  | 92 => ⟨S50000, .f32⟩
  | 93 => ⟨S_, .f32⟩
  | 94 => ⟨S50, .f32⟩
  | 95 => ⟨S50000x1, .i32⟩
  | 96 => ⟨S50, .f32⟩
  | 97 => ⟨S_, .f32⟩
  | 98 => ⟨S50, .f32⟩
  | 99 => ⟨S50, .f32⟩
  | 100 => ⟨S50x1, .f32⟩
  | 101 => ⟨S50x128, .f32⟩
  | 102 => ⟨S50x128, .f32⟩
  | 103 => ⟨S50x10, .f32⟩
  | 104 => ⟨S1x10, .f32⟩
  | 105 => ⟨S50x10, .f32⟩
  | 106 => ⟨S50x10, .f32⟩
  | 107 => ⟨S_, .f32⟩
  | 108 => ⟨S50, .f32⟩
  | 109 => ⟨S_, .f32⟩
  | 110 => ⟨S50, .f32⟩
  | 111 => ⟨S50, .f32⟩
  | 112 => ⟨S50x1, .f32⟩
  | 113 => ⟨S50x10, .f32⟩
  | 114 => ⟨S50x10, .f32⟩
  | 115 => ⟨S50x10, .f32⟩
  | 116 => ⟨S_, .f32⟩
  | 117 => ⟨S50, .f32⟩
  | 118 => ⟨S50x1, .f32⟩
  | 119 => ⟨S50x1, .f32⟩
  | 120 => ⟨S50x10, .f32⟩
  | 121 => ⟨S50x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_17 : Ref sig .tc := ⟨.hbm, 122, rfl⟩
abbrev main_v90 : Ref sig .tc := ⟨.hbm, 123, rfl⟩
abbrev main_v91 : Ref sig .tc := ⟨.hbm, 124, rfl⟩
abbrev main_c_18 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_19 : Ref sig .tc := ⟨.hbm, 131, rfl⟩
abbrev main_v97 : Ref sig .tc := ⟨.hbm, 132, rfl⟩
abbrev main_v98 : Ref sig .tc := ⟨.hbm, 133, rfl⟩
abbrev main_c_20 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_c_21 : Ref sig .tc := ⟨.hbm, 141, rfl⟩
abbrev main_v105 : Ref sig .tc := ⟨.hbm, 142, rfl⟩
abbrev main_v106 : Ref sig .tc := ⟨.hbm, 143, rfl⟩
abbrev main_c_22 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_23 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_24 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_c_25 : Ref sig .tc := ⟨.hbm, 169, rfl⟩
abbrev main_v129 : Ref sig .tc := ⟨.hbm, 170, rfl⟩
abbrev main_v130 : Ref sig .tc := ⟨.hbm, 171, rfl⟩
abbrev main_c_26 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_c_27 : Ref sig .tc := ⟨.hbm, 178, rfl⟩
abbrev main_v136 : Ref sig .tc := ⟨.hbm, 179, rfl⟩
abbrev main_v137 : Ref sig .tc := ⟨.hbm, 180, rfl⟩
abbrev main_c_28 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_c_29 : Ref sig .tc := ⟨.hbm, 188, rfl⟩
abbrev main_v144 : Ref sig .tc := ⟨.hbm, 189, rfl⟩
abbrev main_v145 : Ref sig .tc := ⟨.hbm, 190, rfl⟩
abbrev main_c_30 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_31 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_32 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_cst_33 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_cst_34 : Ref sig .tc := ⟨.hbm, 219, rfl⟩
abbrev main_v170 : Ref sig .tc := ⟨.hbm, 220, rfl⟩
abbrev main_cst_35 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_36 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_call0_cst : Ref sig .tc := ⟨.hbm, 235, rfl⟩
abbrev main_call0_v0 : Ref sig .tc := ⟨.hbm, 236, rfl⟩
abbrev main_call0_cst_0 : Ref sig .tc := ⟨.hbm, 237, rfl⟩
abbrev main_call0_v1 : Ref sig .tc := ⟨.hbm, 238, rfl⟩
abbrev main_call0_v2 : Ref sig .tc := ⟨.hbm, 239, rfl⟩
abbrev main_call0_v3 : Ref sig .tc := ⟨.hbm, 240, rfl⟩
abbrev main_call0_v4 : Ref sig .tc := ⟨.hbm, 241, rfl⟩
abbrev main_call0_v5 : Ref sig .tc := ⟨.hbm, 242, rfl⟩
abbrev main_call0_v6 : Ref sig .tc := ⟨.hbm, 243, rfl⟩
abbrev main_call0_cst_1 : Ref sig .tc := ⟨.hbm, 244, rfl⟩
abbrev main_call0_v7 : Ref sig .tc := ⟨.hbm, 245, rfl⟩
abbrev main_call0_v8 : Ref sig .tc := ⟨.hbm, 246, rfl⟩
abbrev main_call0_v9 : Ref sig .tc := ⟨.hbm, 247, rfl⟩
abbrev main_call0_v10 : Ref sig .tc := ⟨.hbm, 248, rfl⟩
abbrev main_v183 : Ref sig .tc := ⟨.hbm, 249, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S500000x1_S500000x160_0_1 : S500000x1.BroadcastsInDim S500000x160 (![0, 1] : Fin 2 → Fin S500000x160.rank)
  bcast_S_S50000x160 : S_.BroadcastsInDim S50000x160 (![] : Fin 0 → Fin S50000x160.rank)
  bcast_S50000_S50000x1_0 : S50000.BroadcastsInDim S50000x1 (![0] : Fin 1 → Fin S50000x1.rank)
  bcast_S50000x1_S50000x160_0_1 : S50000x1.BroadcastsInDim S50000x160 (![0, 1] : Fin 2 → Fin S50000x160.rank)
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50x128 : S_.BroadcastsInDim S50x128 (![] : Fin 0 → Fin S50x128.rank)
  bcast_S_S50 : S_.BroadcastsInDim S50 (![] : Fin 0 → Fin S50.rank)
  bcast_S50_S50x1_0 : S50.BroadcastsInDim S50x1 (![0] : Fin 1 → Fin S50x1.rank)
  bcast_S50x1_S50x128_0_1 : S50x1.BroadcastsInDim S50x128 (![0, 1] : Fin 2 → Fin S50x128.rank)
  bcast_S10_S1x10_1 : S10.BroadcastsInDim S1x10 (![1] : Fin 1 → Fin S1x10.rank)
  bcast_S1x10_S50x10_0_1 : S1x10.BroadcastsInDim S50x10 (![0, 1] : Fin 2 → Fin S50x10.rank)
  reducesTo_S50x10_S50_d1 : S50x10.ReducesTo [1] S50
  h_S_ : 0 < S_.numel
  bcast_S50x1_S50x10_0_1 : S50x1.BroadcastsInDim S50x10 (![0, 1] : Fin 2 → Fin S50x10.rank)
  scatter_S50000_S500000x1_S500000_n_0_0_1_wf : ScatterDims.WF S50000 S500000x1 S500000 [] [0] [0] 1
  dot_S50000x128_S128x160_S50000x160_1_0_0_1_n_n_wf : DotDims.WF S50000x128 S128x160 S50000x160 [1] [0] [0] [1] [] []
  gather_S50000_S500000x1_S500000_n_0_n_n_0_1_1_wf : GatherDims.WF S50000 S500000x1 S500000 [] [0] [] [0] [] 1 ![1]
  gather_S50000x160_S500000x1_S500000x160_1_0_n_n_0_1_1160_wf : GatherDims.WF S50000x160 S500000x1 S500000x160 [1] [0] [] [0] [] 1 ![1, 160]
  scatter_S50000x160_S500000x1_S500000x160_1_0_0_1_wf : ScatterDims.WF S50000x160 S500000x1 S500000x160 [1] [0] [0] 1
  dot_S50000x160_S160x160_S50000x160_1_0_0_1_n_n_wf : DotDims.WF S50000x160 S160x160 S50000x160 [1] [0] [0] [1] [] []
  dot_S50000x160_S160x128_S50000x128_1_0_0_1_n_n_wf : DotDims.WF S50000x160 S160x128 S50000x128 [1] [0] [0] [1] [] []
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50x128_S50000x1_S50000x128_1_0_0_1_wf : ScatterDims.WF S50x128 S50000x1 S50000x128 [1] [0] [0] 1
  scatter_S50_S50000x1_S50000_n_0_0_1_wf : ScatterDims.WF S50 S50000x1 S50000 [] [0] [0] 1
  dot_S50x128_S128x10_S50x10_1_0_0_1_n_n_wf : DotDims.WF S50x128 S128x10 S50x10 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x160_S50000x160_1_0_0_1_n_n : DotDims S50000x128 S128x160 S50000x160 where
  lhsContracting := [1]
  rhsContracting := [0]
  lhsNonContracting := [0]
  rhsNonContracting := [1]
  lhsBatch := []
  rhsBatch := []
  wf := dot_S50000x128_S128x160_S50000x160_1_0_0_1_n_n_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x160_S500000x1_S500000x160_1_0_n_n_0_1_1160 : GatherDims S50000x160 S500000x1 S500000x160 where
  offsetDims := [1]
  collapsedSliceDims := [0]
  operandBatchingDims := []
  startIndicesBatchingDims := []
  startIndexMap := [0]
  indexVectorDim := 1
  sliceSizes := ![1, 160]
  wf := gather_S50000x160_S500000x1_S500000x160_1_0_n_n_0_1_1160_wf
def scatter_S50000x160_S500000x1_S500000x160_1_0_0_1 : ScatterDims S50000x160 S500000x1 S500000x160 where
  updateWindowDims := [1]
  insertedWindowDims := [0]
  scatterDimsToOperandDims := [0]
  indexVectorDim := 1
  wf := scatter_S50000x160_S500000x1_S500000x160_1_0_0_1_wf
def dot_S50000x160_S160x160_S50000x160_1_0_0_1_n_n : DotDims S50000x160 S160x160 S50000x160 where
  lhsContracting := [1]
  rhsContracting := [0]
  lhsNonContracting := [0]
  rhsNonContracting := [1]
  lhsBatch := []
  rhsBatch := []
  wf := dot_S50000x160_S160x160_S50000x160_1_0_0_1_n_n_wf
def dot_S50000x160_S160x128_S50000x128_1_0_0_1_n_n : DotDims S50000x160 S160x128 S50000x128 where
  lhsContracting := [1]
  rhsContracting := [0]
  lhsNonContracting := [0]
  rhsNonContracting := [1]
  lhsBatch := []
  rhsBatch := []
  wf := dot_S50000x160_S160x128_S50000x128_1_0_0_1_n_n_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50x128_S50000x1_S50000x128_1_0_0_1 : ScatterDims S50x128 S50000x1 S50000x128 where
  updateWindowDims := [1]
  insertedWindowDims := [0]
  scatterDimsToOperandDims := [0]
  indexVectorDim := 1
  wf := scatter_S50x128_S50000x1_S50000x128_1_0_0_1_wf
def scatter_S50_S50000x1_S50000_n_0_0_1 : ScatterDims S50 S50000x1 S50000 where
  updateWindowDims := []
  insertedWindowDims := [0]
  scatterDimsToOperandDims := [0]
  indexVectorDim := 1
  wf := scatter_S50_S50000x1_S50000_n_0_0_1_wf
def dot_S50x128_S128x10_S50x10_1_0_0_1_n_n : DotDims S50x128 S128x10 S50x10 where
  lhsContracting := [1]
  rhsContracting := [0]
  lhsNonContracting := [0]
  rhsNonContracting := [1]
  lhsBatch := []
  rhsBatch := []
  wf := dot_S50x128_S128x10_S50x10_1_0_0_1_n_n_wf

class Facts : Prop extends Facts₀ where

variable [Facts]
-- ==== Proof.RunValue.lean ====
/-
  The idealized kernel's run with its result array named.

  The program is six row-blocked regions among stretches of host operations. The run's thread state ends with
  every unscoped buffer at the last boundary's contents `W12` — the fold of the stretches' results and the
  regions' write-backs from the launch memory — so the result array `main_v97`, like each argument, is read off
  the final state there: the same launch over the same segments as the frame claim, with the result added to
  what is read.
-/
import proofs.«133490_j51754355916835_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v97) = W12 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v97 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c)⟩)

end Cert.KernelIdeal.RunValue

end
-- ==== Proof.LibHostKeeps.lean ====
/-
  A host stretch leaves alone every buffer none of its operations writes: the fold of the stretch over the memory, read
  at such a buffer, is the memory there. The tactic below closes that goal for a literal stretch and a literal buffer,
  one inequality of references per operation.
-/
import Idealize.ShloMosaic.Lib.StableHlo.Run

open Idealize.ShloMosaic

/-- Closes `StableHlo.after ops W b = W b` when no operation of the literal list `ops` writes the literal buffer `b`. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.Keeps.lean ====
/-
  Buffers carried unchanged across segments.

  The program is a fold of twelve segments over the memory: a stretch of host operations writes only its own
  result buffers, and a region writes only its output arrays (an input array ends a region as it entered it). So
  a buffer keeps its contents from the boundary where it was produced to every later boundary where it is read,
  one step per segment in between: the index vectors, the edge weights and the self-loop coefficients made by the
  first stretch, each layer's self-loop part until the next region adds it in, and the argument arrays.
-/
import proofs.«133490_j51754355916835_1_alg».proof.Proof.Gen.KernelIdeal.Frame
import proofs.«133490_j51754355916835_1_alg».proof.Proof.LibHostKeeps
import Idealize.ShloMosaic.Lib.ValueIdx

set_option maxRecDepth 16384

noncomputable section

namespace Cert.KernelIdeal.Keeps

open Cert.KernelIdeal Cert.KernelIdeal.Gen
open Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ) (ρ : Dev nD → PrngReg) (c : Dev nD)

theorem v1_step1 : W2 m ρ c (Proc.devRef .tc main_v1) = W1 m ρ c (Proc.devRef .tc main_v1) :=
  (W2_of_ne m ρ c main_v1 (by decide))
theorem v1_step2 : W3 m ρ c (Proc.devRef .tc main_v1) = W2 m ρ c (Proc.devRef .tc main_v1) :=
  (by show StableHlo.after hostOps1 (W2 m ρ c) (Proc.devRef .tc main_v1) = _; host_keeps hostOps1)
theorem v1_step3 : W4 m ρ c (Proc.devRef .tc main_v1) = W3 m ρ c (Proc.devRef .tc main_v1) :=
  (W4_of_ne m ρ c main_v1 (by decide))
theorem v1_step4 : W5 m ρ c (Proc.devRef .tc main_v1) = W4 m ρ c (Proc.devRef .tc main_v1) :=
  (by show StableHlo.after hostOps2 (W4 m ρ c) (Proc.devRef .tc main_v1) = _; host_keeps hostOps2)
theorem v1_step5 : W6 m ρ c (Proc.devRef .tc main_v1) = W5 m ρ c (Proc.devRef .tc main_v1) :=
  (W6_of_ne m ρ c main_v1 (by decide))
theorem v1_step6 : W7 m ρ c (Proc.devRef .tc main_v1) = W6 m ρ c (Proc.devRef .tc main_v1) :=
  (by show StableHlo.after hostOps3 (W6 m ρ c) (Proc.devRef .tc main_v1) = _; host_keeps hostOps3)
theorem v1_step7 : W8 m ρ c (Proc.devRef .tc main_v1) = W7 m ρ c (Proc.devRef .tc main_v1) :=
  (W8_of_ne m ρ c main_v1 (by decide))
/-- `main_v1` when boundary 2 is reached is what it was at boundary 1: nothing in between writes it. -/
theorem v1_at2 : W2 m ρ c (Proc.devRef .tc main_v1) = W1 m ρ c (Proc.devRef .tc main_v1) :=
  v1_step1 m ρ c
/-- `main_v1` when boundary 4 is reached is what it was at boundary 1: nothing in between writes it. -/
theorem v1_at4 : W4 m ρ c (Proc.devRef .tc main_v1) = W1 m ρ c (Proc.devRef .tc main_v1) :=
  ((v1_step3 m ρ c).trans (v1_step2 m ρ c)).trans (v1_step1 m ρ c)
/-- `main_v1` when boundary 6 is reached is what it was at boundary 1: nothing in between writes it. -/
theorem v1_at6 : W6 m ρ c (Proc.devRef .tc main_v1) = W1 m ρ c (Proc.devRef .tc main_v1) :=
  ((((v1_step5 m ρ c).trans (v1_step4 m ρ c)).trans (v1_step3 m ρ c)).trans (v1_step2 m ρ c)).trans (v1_step1 m ρ c)
/-- `main_v1` when boundary 8 is reached is what it was at boundary 1: nothing in between writes it. -/
theorem v1_at8 : W8 m ρ c (Proc.devRef .tc main_v1) = W1 m ρ c (Proc.devRef .tc main_v1) :=
  ((((((v1_step7 m ρ c).trans (v1_step6 m ρ c)).trans (v1_step5 m ρ c)).trans (v1_step4 m ρ c)).trans (v1_step3 m ρ c)).trans (v1_step2 m ρ c)).trans (v1_step1 m ρ c)

theorem v3_step1 : W2 m ρ c (Proc.devRef .tc main_v3) = W1 m ρ c (Proc.devRef .tc main_v3) :=
  (W2_of_ne m ρ c main_v3 (by decide))
theorem v3_step2 : W3 m ρ c (Proc.devRef .tc main_v3) = W2 m ρ c (Proc.devRef .tc main_v3) :=
  (by show StableHlo.after hostOps1 (W2 m ρ c) (Proc.devRef .tc main_v3) = _; host_keeps hostOps1)
theorem v3_step3 : W4 m ρ c (Proc.devRef .tc main_v3) = W3 m ρ c (Proc.devRef .tc main_v3) :=
  (W4_of_ne m ρ c main_v3 (by decide))
theorem v3_step4 : W5 m ρ c (Proc.devRef .tc main_v3) = W4 m ρ c (Proc.devRef .tc main_v3) :=
  (by show StableHlo.after hostOps2 (W4 m ρ c) (Proc.devRef .tc main_v3) = _; host_keeps hostOps2)
theorem v3_step5 : W6 m ρ c (Proc.devRef .tc main_v3) = W5 m ρ c (Proc.devRef .tc main_v3) :=
  (W6_of_ne m ρ c main_v3 (by decide))
theorem v3_step6 : W7 m ρ c (Proc.devRef .tc main_v3) = W6 m ρ c (Proc.devRef .tc main_v3) :=
  (by show StableHlo.after hostOps3 (W6 m ρ c) (Proc.devRef .tc main_v3) = _; host_keeps hostOps3)
theorem v3_step7 : W8 m ρ c (Proc.devRef .tc main_v3) = W7 m ρ c (Proc.devRef .tc main_v3) :=
  (W8_of_ne m ρ c main_v3 (by decide))
/-- `main_v3` when boundary 2 is reached is what it was at boundary 1: nothing in between writes it. -/
theorem v3_at2 : W2 m ρ c (Proc.devRef .tc main_v3) = W1 m ρ c (Proc.devRef .tc main_v3) :=
  v3_step1 m ρ c
/-- `main_v3` when boundary 4 is reached is what it was at boundary 1: nothing in between writes it. -/
theorem v3_at4 : W4 m ρ c (Proc.devRef .tc main_v3) = W1 m ρ c (Proc.devRef .tc main_v3) :=
  ((v3_step3 m ρ c).trans (v3_step2 m ρ c)).trans (v3_step1 m ρ c)
/-- `main_v3` when boundary 6 is reached is what it was at boundary 1: nothing in between writes it. -/
theorem v3_at6 : W6 m ρ c (Proc.devRef .tc main_v3) = W1 m ρ c (Proc.devRef .tc main_v3) :=
  ((((v3_step5 m ρ c).trans (v3_step4 m ρ c)).trans (v3_step3 m ρ c)).trans (v3_step2 m ρ c)).trans (v3_step1 m ρ c)
/-- `main_v3` when boundary 8 is reached is what it was at boundary 1: nothing in between writes it. -/
theorem v3_at8 : W8 m ρ c (Proc.devRef .tc main_v3) = W1 m ρ c (Proc.devRef .tc main_v3) :=
  ((((((v3_step7 m ρ c).trans (v3_step6 m ρ c)).trans (v3_step5 m ρ c)).trans (v3_step4 m ρ c)).trans (v3_step3 m ρ c)).trans (v3_step2 m ρ c)).trans (v3_step1 m ρ c)

theorem v30_step1 : W2 m ρ c (Proc.devRef .tc main_v30) = W1 m ρ c (Proc.devRef .tc main_v30) :=
  (W2_of_ne m ρ c main_v30 (by decide))
theorem v30_step2 : W3 m ρ c (Proc.devRef .tc main_v30) = W2 m ρ c (Proc.devRef .tc main_v30) :=
  (by show StableHlo.after hostOps1 (W2 m ρ c) (Proc.devRef .tc main_v30) = _; host_keeps hostOps1)
theorem v30_step3 : W4 m ρ c (Proc.devRef .tc main_v30) = W3 m ρ c (Proc.devRef .tc main_v30) :=
  (W4_of_ne m ρ c main_v30 (by decide))
theorem v30_step4 : W5 m ρ c (Proc.devRef .tc main_v30) = W4 m ρ c (Proc.devRef .tc main_v30) :=
  (by show StableHlo.after hostOps2 (W4 m ρ c) (Proc.devRef .tc main_v30) = _; host_keeps hostOps2)
theorem v30_step5 : W6 m ρ c (Proc.devRef .tc main_v30) = W5 m ρ c (Proc.devRef .tc main_v30) :=
  (W6_of_ne m ρ c main_v30 (by decide))
theorem v30_step6 : W7 m ρ c (Proc.devRef .tc main_v30) = W6 m ρ c (Proc.devRef .tc main_v30) :=
  (by show StableHlo.after hostOps3 (W6 m ρ c) (Proc.devRef .tc main_v30) = _; host_keeps hostOps3)
theorem v30_step7 : W8 m ρ c (Proc.devRef .tc main_v30) = W7 m ρ c (Proc.devRef .tc main_v30) :=
  (W8_of_ne m ρ c main_v30 (by decide))
/-- `main_v30` when boundary 2 is reached is what it was at boundary 1: nothing in between writes it. -/
theorem v30_at2 : W2 m ρ c (Proc.devRef .tc main_v30) = W1 m ρ c (Proc.devRef .tc main_v30) :=
  v30_step1 m ρ c
/-- `main_v30` when boundary 4 is reached is what it was at boundary 1: nothing in between writes it. -/
theorem v30_at4 : W4 m ρ c (Proc.devRef .tc main_v30) = W1 m ρ c (Proc.devRef .tc main_v30) :=
  ((v30_step3 m ρ c).trans (v30_step2 m ρ c)).trans (v30_step1 m ρ c)
/-- `main_v30` when boundary 6 is reached is what it was at boundary 1: nothing in between writes it. -/
theorem v30_at6 : W6 m ρ c (Proc.devRef .tc main_v30) = W1 m ρ c (Proc.devRef .tc main_v30) :=
  ((((v30_step5 m ρ c).trans (v30_step4 m ρ c)).trans (v30_step3 m ρ c)).trans (v30_step2 m ρ c)).trans (v30_step1 m ρ c)
/-- `main_v30` when boundary 8 is reached is what it was at boundary 1: nothing in between writes it. -/
theorem v30_at8 : W8 m ρ c (Proc.devRef .tc main_v30) = W1 m ρ c (Proc.devRef .tc main_v30) :=
  ((((((v30_step7 m ρ c).trans (v30_step6 m ρ c)).trans (v30_step5 m ρ c)).trans (v30_step4 m ρ c)).trans (v30_step3 m ρ c)).trans (v30_step2 m ρ c)).trans (v30_step1 m ρ c)

theorem v14_step1 : W2 m ρ c (Proc.devRef .tc main_v14) = W1 m ρ c (Proc.devRef .tc main_v14) :=
  ((W2_arr m ρ c 3).trans (((dat0 (V1 m ρ) c).arrAt_in 3 rfl _).trans (A_eq0 (V1 m ρ) c 3)))
theorem v14_step2 : W3 m ρ c (Proc.devRef .tc main_v14) = W2 m ρ c (Proc.devRef .tc main_v14) :=
  (by show StableHlo.after hostOps1 (W2 m ρ c) (Proc.devRef .tc main_v14) = _; host_keeps hostOps1)
theorem v14_step3 : W4 m ρ c (Proc.devRef .tc main_v14) = W3 m ρ c (Proc.devRef .tc main_v14) :=
  ((W4_arr m ρ c 4).trans (((dat1 (V3 m ρ) c).arrAt_in 4 rfl _).trans (A_eq1 (V3 m ρ) c 4)))
theorem v14_step4 : W5 m ρ c (Proc.devRef .tc main_v14) = W4 m ρ c (Proc.devRef .tc main_v14) :=
  (by show StableHlo.after hostOps2 (W4 m ρ c) (Proc.devRef .tc main_v14) = _; host_keeps hostOps2)
theorem v14_step5 : W6 m ρ c (Proc.devRef .tc main_v14) = W5 m ρ c (Proc.devRef .tc main_v14) :=
  ((W6_arr m ρ c 4).trans (((dat2 (V5 m ρ) c).arrAt_in 4 rfl _).trans (A_eq2 (V5 m ρ) c 4)))
theorem v14_step6 : W7 m ρ c (Proc.devRef .tc main_v14) = W6 m ρ c (Proc.devRef .tc main_v14) :=
  (by show StableHlo.after hostOps3 (W6 m ρ c) (Proc.devRef .tc main_v14) = _; host_keeps hostOps3)
/-- `main_v14` when boundary 3 is reached is what it was at boundary 1: nothing in between writes it. -/
theorem v14_at3 : W3 m ρ c (Proc.devRef .tc main_v14) = W1 m ρ c (Proc.devRef .tc main_v14) :=
  (v14_step2 m ρ c).trans (v14_step1 m ρ c)
/-- `main_v14` when boundary 5 is reached is what it was at boundary 1: nothing in between writes it. -/
theorem v14_at5 : W5 m ρ c (Proc.devRef .tc main_v14) = W1 m ρ c (Proc.devRef .tc main_v14) :=
  (((v14_step4 m ρ c).trans (v14_step3 m ρ c)).trans (v14_step2 m ρ c)).trans (v14_step1 m ρ c)
/-- `main_v14` when boundary 7 is reached is what it was at boundary 1: nothing in between writes it. -/
theorem v14_at7 : W7 m ρ c (Proc.devRef .tc main_v14) = W1 m ρ c (Proc.devRef .tc main_v14) :=
  (((((v14_step6 m ρ c).trans (v14_step5 m ρ c)).trans (v14_step4 m ρ c)).trans (v14_step3 m ρ c)).trans (v14_step2 m ρ c)).trans (v14_step1 m ρ c)

theorem v32_1_step2 : W3 m ρ c (Proc.devRef .tc main_v32_1) = W2 m ρ c (Proc.devRef .tc main_v32_1) :=
  (by show StableHlo.after hostOps1 (W2 m ρ c) (Proc.devRef .tc main_v32_1) = _; host_keeps hostOps1)
/-- `main_v32_1` when boundary 3 is reached is what it was at boundary 2: nothing in between writes it. -/
theorem v32_1_at3 : W3 m ρ c (Proc.devRef .tc main_v32_1) = W2 m ρ c (Proc.devRef .tc main_v32_1) :=
  v32_1_step2 m ρ c

theorem v46_1_step4 : W5 m ρ c (Proc.devRef .tc main_v46_1) = W4 m ρ c (Proc.devRef .tc main_v46_1) :=
  (by show StableHlo.after hostOps2 (W4 m ρ c) (Proc.devRef .tc main_v46_1) = _; host_keeps hostOps2)
/-- `main_v46_1` when boundary 5 is reached is what it was at boundary 4: nothing in between writes it. -/
theorem v46_1_at5 : W5 m ρ c (Proc.devRef .tc main_v46_1) = W4 m ρ c (Proc.devRef .tc main_v46_1) :=
  v46_1_step4 m ρ c

theorem v60_1_step6 : W7 m ρ c (Proc.devRef .tc main_v60_1) = W6 m ρ c (Proc.devRef .tc main_v60_1) :=
  (by show StableHlo.after hostOps3 (W6 m ρ c) (Proc.devRef .tc main_v60_1) = _; host_keeps hostOps3)
/-- `main_v60_1` when boundary 7 is reached is what it was at boundary 6: nothing in between writes it. -/
theorem v60_1_at7 : W7 m ρ c (Proc.devRef .tc main_v60_1) = W6 m ρ c (Proc.devRef .tc main_v60_1) :=
  v60_1_step6 m ρ c

theorem v74_1_step8 : W9 m ρ c (Proc.devRef .tc main_v74_1) = W8 m ρ c (Proc.devRef .tc main_v74_1) :=
  (by show StableHlo.after hostOps4 (W8 m ρ c) (Proc.devRef .tc main_v74_1) = _; host_keeps hostOps4)
/-- `main_v74_1` when boundary 9 is reached is what it was at boundary 8: nothing in between writes it. -/
theorem v74_1_at9 : W9 m ρ c (Proc.devRef .tc main_v74_1) = W8 m ρ c (Proc.devRef .tc main_v74_1) :=
  v74_1_step8 m ρ c

theorem arg0_step0 : W1 m ρ c (Proc.devRef .tc main_arg0) = W0 m ρ c (Proc.devRef .tc main_arg0) :=
  (by show StableHlo.after hostOps0 (W0 m ρ c) (Proc.devRef .tc main_arg0) = _; host_keeps hostOps0)
/-- `main_arg0` when boundary 1 is reached is what it was at boundary 0: nothing in between writes it. -/
theorem arg0_at1 : W1 m ρ c (Proc.devRef .tc main_arg0) = W0 m ρ c (Proc.devRef .tc main_arg0) :=
  arg0_step0 m ρ c

theorem arg3_step0 : W1 m ρ c (Proc.devRef .tc main_arg3) = W0 m ρ c (Proc.devRef .tc main_arg3) :=
  (by show StableHlo.after hostOps0 (W0 m ρ c) (Proc.devRef .tc main_arg3) = _; host_keeps hostOps0)
/-- `main_arg3` when boundary 1 is reached is what it was at boundary 0: nothing in between writes it. -/
theorem arg3_at1 : W1 m ρ c (Proc.devRef .tc main_arg3) = W0 m ρ c (Proc.devRef .tc main_arg3) :=
  arg3_step0 m ρ c

theorem arg6_step0 : W1 m ρ c (Proc.devRef .tc main_arg6) = W0 m ρ c (Proc.devRef .tc main_arg6) :=
  (by show StableHlo.after hostOps0 (W0 m ρ c) (Proc.devRef .tc main_arg6) = _; host_keeps hostOps0)
theorem arg6_step1 : W2 m ρ c (Proc.devRef .tc main_arg6) = W1 m ρ c (Proc.devRef .tc main_arg6) :=
  (W2_of_ne m ρ c main_arg6 (by decide))
/-- `main_arg6` when boundary 2 is reached is what it was at boundary 0: nothing in between writes it. -/
theorem arg6_at2 : W2 m ρ c (Proc.devRef .tc main_arg6) = W0 m ρ c (Proc.devRef .tc main_arg6) :=
  (arg6_step1 m ρ c).trans (arg6_step0 m ρ c)

theorem arg5_step0 : W1 m ρ c (Proc.devRef .tc main_arg5) = W0 m ρ c (Proc.devRef .tc main_arg5) :=
  (by show StableHlo.after hostOps0 (W0 m ρ c) (Proc.devRef .tc main_arg5) = _; host_keeps hostOps0)
theorem arg5_step1 : W2 m ρ c (Proc.devRef .tc main_arg5) = W1 m ρ c (Proc.devRef .tc main_arg5) :=
  (W2_of_ne m ρ c main_arg5 (by decide))
theorem arg5_step2 : W3 m ρ c (Proc.devRef .tc main_arg5) = W2 m ρ c (Proc.devRef .tc main_arg5) :=
  (by show StableHlo.after hostOps1 (W2 m ρ c) (Proc.devRef .tc main_arg5) = _; host_keeps hostOps1)
/-- `main_arg5` when boundary 3 is reached is what it was at boundary 0: nothing in between writes it. -/
theorem arg5_at3 : W3 m ρ c (Proc.devRef .tc main_arg5) = W0 m ρ c (Proc.devRef .tc main_arg5) :=
  ((arg5_step2 m ρ c).trans (arg5_step1 m ρ c)).trans (arg5_step0 m ρ c)

theorem arg8_step0 : W1 m ρ c (Proc.devRef .tc main_arg8) = W0 m ρ c (Proc.devRef .tc main_arg8) :=
  (by show StableHlo.after hostOps0 (W0 m ρ c) (Proc.devRef .tc main_arg8) = _; host_keeps hostOps0)
theorem arg8_step1 : W2 m ρ c (Proc.devRef .tc main_arg8) = W1 m ρ c (Proc.devRef .tc main_arg8) :=
  (W2_of_ne m ρ c main_arg8 (by decide))
theorem arg8_step2 : W3 m ρ c (Proc.devRef .tc main_arg8) = W2 m ρ c (Proc.devRef .tc main_arg8) :=
  (by show StableHlo.after hostOps1 (W2 m ρ c) (Proc.devRef .tc main_arg8) = _; host_keeps hostOps1)
theorem arg8_step3 : W4 m ρ c (Proc.devRef .tc main_arg8) = W3 m ρ c (Proc.devRef .tc main_arg8) :=
  (W4_of_ne m ρ c main_arg8 (by decide))
/-- `main_arg8` when boundary 4 is reached is what it was at boundary 0: nothing in between writes it. -/
theorem arg8_at4 : W4 m ρ c (Proc.devRef .tc main_arg8) = W0 m ρ c (Proc.devRef .tc main_arg8) :=
  (((arg8_step3 m ρ c).trans (arg8_step2 m ρ c)).trans (arg8_step1 m ρ c)).trans (arg8_step0 m ρ c)

theorem arg7_step0 : W1 m ρ c (Proc.devRef .tc main_arg7) = W0 m ρ c (Proc.devRef .tc main_arg7) :=
  (by show StableHlo.after hostOps0 (W0 m ρ c) (Proc.devRef .tc main_arg7) = _; host_keeps hostOps0)
theorem arg7_step1 : W2 m ρ c (Proc.devRef .tc main_arg7) = W1 m ρ c (Proc.devRef .tc main_arg7) :=
  (W2_of_ne m ρ c main_arg7 (by decide))
theorem arg7_step2 : W3 m ρ c (Proc.devRef .tc main_arg7) = W2 m ρ c (Proc.devRef .tc main_arg7) :=
  (by show StableHlo.after hostOps1 (W2 m ρ c) (Proc.devRef .tc main_arg7) = _; host_keeps hostOps1)
theorem arg7_step3 : W4 m ρ c (Proc.devRef .tc main_arg7) = W3 m ρ c (Proc.devRef .tc main_arg7) :=
  (W4_of_ne m ρ c main_arg7 (by decide))
theorem arg7_step4 : W5 m ρ c (Proc.devRef .tc main_arg7) = W4 m ρ c (Proc.devRef .tc main_arg7) :=
  (by show StableHlo.after hostOps2 (W4 m ρ c) (Proc.devRef .tc main_arg7) = _; host_keeps hostOps2)
/-- `main_arg7` when boundary 5 is reached is what it was at boundary 0: nothing in between writes it. -/
theorem arg7_at5 : W5 m ρ c (Proc.devRef .tc main_arg7) = W0 m ρ c (Proc.devRef .tc main_arg7) :=
  ((((arg7_step4 m ρ c).trans (arg7_step3 m ρ c)).trans (arg7_step2 m ρ c)).trans (arg7_step1 m ρ c)).trans (arg7_step0 m ρ c)

theorem arg10_step0 : W1 m ρ c (Proc.devRef .tc main_arg10) = W0 m ρ c (Proc.devRef .tc main_arg10) :=
  (by show StableHlo.after hostOps0 (W0 m ρ c) (Proc.devRef .tc main_arg10) = _; host_keeps hostOps0)
theorem arg10_step1 : W2 m ρ c (Proc.devRef .tc main_arg10) = W1 m ρ c (Proc.devRef .tc main_arg10) :=
  (W2_of_ne m ρ c main_arg10 (by decide))
theorem arg10_step2 : W3 m ρ c (Proc.devRef .tc main_arg10) = W2 m ρ c (Proc.devRef .tc main_arg10) :=
  (by show StableHlo.after hostOps1 (W2 m ρ c) (Proc.devRef .tc main_arg10) = _; host_keeps hostOps1)
theorem arg10_step3 : W4 m ρ c (Proc.devRef .tc main_arg10) = W3 m ρ c (Proc.devRef .tc main_arg10) :=
  (W4_of_ne m ρ c main_arg10 (by decide))
theorem arg10_step4 : W5 m ρ c (Proc.devRef .tc main_arg10) = W4 m ρ c (Proc.devRef .tc main_arg10) :=
  (by show StableHlo.after hostOps2 (W4 m ρ c) (Proc.devRef .tc main_arg10) = _; host_keeps hostOps2)
theorem arg10_step5 : W6 m ρ c (Proc.devRef .tc main_arg10) = W5 m ρ c (Proc.devRef .tc main_arg10) :=
  (W6_of_ne m ρ c main_arg10 (by decide))
/-- `main_arg10` when boundary 6 is reached is what it was at boundary 0: nothing in between writes it. -/
theorem arg10_at6 : W6 m ρ c (Proc.devRef .tc main_arg10) = W0 m ρ c (Proc.devRef .tc main_arg10) :=
  (((((arg10_step5 m ρ c).trans (arg10_step4 m ρ c)).trans (arg10_step3 m ρ c)).trans (arg10_step2 m ρ c)).trans (arg10_step1 m ρ c)).trans (arg10_step0 m ρ c)

theorem arg9_step0 : W1 m ρ c (Proc.devRef .tc main_arg9) = W0 m ρ c (Proc.devRef .tc main_arg9) :=
  (by show StableHlo.after hostOps0 (W0 m ρ c) (Proc.devRef .tc main_arg9) = _; host_keeps hostOps0)
theorem arg9_step1 : W2 m ρ c (Proc.devRef .tc main_arg9) = W1 m ρ c (Proc.devRef .tc main_arg9) :=
  (W2_of_ne m ρ c main_arg9 (by decide))
theorem arg9_step2 : W3 m ρ c (Proc.devRef .tc main_arg9) = W2 m ρ c (Proc.devRef .tc main_arg9) :=
  (by show StableHlo.after hostOps1 (W2 m ρ c) (Proc.devRef .tc main_arg9) = _; host_keeps hostOps1)
theorem arg9_step3 : W4 m ρ c (Proc.devRef .tc main_arg9) = W3 m ρ c (Proc.devRef .tc main_arg9) :=
  (W4_of_ne m ρ c main_arg9 (by decide))
theorem arg9_step4 : W5 m ρ c (Proc.devRef .tc main_arg9) = W4 m ρ c (Proc.devRef .tc main_arg9) :=
  (by show StableHlo.after hostOps2 (W4 m ρ c) (Proc.devRef .tc main_arg9) = _; host_keeps hostOps2)
theorem arg9_step5 : W6 m ρ c (Proc.devRef .tc main_arg9) = W5 m ρ c (Proc.devRef .tc main_arg9) :=
  (W6_of_ne m ρ c main_arg9 (by decide))
theorem arg9_step6 : W7 m ρ c (Proc.devRef .tc main_arg9) = W6 m ρ c (Proc.devRef .tc main_arg9) :=
  (by show StableHlo.after hostOps3 (W6 m ρ c) (Proc.devRef .tc main_arg9) = _; host_keeps hostOps3)
/-- `main_arg9` when boundary 7 is reached is what it was at boundary 0: nothing in between writes it. -/
theorem arg9_at7 : W7 m ρ c (Proc.devRef .tc main_arg9) = W0 m ρ c (Proc.devRef .tc main_arg9) :=
  ((((((arg9_step6 m ρ c).trans (arg9_step5 m ρ c)).trans (arg9_step4 m ρ c)).trans (arg9_step3 m ρ c)).trans (arg9_step2 m ρ c)).trans (arg9_step1 m ρ c)).trans (arg9_step0 m ρ c)

theorem arg2_step0 : W1 m ρ c (Proc.devRef .tc main_arg2) = W0 m ρ c (Proc.devRef .tc main_arg2) :=
  (by show StableHlo.after hostOps0 (W0 m ρ c) (Proc.devRef .tc main_arg2) = _; host_keeps hostOps0)
theorem arg2_step1 : W2 m ρ c (Proc.devRef .tc main_arg2) = W1 m ρ c (Proc.devRef .tc main_arg2) :=
  (W2_of_ne m ρ c main_arg2 (by decide))
theorem arg2_step2 : W3 m ρ c (Proc.devRef .tc main_arg2) = W2 m ρ c (Proc.devRef .tc main_arg2) :=
  (by show StableHlo.after hostOps1 (W2 m ρ c) (Proc.devRef .tc main_arg2) = _; host_keeps hostOps1)
theorem arg2_step3 : W4 m ρ c (Proc.devRef .tc main_arg2) = W3 m ρ c (Proc.devRef .tc main_arg2) :=
  (W4_of_ne m ρ c main_arg2 (by decide))
theorem arg2_step4 : W5 m ρ c (Proc.devRef .tc main_arg2) = W4 m ρ c (Proc.devRef .tc main_arg2) :=
  (by show StableHlo.after hostOps2 (W4 m ρ c) (Proc.devRef .tc main_arg2) = _; host_keeps hostOps2)
theorem arg2_step5 : W6 m ρ c (Proc.devRef .tc main_arg2) = W5 m ρ c (Proc.devRef .tc main_arg2) :=
  (W6_of_ne m ρ c main_arg2 (by decide))
theorem arg2_step6 : W7 m ρ c (Proc.devRef .tc main_arg2) = W6 m ρ c (Proc.devRef .tc main_arg2) :=
  (by show StableHlo.after hostOps3 (W6 m ρ c) (Proc.devRef .tc main_arg2) = _; host_keeps hostOps3)
theorem arg2_step7 : W8 m ρ c (Proc.devRef .tc main_arg2) = W7 m ρ c (Proc.devRef .tc main_arg2) :=
  (W8_of_ne m ρ c main_arg2 (by decide))
theorem arg2_step8 : W9 m ρ c (Proc.devRef .tc main_arg2) = W8 m ρ c (Proc.devRef .tc main_arg2) :=
  (by show StableHlo.after hostOps4 (W8 m ρ c) (Proc.devRef .tc main_arg2) = _; host_keeps hostOps4)
theorem arg2_step9 : W10 m ρ c (Proc.devRef .tc main_arg2) = W9 m ρ c (Proc.devRef .tc main_arg2) :=
  (W10_of_ne m ρ c main_arg2 (by decide))
/-- `main_arg2` when boundary 10 is reached is what it was at boundary 0: nothing in between writes it. -/
theorem arg2_at10 : W10 m ρ c (Proc.devRef .tc main_arg2) = W0 m ρ c (Proc.devRef .tc main_arg2) :=
  (((((((((arg2_step9 m ρ c).trans (arg2_step8 m ρ c)).trans (arg2_step7 m ρ c)).trans (arg2_step6 m ρ c)).trans (arg2_step5 m ρ c)).trans (arg2_step4 m ρ c)).trans (arg2_step3 m ρ c)).trans (arg2_step2 m ρ c)).trans (arg2_step1 m ρ c)).trans (arg2_step0 m ρ c)

theorem arg12_step0 : W1 m ρ c (Proc.devRef .tc main_arg12) = W0 m ρ c (Proc.devRef .tc main_arg12) :=
  (by show StableHlo.after hostOps0 (W0 m ρ c) (Proc.devRef .tc main_arg12) = _; host_keeps hostOps0)
theorem arg12_step1 : W2 m ρ c (Proc.devRef .tc main_arg12) = W1 m ρ c (Proc.devRef .tc main_arg12) :=
  (W2_of_ne m ρ c main_arg12 (by decide))
theorem arg12_step2 : W3 m ρ c (Proc.devRef .tc main_arg12) = W2 m ρ c (Proc.devRef .tc main_arg12) :=
  (by show StableHlo.after hostOps1 (W2 m ρ c) (Proc.devRef .tc main_arg12) = _; host_keeps hostOps1)
theorem arg12_step3 : W4 m ρ c (Proc.devRef .tc main_arg12) = W3 m ρ c (Proc.devRef .tc main_arg12) :=
  (W4_of_ne m ρ c main_arg12 (by decide))
theorem arg12_step4 : W5 m ρ c (Proc.devRef .tc main_arg12) = W4 m ρ c (Proc.devRef .tc main_arg12) :=
  (by show StableHlo.after hostOps2 (W4 m ρ c) (Proc.devRef .tc main_arg12) = _; host_keeps hostOps2)
theorem arg12_step5 : W6 m ρ c (Proc.devRef .tc main_arg12) = W5 m ρ c (Proc.devRef .tc main_arg12) :=
  (W6_of_ne m ρ c main_arg12 (by decide))
theorem arg12_step6 : W7 m ρ c (Proc.devRef .tc main_arg12) = W6 m ρ c (Proc.devRef .tc main_arg12) :=
  (by show StableHlo.after hostOps3 (W6 m ρ c) (Proc.devRef .tc main_arg12) = _; host_keeps hostOps3)
theorem arg12_step7 : W8 m ρ c (Proc.devRef .tc main_arg12) = W7 m ρ c (Proc.devRef .tc main_arg12) :=
  (W8_of_ne m ρ c main_arg12 (by decide))
theorem arg12_step8 : W9 m ρ c (Proc.devRef .tc main_arg12) = W8 m ρ c (Proc.devRef .tc main_arg12) :=
  (by show StableHlo.after hostOps4 (W8 m ρ c) (Proc.devRef .tc main_arg12) = _; host_keeps hostOps4)
theorem arg12_step9 : W10 m ρ c (Proc.devRef .tc main_arg12) = W9 m ρ c (Proc.devRef .tc main_arg12) :=
  (W10_of_ne m ρ c main_arg12 (by decide))
/-- `main_arg12` when boundary 10 is reached is what it was at boundary 0: nothing in between writes it. -/
theorem arg12_at10 : W10 m ρ c (Proc.devRef .tc main_arg12) = W0 m ρ c (Proc.devRef .tc main_arg12) :=
  (((((((((arg12_step9 m ρ c).trans (arg12_step8 m ρ c)).trans (arg12_step7 m ρ c)).trans (arg12_step6 m ρ c)).trans (arg12_step5 m ρ c)).trans (arg12_step4 m ρ c)).trans (arg12_step3 m ρ c)).trans (arg12_step2 m ρ c)).trans (arg12_step1 m ρ c)).trans (arg12_step0 m ρ c)

theorem arg11_step0 : W1 m ρ c (Proc.devRef .tc main_arg11) = W0 m ρ c (Proc.devRef .tc main_arg11) :=
  (by show StableHlo.after hostOps0 (W0 m ρ c) (Proc.devRef .tc main_arg11) = _; host_keeps hostOps0)
theorem arg11_step1 : W2 m ρ c (Proc.devRef .tc main_arg11) = W1 m ρ c (Proc.devRef .tc main_arg11) :=
  (W2_of_ne m ρ c main_arg11 (by decide))
theorem arg11_step2 : W3 m ρ c (Proc.devRef .tc main_arg11) = W2 m ρ c (Proc.devRef .tc main_arg11) :=
  (by show StableHlo.after hostOps1 (W2 m ρ c) (Proc.devRef .tc main_arg11) = _; host_keeps hostOps1)
theorem arg11_step3 : W4 m ρ c (Proc.devRef .tc main_arg11) = W3 m ρ c (Proc.devRef .tc main_arg11) :=
  (W4_of_ne m ρ c main_arg11 (by decide))
theorem arg11_step4 : W5 m ρ c (Proc.devRef .tc main_arg11) = W4 m ρ c (Proc.devRef .tc main_arg11) :=
  (by show StableHlo.after hostOps2 (W4 m ρ c) (Proc.devRef .tc main_arg11) = _; host_keeps hostOps2)
theorem arg11_step5 : W6 m ρ c (Proc.devRef .tc main_arg11) = W5 m ρ c (Proc.devRef .tc main_arg11) :=
  (W6_of_ne m ρ c main_arg11 (by decide))
theorem arg11_step6 : W7 m ρ c (Proc.devRef .tc main_arg11) = W6 m ρ c (Proc.devRef .tc main_arg11) :=
  (by show StableHlo.after hostOps3 (W6 m ρ c) (Proc.devRef .tc main_arg11) = _; host_keeps hostOps3)
theorem arg11_step7 : W8 m ρ c (Proc.devRef .tc main_arg11) = W7 m ρ c (Proc.devRef .tc main_arg11) :=
  (W8_of_ne m ρ c main_arg11 (by decide))
theorem arg11_step8 : W9 m ρ c (Proc.devRef .tc main_arg11) = W8 m ρ c (Proc.devRef .tc main_arg11) :=
  (by show StableHlo.after hostOps4 (W8 m ρ c) (Proc.devRef .tc main_arg11) = _; host_keeps hostOps4)
theorem arg11_step9 : W10 m ρ c (Proc.devRef .tc main_arg11) = W9 m ρ c (Proc.devRef .tc main_arg11) :=
  (W10_of_ne m ρ c main_arg11 (by decide))
theorem arg11_step10 : W11 m ρ c (Proc.devRef .tc main_arg11) = W10 m ρ c (Proc.devRef .tc main_arg11) :=
  (by show StableHlo.after hostOps5 (W10 m ρ c) (Proc.devRef .tc main_arg11) = _; host_keeps hostOps5)
/-- `main_arg11` when boundary 11 is reached is what it was at boundary 0: nothing in between writes it. -/
theorem arg11_at11 : W11 m ρ c (Proc.devRef .tc main_arg11) = W0 m ρ c (Proc.devRef .tc main_arg11) :=
  ((((((((((arg11_step10 m ρ c).trans (arg11_step9 m ρ c)).trans (arg11_step8 m ρ c)).trans (arg11_step7 m ρ c)).trans (arg11_step6 m ρ c)).trans (arg11_step5 m ρ c)).trans (arg11_step4 m ρ c)).trans (arg11_step3 m ρ c)).trans (arg11_step2 m ρ c)).trans (arg11_step1 m ρ c)).trans (arg11_step0 m ρ c)

end Cert.KernelIdeal.Keeps

end
-- ==== Proof.Stretch0.lean ====
/-
  The host operations before the first region, read at the buffers later segments use.

  From the edge list the stretch forms the source and destination index vectors, the degree of every node (a
  scatter-add of ones at the destinations, plus two for the weighted self-loop), its inverse square root `dinv`,
  the per-node self-loop coefficient `2 · dinv · dinv` as a column, the per-edge weight `dinv[src] · dinv[dst]`
  as a column, and the first bias as a row. Each is the very term the reference forms for the same quantity, so
  it is stated by the reference's stage of the edge list.
-/
import proofs.«133490_j51754355916835_1_alg».proof.Proof.Gen.KernelIdeal.Launch
import proofs.«133490_j51754355916835_1_alg».proof.Proof.Gen.ReferenceIdeal.Read
import Idealize.ShloMosaic.Lib.StableHlo.Run
import Idealize.ShloMosaic.Lib.ValueIdx

set_option maxRecDepth 16384

noncomputable section

namespace Cert.KernelIdeal.Stretch0

open Cert.KernelIdeal Cert.KernelIdeal.Gen
open Idealize.ShloMosaic Idealize.ShloMosaic.TcCoe Idealize.ShloMosaic.ValueIdx Idealize.SL.Sem
open Idealize.ShloMosaic.StableHlo

open Cert.ReferenceIdeal.Read

variable (W : Valuation τ sig (Elt Ideal))

/-- The source index of every edge. -/
theorem src : after (hostOps0 (F := Ideal)) W (Proc.devRef .tc main_v1) = val_main_v1 (F := Ideal) (W (Proc.devRef .tc main_arg1)) := by
  after_results <;> rfl

/-- The destination index of every edge. -/
theorem dst : after (hostOps0 (F := Ideal)) W (Proc.devRef .tc main_v3) = val_main_v3 (F := Ideal) (W (Proc.devRef .tc main_arg1)) := by
  after_results <;> rfl

set_option maxHeartbeats 4000000 in
/-- The self-loop coefficient `2 · dinv · dinv`, one per node, as a column. -/
theorem coeff : after (hostOps0 (F := Ideal)) W (Proc.devRef .tc main_v14)
    = shapeCast S50000x1 (val_main_v42 (F := Ideal) (W (Proc.devRef .tc main_arg1))) shapeCasts_S50000_S50000x1 := by
  after_results <;> rfl

set_option maxHeartbeats 8000000 in
/-- The edge weight `dinv[src] · dinv[dst]`, one per edge, as a column. -/
theorem norm : after (hostOps0 (F := Ideal)) W (Proc.devRef .tc main_v30)
    = shapeCast S500000x1 (val_main_v26 (F := Ideal) (W (Proc.devRef .tc main_arg1))) shapeCasts_S500000_S500000x1 := by
  after_results <;> rfl

/-- The first layer's bias as a row. -/
theorem bias : after (hostOps0 (F := Ideal)) W (Proc.devRef .tc main_v31)
    = shapeCast S1x160 (W (Proc.devRef .tc main_arg4)) shapeCasts_S160_S1x160 := by
  after_results <;> rfl

end Cert.KernelIdeal.Stretch0

end
-- ==== Proof.StretchMid.lean ====
/-
  The host operations between the layer regions, read at the buffers the next region uses.

  After each layer's region the host gathers, for every edge, the source node's row of the product `h W`, scales
  it by the edge's weight, and adds the rows up at the destination nodes: the layer's aggregate. It also lays the
  next layer's bias out as a row. The aggregate is stated once as a function of the two index vectors, the
  weights spread along the rows, and the product.
-/
import proofs.«133490_j51754355916835_1_alg».proof.Proof.Gen.KernelIdeal.Launch
import Idealize.ShloMosaic.Lib.StableHlo.Run
import Idealize.ShloMosaic.Lib.ValueIdx

set_option maxRecDepth 16384

noncomputable section

namespace Cert.KernelIdeal.StretchMid

open Cert.KernelIdeal Cert.KernelIdeal.Gen
open Idealize.ShloMosaic Idealize.ShloMosaic.TcCoe Idealize.ShloMosaic.ValueIdx Idealize.SL.Sem
open Idealize.ShloMosaic.StableHlo

/-- The aggregation of a layer over the edges, for 160 features: every edge gathers its source node's row of the
    product, scales it by the edge's weight (already spread along the row), and the rows are added up at the
    edge's destination node, from zero. A negative index counts from the end, as the host's indexing does. -/
def aggCore160 (src dst : (⟨S500000, .i32⟩ : BufTy).Contents (Elt Ideal)) (nrm : (⟨S500000x160, .f32⟩ : BufTy).Contents (Elt Ideal))
    (xw : (⟨S50000x160, .f32⟩ : BufTy).Contents (Elt Ideal)) : (⟨S50000x160, .f32⟩ : BufTy).Contents (Elt Ideal) :=
  Host.scatterAdd (F := Ideal) scatter_S50000x160_S500000x1_S500000x160_1_0_0_1
    (broadcastInDim S50000x160 ![] bcast_S_S50000x160 (constant (F := Ideal) S_ .f32 0x00000000#32))
    (broadcastInDim S500000x1 ![0] bcast_S500000_S500000x1_0 dst)
    (mulf (Host.gather gather_S50000x160_S500000x1_S500000x160_1_0_n_n_0_1_1160 xw
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 50000#32))) src)))
      nrm)

/-- The aggregation of a layer over the edges, for 128 features: every edge gathers its source node's row of the
    product, scales it by the edge's weight (already spread along the row), and the rows are added up at the
    edge's destination node, from zero. A negative index counts from the end, as the host's indexing does. -/
def aggCore128 (src dst : (⟨S500000, .i32⟩ : BufTy).Contents (Elt Ideal)) (nrm : (⟨S500000x128, .f32⟩ : BufTy).Contents (Elt Ideal))
    (xw : (⟨S50000x128, .f32⟩ : BufTy).Contents (Elt Ideal)) : (⟨S50000x128, .f32⟩ : BufTy).Contents (Elt Ideal) :=
  Host.scatterAdd (F := Ideal) scatter_S50000x128_S500000x1_S500000x128_1_0_0_1
    (broadcastInDim S50000x128 ![] bcast_S_S50000x128 (constant (F := Ideal) S_ .f32 0x00000000#32))
    (broadcastInDim S500000x1 ![0] bcast_S500000_S500000x1_0 dst)
    (mulf (Host.gather gather_S50000x128_S500000x1_S500000x128_1_0_n_n_0_1_1128 xw
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 50000#32))) src)))
      nrm)

variable (W : Valuation τ sig (Elt Ideal))

set_option maxHeartbeats 4000000 in
/-- After the stretch that follows region 0, the aggregate of that region's product. -/
theorem agg1 : after (hostOps1 (F := Ideal)) W (Proc.devRef .tc main_v44)
    = aggCore160 (W (Proc.devRef .tc main_v1)) (W (Proc.devRef .tc main_v3))
        (broadcastInDim S500000x160 ![0, 1] bcast_S500000x1_S500000x160_0_1 (W (Proc.devRef .tc main_v30))) (W (Proc.devRef .tc main_v32_0)) := by
  after_results <;> rfl

/-- The next layer's bias as a row. -/
theorem bias1 : after (hostOps1 (F := Ideal)) W (Proc.devRef .tc main_v45)
    = shapeCast S1x160 (W (Proc.devRef .tc main_arg6)) shapeCasts_S160_S1x160 := by
  after_results <;> rfl

set_option maxHeartbeats 4000000 in
/-- After the stretch that follows region 1, the aggregate of that region's product. -/
theorem agg2 : after (hostOps2 (F := Ideal)) W (Proc.devRef .tc main_v58)
    = aggCore160 (W (Proc.devRef .tc main_v1)) (W (Proc.devRef .tc main_v3))
        (broadcastInDim S500000x160 ![0, 1] bcast_S500000x1_S500000x160_0_1 (W (Proc.devRef .tc main_v30))) (W (Proc.devRef .tc main_v46_0)) := by
  after_results <;> rfl

/-- The next layer's bias as a row. -/
theorem bias2 : after (hostOps2 (F := Ideal)) W (Proc.devRef .tc main_v59)
    = shapeCast S1x160 (W (Proc.devRef .tc main_arg8)) shapeCasts_S160_S1x160 := by
  after_results <;> rfl

set_option maxHeartbeats 4000000 in
/-- After the stretch that follows region 2, the aggregate of that region's product. -/
theorem agg3 : after (hostOps3 (F := Ideal)) W (Proc.devRef .tc main_v72)
    = aggCore160 (W (Proc.devRef .tc main_v1)) (W (Proc.devRef .tc main_v3))
        (broadcastInDim S500000x160 ![0, 1] bcast_S500000x1_S500000x160_0_1 (W (Proc.devRef .tc main_v30))) (W (Proc.devRef .tc main_v60_0)) := by
  after_results <;> rfl

/-- The next layer's bias as a row. -/
theorem bias3 : after (hostOps3 (F := Ideal)) W (Proc.devRef .tc main_v73)
    = shapeCast S1x128 (W (Proc.devRef .tc main_arg10)) shapeCasts_S128_S1x128 := by
  after_results <;> rfl

set_option maxHeartbeats 4000000 in
/-- After the stretch that follows region 3, the aggregate of that region's product. -/
theorem agg4 : after (hostOps4 (F := Ideal)) W (Proc.devRef .tc main_v86)
    = aggCore128 (W (Proc.devRef .tc main_v1)) (W (Proc.devRef .tc main_v3))
        (broadcastInDim S500000x128 ![0, 1] bcast_S500000x1_S500000x128_0_1 (W (Proc.devRef .tc main_v30))) (W (Proc.devRef .tc main_v74_0)) := by
  after_results <;> rfl

end Cert.KernelIdeal.StretchMid

end
-- ==== Proof.Stretch5.lean ====
/-
  The host operations before the last region: the graph pooling's sums and counts.

  Every node's final row is added into its graph's row (a scatter-add from zero at the graph index), a one per
  node is added into its graph's count, the counts are laid out as a column and the head's bias as a row.
-/
import proofs.«133490_j51754355916835_1_alg».proof.Proof.Gen.KernelIdeal.Launch
import Idealize.ShloMosaic.Lib.StableHlo.Run
import Idealize.ShloMosaic.Lib.ValueIdx

set_option maxRecDepth 16384

noncomputable section

namespace Cert.KernelIdeal.Stretch5

open Cert.KernelIdeal Cert.KernelIdeal.Gen
open Idealize.ShloMosaic Idealize.ShloMosaic.TcCoe Idealize.ShloMosaic.ValueIdx Idealize.SL.Sem
open Idealize.ShloMosaic.StableHlo

variable (W : Valuation τ sig (Elt Ideal))

/-- The per-graph sums of the node rows. -/
theorem sums : after (hostOps5 (F := Ideal)) W (Proc.devRef .tc main_v90)
    = Host.scatterAdd (F := Ideal) scatter_S50x128_S50000x1_S50000x128_1_0_0_1
        (broadcastInDim S50x128 ![] bcast_S_S50x128 (constant (F := Ideal) S_ .f32 0x00000000#32))
        (broadcastInDim S50000x1 ![0] bcast_S50000_S50000x1_0 (W (Proc.devRef .tc main_arg2)))
        (W (Proc.devRef .tc main_v87)) := by
  after_results <;> rfl

/-- The per-graph node counts, as a column. -/
theorem cnts : after (hostOps5 (F := Ideal)) W (Proc.devRef .tc main_v95)
    = shapeCast S50x1 (Host.scatterAdd (F := Ideal) scatter_S50_S50000x1_S50000_n_0_0_1
        (broadcastInDim S50 ![] bcast_S_S50 (constant (F := Ideal) S_ .f32 0x00000000#32))
        (broadcastInDim S50000x1 ![0] bcast_S50000_S50000x1_0 (W (Proc.devRef .tc main_arg2)))
        (broadcastInDim S50000 ![] bcast_S_S50000 (constant (F := Ideal) S_ .f32 0x3F800000#32))) shapeCasts_S50_S50x1 := by
  after_results <;> rfl

/-- The head's bias as a row. -/
theorem bias : after (hostOps5 (F := Ideal)) W (Proc.devRef .tc main_v96)
    = shapeCast S1x10 (W (Proc.devRef .tc main_arg12)) shapeCasts_S10_S1x10 := by
  after_results <;> rfl

end Cert.KernelIdeal.Stretch5

end
-- ==== Proof.GcnSpec.lean ====
/-
  The entries of a graph-convolution layer's two dense pieces, as functions of whole matrices.

  A layer maps node features `h` (one row per node) to `agg + (coeff · (h W) + b)`, where `h W` is the
  matrix product, `coeff` one scalar per node (a column), `b` one scalar per output feature (a row), and
  `agg` the sum over incoming edges of the neighbours' rows of `h W`. The product and the self-loop-and-bias
  part are the two pieces computed row block by row block; here they are written once, entry by entry,
  over matrices of any extents with extended-real entries.
-/
import Idealize.ShloMosaic.PureOps.Ideal
import Idealize.ShloMosaic.Lib.ValueIdx

noncomputable section

namespace Cert.GcnSpec

open Idealize.ShloMosaic Idealize.ShloMosaic.ValueIdx

/-- A matrix of `a` rows and `b` columns with extended-real entries. -/
abbrev Mat (a b : Nat) : Type := (⟨2, ![a, b]⟩ : Shape).Idx → EReal

/-- Entry `(r, j)` of the product `h · W`: the sum over the shared axis of the products of the entries. -/
def mm {n k f : Nat} (h : Mat n k) (W : Mat k f) (r : Fin n) (j : Fin f) : EReal :=
  ∑ q : Fin k, h (ix2 r q) * W (ix2 q j)

/-- Entry `(r, j)` of the self-loop-and-bias part: row `r`'s coefficient times the product's entry, plus
    column `j`'s bias. -/
def selfPart {n k f : Nat} (coeff : Mat n 1) (h : Mat n k) (W : Mat k f) (b : Mat 1 f) (r : Fin n) (j : Fin f) : EReal :=
  coeff (ix2 r 0) * mm h W r j + b (ix2 0 j)

/-- The entrywise sum of two matrices. -/
def plus {n k : Nat} (a c : Mat n k) : Mat n k := fun i => a i + c i

theorem plus_apply {n k : Nat} (a c : Mat n k) (i : (⟨2, ![n, k]⟩ : Shape).Idx) : plus a c i = a i + c i := rfl

/-- The product `h · W` as a whole matrix. -/
def mmMat {n k f : Nat} (h : Mat n k) (W : Mat k f) : Mat n f := fun i => mm h W (i 0) (i 1)

/-- The self-loop-and-bias part as a whole matrix. -/
def selfMat {n k f : Nat} (coeff : Mat n 1) (h : Mat n k) (W : Mat k f) (b : Mat 1 f) : Mat n f :=
  fun i => selfPart coeff h W b (i 0) (i 1)

theorem mmMat_apply {n k f : Nat} (h : Mat n k) (W : Mat k f) (r : Fin n) (j : Fin f) :
    mmMat h W (ix2 r j) = mm h W r j := rfl

theorem selfMat_apply {n k f : Nat} (coeff : Mat n 1) (h : Mat n k) (W : Mat k f) (b : Mat 1 f) (r : Fin n) (j : Fin f) :
    selfMat coeff h W b (ix2 r j) = selfPart coeff h W b r j := rfl

end Cert.GcnSpec

end
-- ==== Proof.Layer0Value.lean ====
/-
  The first layer's two dense pieces, read off the arrays the first row-blocked region leaves.

  The region walks 25 row blocks of 2000 rows. At each it multiplies the block of the feature matrix by the whole
  weight matrix, writes the product's block, and writes the block of "coefficient times product plus bias". Both
  output arrays are therefore, entry by entry, the whole-matrix product and the whole self-loop-and-bias matrix of
  the arrays the region finds on entry: each written block is the corresponding block of that one whole-matrix
  function, and the 25 blocks cover all 50000 rows.
-/
import proofs.«133490_j51754355916835_1_alg».proof.Proof.Gen.KernelIdeal.Frame
import proofs.«133490_j51754355916835_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0Value

open Cert.KernelIdeal Cert.KernelIdeal.Gen Idealize.ShloMosaic Idealize.ShloMosaic.ValueIdx Idealize.ShloMosaic.TcCoe Idealize.SL.Sem

theorem lhs_row (i : S2000x160.Idx) (q : dot_S2000x128_S128x160_S2000x160_1_0_0_1_n_n.contr.Idx) :
    (dot_S2000x128_S128x160_S2000x160_1_0_0_1_n_n.lhsIdx i q 0).val = (i 0).val := by
  unfold DotDims.lhsIdx
  rw [dif_neg (show ¬(0 : Fin S2000x128.rank) ∈ dot_S2000x128_S128x160_S2000x160_1_0_0_1_n_n.lhsBatch by decide), dif_pos (show (0 : Fin S2000x128.rank) ∈ dot_S2000x128_S128x160_S2000x160_1_0_0_1_n_n.lhsNonContracting by decide)]
  rfl

theorem rhs_col (i : S2000x160.Idx) (q : dot_S2000x128_S128x160_S2000x160_1_0_0_1_n_n.contr.Idx) :
    (dot_S2000x128_S128x160_S2000x160_1_0_0_1_n_n.rhsIdx i q 1).val = (i 1).val := by
  unfold DotDims.rhsIdx
  rw [dif_neg (show ¬(1 : Fin S128x160.rank) ∈ dot_S2000x128_S128x160_S2000x160_1_0_0_1_n_n.rhsBatch by decide), dif_pos (show (1 : Fin S128x160.rank) ∈ dot_S2000x128_S128x160_S2000x160_1_0_0_1_n_n.rhsNonContracting by decide)]
  rfl

/-- The product payload at an entry: the sum over the shared axis. -/
theorem prod_apply (x0 : Vec Ideal S2000x128 .f32) (x1 : Vec Ideal S128x160 .f32) (p : Fin 2000) (q : Fin 160) :
    k0_pay1 (F := Ideal) x0 x1 (ix2 p q) = ∑ k : Fin 128, x0 (ix2 p k) * x1 (ix2 k q) := by
  unfold k0_pay1
  refine (Ideal.matmul_constant_zero_apply dot_S2000x128_S128x160_S2000x160_1_0_0_1_n_n none _ _ (ix2 p q)).trans ?_
  rw [← Equiv.sum_comp (contrEquiv1 dot_S2000x128_S128x160_S2000x160_1_0_0_1_n_n 128 rfl rfl).symm]
  refine Finset.sum_congr rfl fun k _ => ?_
  have hk := contrEquiv1_symm_val dot_S2000x128_S128x160_S2000x160_1_0_0_1_n_n 128 rfl rfl k
  have el : dot_S2000x128_S128x160_S2000x160_1_0_0_1_n_n.lhsIdx (ix2 p q) ((contrEquiv1 dot_S2000x128_S128x160_S2000x160_1_0_0_1_n_n 128 rfl rfl).symm k) = ix2 p k := funext fun a => Fin.ext (by
    match a with
    | ⟨0, _⟩ => exact lhs_row _ _
    | ⟨1, _⟩ => exact ((dot_S2000x128_S128x160_S2000x160_1_0_0_1_n_n.lhsIdx_val_of_single rfl _ _).trans hk))
  have er : dot_S2000x128_S128x160_S2000x160_1_0_0_1_n_n.rhsIdx (ix2 p q) ((contrEquiv1 dot_S2000x128_S128x160_S2000x160_1_0_0_1_n_n 128 rfl rfl).symm k) = ix2 k q := funext fun a => Fin.ext (by
    match a with
    | ⟨0, _⟩ => exact ((dot_S2000x128_S128x160_S2000x160_1_0_0_1_n_n.rhsIdx_val_of_single rfl _ _).trans hk)
    | ⟨1, _⟩ => exact rhs_col _ _)
  show x0 _ * x1 _ = _
  rw [el, er]

/-- A column `[a, 1]` broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The self-loop-and-bias payload at an entry: the row's coefficient times the product's entry, plus the column's bias. -/
theorem self_apply (x0 : Vec Ideal S2000x128 .f32) (x1 : Vec Ideal S128x160 .f32) (x3 : Vec Ideal S2000x1 .f32) (x2 : Vec Ideal S1x160 .f32)
    (p : Fin 2000) (q : Fin 160) :
    k0_pay2 (F := Ideal) x0 x1 x3 x2 (ix2 p q) = x3 (ix2 p (0 : Fin 1)) * k0_pay1 (F := Ideal) x0 x1 (ix2 p q) + x2 (ix2 (0 : Fin 1) q) := by
  unfold k0_pay2
  show broadcastTo S2000x160 (shapeCast S2000x1 x3 shapeCasts_S2000x1_S2000x1) broadcasts_S2000x1_S2000x160 (ix2 p q) * k0_pay1 (F := Ideal) x0 x1 (ix2 p q)
      + broadcastTo S2000x160 (shapeCast S1x160 x2 shapeCasts_S1x160_S1x160) broadcasts_S1x160_S2000x160 (ix2 p q) = _
  rw [shapeCast_self, shapeCast_self]
  exact congrArg₂ (fun u v => u * k0_pay1 (F := Ideal) x0 x1 (ix2 p q) + v)
    (broadcastTo_a1_ab_apply x3 broadcasts_S2000x1_S2000x160 p q) (broadcastTo_1b_ab_apply x2 broadcasts_S1x160_S2000x160 p q)

theorem hz : (![0, 0] : Fin 2 → Nat) = fun _ => 0 := funext fun a => by fin_cases a <;> rfl

/-- The printed index maps, decided over the grid: the row-blocked windows sit at the same row block, which is below 25,
    and every other block index is zero. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_5.index t (0 : Fin 2) = win0_4.index t (0 : Fin 2) ∧ win0_5.index t (1 : Fin 2) = 0
    ∧ win0_4.index t (0 : Fin 2) ≤ 24 ∧ win0_4.index t (1 : Fin 2) = 0 :=
  (by decide +kernel : ∀ t : Fin grid0.N, _)

/-- Every row block is some point's. -/
theorem idx_onto : ∀ (q0 : Fin 25), ∃ t : Fin cfg0.N, win0_4.index t (0 : Fin 2) = q0.val :=
  (by decide +kernel : ∀ (q0 : Fin 25), ∃ t : Fin grid0.N, win0_4.index t (0 : Fin 2) = q0.val)

open Cert.GcnSpec

/-- One entry of the product block, given where the block's rows sit in the whole matrices. -/
theorem xw_point (x0 : Vec Ideal S2000x128 .f32) (x1 : Vec Ideal S128x160 .f32)
    (A : Mat 50000 128) (W : Mat 128 160) (p : Fin 2000) (q : Fin 160) (r : Fin 50000)
    (h0 : ∀ k : Fin 128, x0 (ix2 p k) = A (ix2 r k)) (h1 : ∀ k : Fin 128, x1 (ix2 k q) = W (ix2 k q)) :
    k0_pay1 (F := Ideal) x0 x1 (ix2 p q) = mm A W r q := by
  rw [prod_apply]
  unfold mm
  exact Finset.sum_congr rfl fun k _ => by rw [h0 k, h1 k]

/-- One entry of the self-loop-and-bias block, likewise. -/
theorem self_point (x0 : Vec Ideal S2000x128 .f32) (x1 : Vec Ideal S128x160 .f32) (x3 : Vec Ideal S2000x1 .f32) (x2 : Vec Ideal S1x160 .f32)
    (coeff : Mat 50000 1) (A : Mat 50000 128) (W : Mat 128 160) (b : Mat 1 160) (p : Fin 2000) (q : Fin 160) (r : Fin 50000)
    (h0 : ∀ k : Fin 128, x0 (ix2 p k) = A (ix2 r k)) (h1 : ∀ k : Fin 128, x1 (ix2 k q) = W (ix2 k q))
    (h3 : x3 (ix2 p (0 : Fin 1)) = coeff (ix2 r (0 : Fin 1))) (h2 : x2 (ix2 (0 : Fin 1) q) = b (ix2 (0 : Fin 1) q)) :
    k0_pay2 (F := Ideal) x0 x1 x3 x2 (ix2 p q) = selfPart coeff A W b r q := by
  rw [self_apply, xw_point x0 x1 A W p q r h0 h1, h3, h2]
  rfl

variable (V : (c : Dev nD) → (b : Ref sig .tc) → Buf (Elt Ideal) ((c : Thread nD τ).loc b))

/-- What a point writes back to the product's array is that point's row block of the whole product. -/
theorem flushed_xw (c : Dev nD) (t : Fin cfg0.N) :
    (dat0 (F := Ideal) V c).flushed 4 t = ((cfg0.win 4).blk t).view.read (Elt Ideal) (mmMat (V c main_arg0) (V c main_arg3)) := by
  show (cfg0.win 4).cut (grid0.coords t) ((dat0 (F := Ideal) V c).after 4 t) = _
  rw [after0_4]
  unfold out0_4
  rw [View.canon_unit_zero hz]
  simp only [View.ld_unit_zero (S := S2000x128) hz, View.ld_unit_zero (S := S128x160) hz]
  obtain ⟨e00, e01, e10, e11, e20, e21, e30, e31, e50, e51, e40, e41⟩ := idx_facts t
  funext j
  obtain ⟨p, q, rfl⟩ : ∃ (p : Fin 2000) (q : Fin 160), j = ix2 p q := ⟨j 0, j 1, eq_ix2 j⟩
  have hr : win0_4.index t (0 : Fin 2) * 2000 + p.val < 50000 := by have := p.isLt; omega
  have hemb : ((cfg0.win 4).blk t).view.emb (ix2 p q) = ix2 (⟨win0_4.index t (0 : Fin 2) * 2000 + p.val, hr⟩ : Fin 50000) q := by
    funext a; apply Fin.ext
    match a with
    | ⟨0, _⟩ => show win0_4.index t (0 : Fin 2) * 2000 + 1 * p.val = win0_4.index t (0 : Fin 2) * 2000 + p.val; omega
    | ⟨1, _⟩ => show win0_4.index t (1 : Fin 2) * 160 + 1 * q.val = q.val; omega
  show k0_pay1 (F := Ideal) (iblk0 V c 0 t) (iblk0 V c 1 t) (ix2 p q) = mmMat (V c main_arg0) (V c main_arg3) (((cfg0.win 4).blk t).view.emb (ix2 p q))
  rw [hemb, mmMat_apply]
  refine xw_point _ _ _ _ p q _ (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_4.index t (0 : Fin 2) * 2000 + p.val; omega
    | ⟨1, _⟩ => show win0_0.index t (1 : Fin 2) * 128 + 1 * k.val = k.val; omega
  · show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 160 + 1 * q.val = q.val; omega

/-- What a point writes back to the self-loop-and-bias array is that point's row block of the whole matrix. -/
theorem flushed_self (c : Dev nD) (t : Fin cfg0.N) :
    (dat0 (F := Ideal) V c).flushed 5 t = ((cfg0.win 5).blk t).view.read (Elt Ideal) (selfMat (V c main_v14) (V c main_arg0) (V c main_arg3) (V c main_v31)) := by
  show (cfg0.win 5).cut (grid0.coords t) ((dat0 (F := Ideal) V c).after 5 t) = _
  rw [after0_5]
  unfold out0_5
  rw [View.canon_unit_zero hz]
  simp only [View.ld_unit_zero (S := S2000x128) hz, View.ld_unit_zero (S := S128x160) hz, View.ld_unit_zero (S := S2000x1) hz, View.ld_unit_zero (S := S1x160) hz]
  obtain ⟨e00, e01, e10, e11, e20, e21, e30, e31, e50, e51, e40, e41⟩ := idx_facts t
  funext j
  obtain ⟨p, q, rfl⟩ : ∃ (p : Fin 2000) (q : Fin 160), j = ix2 p q := ⟨j 0, j 1, eq_ix2 j⟩
  have hr : win0_4.index t (0 : Fin 2) * 2000 + p.val < 50000 := by have := p.isLt; omega
  have hemb : ((cfg0.win 5).blk t).view.emb (ix2 p q) = ix2 (⟨win0_4.index t (0 : Fin 2) * 2000 + p.val, hr⟩ : Fin 50000) q := by
    funext a; apply Fin.ext
    match a with
    | ⟨0, _⟩ => show win0_5.index t (0 : Fin 2) * 2000 + 1 * p.val = win0_4.index t (0 : Fin 2) * 2000 + p.val; omega
    | ⟨1, _⟩ => show win0_5.index t (1 : Fin 2) * 160 + 1 * q.val = q.val; omega
  show k0_pay2 (F := Ideal) (iblk0 V c 0 t) (iblk0 V c 1 t) (iblk0 V c 3 t) (iblk0 V c 2 t) (ix2 p q)
    = selfMat (V c main_v14) (V c main_arg0) (V c main_arg3) (V c main_v31) (((cfg0.win 5).blk t).view.emb (ix2 p q))
  rw [hemb, selfMat_apply]
  refine self_point _ _ _ _ _ _ _ _ p q _ (fun k => ?_) (fun k => ?_) ?_ ?_
  · show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_4.index t (0 : Fin 2) * 2000 + p.val; omega
    | ⟨1, _⟩ => show win0_0.index t (1 : Fin 2) * 128 + 1 * k.val = k.val; omega
  · show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 160 + 1 * q.val = q.val; omega
  · show V c main_v14 (((cfg0.win 3).blk t).view.emb (ix2 p (0 : Fin 1))) = _
    refine congrArg (V c main_v14) (funext fun a => Fin.ext ?_)
    match a with
    | ⟨0, _⟩ => show win0_3.index t (0 : Fin 2) * 2000 + 1 * p.val = win0_4.index t (0 : Fin 2) * 2000 + p.val; omega
    | ⟨1, _⟩ => show win0_3.index t (1 : Fin 2) * 1 + 1 * 0 = 0; omega
  · show V c main_v31 (((cfg0.win 2).blk t).view.emb (ix2 (0 : Fin 1) q)) = _
    refine congrArg (V c main_v31) (funext fun a => Fin.ext ?_)
    match a with
    | ⟨0, _⟩ => show win0_2.index t (0 : Fin 2) * 1 + 1 * 0 = 0; omega
    | ⟨1, _⟩ => show win0_2.index t (1 : Fin 2) * 160 + 1 * q.val = q.val; omega

/-- An index of a 160-column output array is in a point's block iff each coordinate is in the block's range on its axis. -/
theorem mem_blk_xw (t : Fin cfg0.N) (i : S50000x160.Idx) :
    i ∈ ((cfg0.win 4).blk t).view.set ↔ ∀ a : Fin 2, win0_4.index t a * S2000x160.size a ≤ (i a).val ∧ (i a).val < win0_4.index t a * S2000x160.size a + S2000x160.size a := by
  show i ∈ ((View.whole main_v32_0).slice (win0_4.rect t)).set ↔ _
  rw [View.set_slice_whole, Rect.mem_set_unit]
  exact Iff.rfl

theorem mem_blk_self (t : Fin cfg0.N) (i : S50000x160.Idx) :
    i ∈ ((cfg0.win 5).blk t).view.set ↔ ∀ a : Fin 2, win0_5.index t a * S2000x160.size a ≤ (i a).val ∧ (i a).val < win0_5.index t a * S2000x160.size a + S2000x160.size a := by
  show i ∈ ((View.whole main_v32_1).slice (win0_5.rect t)).set ↔ _
  rw [View.set_slice_whole, Rect.mem_set_unit]
  exact Iff.rfl

/-- Row `r` lies in row block `r / 2000`: the blocks cover the product's array. -/
theorem cover_xw (i : S50000x160.Idx) : ∃ t : Fin cfg0.N, (cfg0.win 4).flush t = true ∧ i ∈ ((cfg0.win 4).blk t).view.set := by
  have hi0 : (i 0).val < 50000 := (i 0).isLt
  have hi1 : (i 1).val < 160 := (i 1).isLt
  obtain ⟨t, ht⟩ := idx_onto ⟨(i 0).val / 2000, by omega⟩
  have q0 : win0_4.index t (0 : Fin 2) = (i 0).val / 2000 := ht
  obtain ⟨e00, e01, e10, e11, e20, e21, e30, e31, e50, e51, e40, e41⟩ := idx_facts t
  refine ⟨t, flush0_4 t, ?_⟩
  rw [mem_blk_xw]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 160 ≤ (i 1).val ∧ (i 1).val < win0_4.index t (1 : Fin 2) * 160 + 160; omega

theorem cover_self (i : S50000x160.Idx) : ∃ t : Fin cfg0.N, (cfg0.win 5).flush t = true ∧ i ∈ ((cfg0.win 5).blk t).view.set := by
  have hi0 : (i 0).val < 50000 := (i 0).isLt
  have hi1 : (i 1).val < 160 := (i 1).isLt
  obtain ⟨t, ht⟩ := idx_onto ⟨(i 0).val / 2000, by omega⟩
  have q0 : win0_4.index t (0 : Fin 2) = (i 0).val / 2000 := ht
  obtain ⟨e00, e01, e10, e11, e20, e21, e30, e31, e50, e51, e40, e41⟩ := idx_facts t
  refine ⟨t, flush0_5 t, ?_⟩
  rw [mem_blk_self]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 160 ≤ (i 1).val ∧ (i 1).val < win0_5.index t (1 : Fin 2) * 160 + 160; omega

/-- After the region the product's array holds the whole product of the feature matrix and the weights. -/
theorem xw (c : Dev nD) : (dat0 (F := Ideal) V c).arrAt 4 cfg0.N = mmMat (V c main_arg0) (V c main_arg3) :=
  (dat0 (F := Ideal) V c).arrAt_eq_of_cover 4 _ (fun t _ => flushed_xw V c t) cover_xw

/-- After the region the second output array holds the whole self-loop-and-bias matrix. -/
theorem self (c : Dev nD) : (dat0 (F := Ideal) V c).arrAt 5 cfg0.N = selfMat (V c main_v14) (V c main_arg0) (V c main_arg3) (V c main_v31) :=
  (dat0 (F := Ideal) V c).arrAt_eq_of_cover 5 _ (fun t _ => flushed_self V c t) cover_self

end Cert.KernelIdeal.Layer0Value

end
-- ==== Proof.Layer1Value.lean ====
/-
  The second layer's two dense pieces, read off the arrays its row-blocked region leaves.

  The region walks 25 row blocks of 2000 rows. At each it adds the blocks of its two input matrices (the aggregate
  and the previous layer's self-loop-and-bias part), multiplies the sum by the whole weight matrix, writes the
  product's block, and writes the block of "coefficient times product plus bias". Both 160-column output arrays are
  therefore, entry by entry, the whole-matrix product and the whole self-loop-and-bias matrix of the arrays the
  region finds on entry: each written block is the corresponding block of that one whole-matrix function, and the
  25 blocks cover all 50000 rows.
-/
import proofs.«133490_j51754355916835_1_alg».proof.Proof.Gen.KernelIdeal.Frame
import proofs.«133490_j51754355916835_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1Value

open Cert.KernelIdeal Cert.KernelIdeal.Gen Idealize.ShloMosaic Idealize.ShloMosaic.ValueIdx Idealize.ShloMosaic.TcCoe Idealize.SL.Sem

theorem lhs_row (i : S2000x160.Idx) (q : dot_S2000x160_S160x160_S2000x160_1_0_0_1_n_n.contr.Idx) :
    (dot_S2000x160_S160x160_S2000x160_1_0_0_1_n_n.lhsIdx i q 0).val = (i 0).val := by
  unfold DotDims.lhsIdx
  rw [dif_neg (show ¬(0 : Fin S2000x160.rank) ∈ dot_S2000x160_S160x160_S2000x160_1_0_0_1_n_n.lhsBatch by decide), dif_pos (show (0 : Fin S2000x160.rank) ∈ dot_S2000x160_S160x160_S2000x160_1_0_0_1_n_n.lhsNonContracting by decide)]
  rfl

theorem rhs_col (i : S2000x160.Idx) (q : dot_S2000x160_S160x160_S2000x160_1_0_0_1_n_n.contr.Idx) :
    (dot_S2000x160_S160x160_S2000x160_1_0_0_1_n_n.rhsIdx i q 1).val = (i 1).val := by
  unfold DotDims.rhsIdx
  rw [dif_neg (show ¬(1 : Fin S160x160.rank) ∈ dot_S2000x160_S160x160_S2000x160_1_0_0_1_n_n.rhsBatch by decide), dif_pos (show (1 : Fin S160x160.rank) ∈ dot_S2000x160_S160x160_S2000x160_1_0_0_1_n_n.rhsNonContracting by decide)]
  rfl

/-- The product payload at an entry: the sum over the shared axis of (sum of the two inputs) times the weight. -/
theorem prod_apply (x0 : Vec Ideal S2000x160 .f32) (x1 : Vec Ideal S2000x160 .f32) (x2 : Vec Ideal S160x160 .f32) (p : Fin 2000) (q : Fin 160) :
    k1_pay1 (F := Ideal) x0 x1 x2 (ix2 p q) = ∑ k : Fin 160, (x0 (ix2 p k) + x1 (ix2 p k)) * x2 (ix2 k q) := by
  unfold k1_pay1
  refine (Ideal.matmul_constant_zero_apply dot_S2000x160_S160x160_S2000x160_1_0_0_1_n_n none _ _ (ix2 p q)).trans ?_
  rw [← Equiv.sum_comp (contrEquiv1 dot_S2000x160_S160x160_S2000x160_1_0_0_1_n_n 160 rfl rfl).symm]
  refine Finset.sum_congr rfl fun k _ => ?_
  have hk := contrEquiv1_symm_val dot_S2000x160_S160x160_S2000x160_1_0_0_1_n_n 160 rfl rfl k
  have el : dot_S2000x160_S160x160_S2000x160_1_0_0_1_n_n.lhsIdx (ix2 p q) ((contrEquiv1 dot_S2000x160_S160x160_S2000x160_1_0_0_1_n_n 160 rfl rfl).symm k) = ix2 p k := funext fun a => Fin.ext (by
    match a with
    | ⟨0, _⟩ => exact lhs_row _ _
    | ⟨1, _⟩ => exact ((dot_S2000x160_S160x160_S2000x160_1_0_0_1_n_n.lhsIdx_val_of_single rfl _ _).trans hk))
  have er : dot_S2000x160_S160x160_S2000x160_1_0_0_1_n_n.rhsIdx (ix2 p q) ((contrEquiv1 dot_S2000x160_S160x160_S2000x160_1_0_0_1_n_n 160 rfl rfl).symm k) = ix2 k q := funext fun a => Fin.ext (by
    match a with
    | ⟨0, _⟩ => exact ((dot_S2000x160_S160x160_S2000x160_1_0_0_1_n_n.rhsIdx_val_of_single rfl _ _).trans hk)
    | ⟨1, _⟩ => exact rhs_col _ _)
  show (shapeCast S2000x160 x0 shapeCasts_S2000x160_S2000x160 _ + shapeCast S2000x160 x1 shapeCasts_S2000x160_S2000x160 _) * x2 _ = _
  rw [shapeCast_self, shapeCast_self, el, er]

/-- A column `[a, 1]` broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The self-loop-and-bias payload at an entry: the row's coefficient times the product's entry, plus the column's bias. -/
theorem self_apply (x0 : Vec Ideal S2000x160 .f32) (x1 : Vec Ideal S2000x160 .f32) (x2 : Vec Ideal S160x160 .f32) (x4 : Vec Ideal S2000x1 .f32) (x3 : Vec Ideal S1x160 .f32)
    (p : Fin 2000) (q : Fin 160) :
    k1_pay2 (F := Ideal) x0 x1 x2 x4 x3 (ix2 p q) = x4 (ix2 p (0 : Fin 1)) * k1_pay1 (F := Ideal) x0 x1 x2 (ix2 p q) + x3 (ix2 (0 : Fin 1) q) := by
  unfold k1_pay2
  show broadcastTo S2000x160 (shapeCast S2000x1 x4 shapeCasts_S2000x1_S2000x1) broadcasts_S2000x1_S2000x160 (ix2 p q) * k1_pay1 (F := Ideal) x0 x1 x2 (ix2 p q)
      + broadcastTo S2000x160 (shapeCast S1x160 x3 shapeCasts_S1x160_S1x160) broadcasts_S1x160_S2000x160 (ix2 p q) = _
  rw [shapeCast_self, shapeCast_self]
  exact congrArg₂ (fun u v => u * k1_pay1 (F := Ideal) x0 x1 x2 (ix2 p q) + v)
    (broadcastTo_a1_ab_apply x4 broadcasts_S2000x1_S2000x160 p q) (broadcastTo_1b_ab_apply x3 broadcasts_S1x160_S2000x160 p q)

theorem hz : (![0, 0] : Fin 2 → Nat) = fun _ => 0 := funext fun a => by fin_cases a <;> rfl

/-- The printed index maps, decided over the grid: the row-blocked windows sit at the same row block, which is below 25,
    and every other block index is zero. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = win1_5.index t (0 : Fin 2) ∧ win1_4.index t (1 : Fin 2) = 0
    ∧ win1_6.index t (0 : Fin 2) = win1_5.index t (0 : Fin 2) ∧ win1_6.index t (1 : Fin 2) = 0
    ∧ win1_5.index t (0 : Fin 2) ≤ 24 ∧ win1_5.index t (1 : Fin 2) = 0 :=
  (by decide +kernel : ∀ t : Fin grid1.N, _)

/-- Every row block is some point's. -/
theorem idx_onto : ∀ (q0 : Fin 25), ∃ t : Fin cfg1.N, win1_5.index t (0 : Fin 2) = q0.val :=
  (by decide +kernel : ∀ (q0 : Fin 25), ∃ t : Fin grid1.N, win1_5.index t (0 : Fin 2) = q0.val)

open Cert.GcnSpec

/-- One entry of the product block, given where the block's rows sit in the whole matrices. -/
theorem xw_point (x0 : Vec Ideal S2000x160 .f32) (x1 : Vec Ideal S2000x160 .f32) (x2 : Vec Ideal S160x160 .f32)
    (A C : Mat 50000 160) (W : Mat 160 160) (p : Fin 2000) (q : Fin 160) (r : Fin 50000)
    (h0 : ∀ k : Fin 160, x0 (ix2 p k) = A (ix2 r k)) (h1 : ∀ k : Fin 160, x1 (ix2 p k) = C (ix2 r k))
    (h2 : ∀ k : Fin 160, x2 (ix2 k q) = W (ix2 k q)) :
    k1_pay1 (F := Ideal) x0 x1 x2 (ix2 p q) = mm (plus A C) W r q := by
  rw [prod_apply]
  unfold mm
  exact Finset.sum_congr rfl fun k _ => by rw [h0 k, h1 k, h2 k]; rfl

/-- One entry of the self-loop-and-bias block, likewise. -/
theorem self_point (x0 : Vec Ideal S2000x160 .f32) (x1 : Vec Ideal S2000x160 .f32) (x2 : Vec Ideal S160x160 .f32) (x4 : Vec Ideal S2000x1 .f32) (x3 : Vec Ideal S1x160 .f32)
    (coeff : Mat 50000 1) (A C : Mat 50000 160) (W : Mat 160 160) (b : Mat 1 160) (p : Fin 2000) (q : Fin 160) (r : Fin 50000)
    (h0 : ∀ k : Fin 160, x0 (ix2 p k) = A (ix2 r k)) (h1 : ∀ k : Fin 160, x1 (ix2 p k) = C (ix2 r k))
    (h2 : ∀ k : Fin 160, x2 (ix2 k q) = W (ix2 k q))
    (h4 : x4 (ix2 p (0 : Fin 1)) = coeff (ix2 r (0 : Fin 1))) (h3 : x3 (ix2 (0 : Fin 1) q) = b (ix2 (0 : Fin 1) q)) :
    k1_pay2 (F := Ideal) x0 x1 x2 x4 x3 (ix2 p q) = selfPart coeff (plus A C) W b r q := by
  rw [self_apply, xw_point x0 x1 x2 A C W p q r h0 h1 h2, h4, h3]
  rfl

variable (V : (c : Dev nD) → (b : Ref sig .tc) → Buf (Elt Ideal) ((c : Thread nD τ).loc b))

/-- What a point writes back to the product's array is that point's row block of the whole product. -/
theorem flushed_xw (c : Dev nD) (t : Fin cfg1.N) :
    (dat1 (F := Ideal) V c).flushed 5 t = ((cfg1.win 5).blk t).view.read (Elt Ideal) (mmMat (plus (V c main_v44) (V c main_v32_1)) (V c main_arg5)) := by
  show (cfg1.win 5).cut (grid1.coords t) ((dat1 (F := Ideal) V c).after 5 t) = _
  rw [after1_5]
  unfold out1_5
  rw [View.canon_unit_zero hz]
  simp only [View.ld_unit_zero (S := S2000x160) hz, View.ld_unit_zero (S := S160x160) hz]
  obtain ⟨e00, e01, e10, e11, e20, e21, e30, e31, e40, e41, e60, e61, e50, e51⟩ := idx_facts t
  funext j
  obtain ⟨p, q, rfl⟩ : ∃ (p : Fin 2000) (q : Fin 160), j = ix2 p q := ⟨j 0, j 1, eq_ix2 j⟩
  have hr : win1_5.index t (0 : Fin 2) * 2000 + p.val < 50000 := by have := p.isLt; omega
  have hemb : ((cfg1.win 5).blk t).view.emb (ix2 p q) = ix2 (⟨win1_5.index t (0 : Fin 2) * 2000 + p.val, hr⟩ : Fin 50000) q := by
    funext a; apply Fin.ext
    match a with
    | ⟨0, _⟩ => show win1_5.index t (0 : Fin 2) * 2000 + 1 * p.val = win1_5.index t (0 : Fin 2) * 2000 + p.val; omega
    | ⟨1, _⟩ => show win1_5.index t (1 : Fin 2) * 160 + 1 * q.val = q.val; omega
  show k1_pay1 (F := Ideal) (iblk1 V c 0 t) (iblk1 V c 1 t) (iblk1 V c 2 t) (ix2 p q)
    = mmMat (plus (V c main_v44) (V c main_v32_1)) (V c main_arg5) (((cfg1.win 5).blk t).view.emb (ix2 p q))
  rw [hemb, mmMat_apply]
  refine xw_point _ _ _ _ _ _ p q _ (fun k => ?_) (fun k => ?_) (fun k => ?_)
  · show V c main_v44 (((cfg1.win 0).blk t).view.emb (ix2 p k)) = _
    refine congrArg (V c main_v44) (funext fun a => Fin.ext ?_)
    match a with
    | ⟨0, _⟩ => show win1_0.index t (0 : Fin 2) * 2000 + 1 * p.val = win1_5.index t (0 : Fin 2) * 2000 + p.val; omega
    | ⟨1, _⟩ => show win1_0.index t (1 : Fin 2) * 160 + 1 * k.val = k.val; omega
  · show V c main_v32_1 (((cfg1.win 1).blk t).view.emb (ix2 p k)) = _
    refine congrArg (V c main_v32_1) (funext fun a => Fin.ext ?_)
    match a with
    | ⟨0, _⟩ => show win1_1.index t (0 : Fin 2) * 2000 + 1 * p.val = win1_5.index t (0 : Fin 2) * 2000 + p.val; omega
    | ⟨1, _⟩ => show win1_1.index t (1 : Fin 2) * 160 + 1 * k.val = k.val; omega
  · show V c main_arg5 (((cfg1.win 2).blk t).view.emb (ix2 k q)) = _
    refine congrArg (V c main_arg5) (funext fun a => Fin.ext ?_)
    match a with
    | ⟨0, _⟩ => show win1_2.index t (0 : Fin 2) * 160 + 1 * k.val = k.val; omega
    | ⟨1, _⟩ => show win1_2.index t (1 : Fin 2) * 160 + 1 * q.val = q.val; omega

/-- What a point writes back to the self-loop-and-bias array is that point's row block of the whole matrix. -/
theorem flushed_self (c : Dev nD) (t : Fin cfg1.N) :
    (dat1 (F := Ideal) V c).flushed 6 t = ((cfg1.win 6).blk t).view.read (Elt Ideal) (selfMat (V c main_v14) (plus (V c main_v44) (V c main_v32_1)) (V c main_arg5) (V c main_v45)) := by
  show (cfg1.win 6).cut (grid1.coords t) ((dat1 (F := Ideal) V c).after 6 t) = _
  rw [after1_6]
  unfold out1_6
  rw [View.canon_unit_zero hz]
  simp only [View.ld_unit_zero (S := S2000x160) hz, View.ld_unit_zero (S := S160x160) hz, View.ld_unit_zero (S := S2000x1) hz, View.ld_unit_zero (S := S1x160) hz]
  obtain ⟨e00, e01, e10, e11, e20, e21, e30, e31, e40, e41, e60, e61, e50, e51⟩ := idx_facts t
  funext j
  obtain ⟨p, q, rfl⟩ : ∃ (p : Fin 2000) (q : Fin 160), j = ix2 p q := ⟨j 0, j 1, eq_ix2 j⟩
  have hr : win1_5.index t (0 : Fin 2) * 2000 + p.val < 50000 := by have := p.isLt; omega
  have hemb : ((cfg1.win 6).blk t).view.emb (ix2 p q) = ix2 (⟨win1_5.index t (0 : Fin 2) * 2000 + p.val, hr⟩ : Fin 50000) q := by
    funext a; apply Fin.ext
    match a with
    | ⟨0, _⟩ => show win1_6.index t (0 : Fin 2) * 2000 + 1 * p.val = win1_5.index t (0 : Fin 2) * 2000 + p.val; omega
    | ⟨1, _⟩ => show win1_6.index t (1 : Fin 2) * 160 + 1 * q.val = q.val; omega
  show k1_pay2 (F := Ideal) (iblk1 V c 0 t) (iblk1 V c 1 t) (iblk1 V c 2 t) (iblk1 V c 4 t) (iblk1 V c 3 t) (ix2 p q)
    = selfMat (V c main_v14) (plus (V c main_v44) (V c main_v32_1)) (V c main_arg5) (V c main_v45) (((cfg1.win 6).blk t).view.emb (ix2 p q))
  rw [hemb, selfMat_apply]
  refine self_point _ _ _ _ _ _ _ _ _ _ p q _ (fun k => ?_) (fun k => ?_) (fun k => ?_) ?_ ?_
  · show V c main_v44 (((cfg1.win 0).blk t).view.emb (ix2 p k)) = _
    refine congrArg (V c main_v44) (funext fun a => Fin.ext ?_)
    match a with
    | ⟨0, _⟩ => show win1_0.index t (0 : Fin 2) * 2000 + 1 * p.val = win1_5.index t (0 : Fin 2) * 2000 + p.val; omega
    | ⟨1, _⟩ => show win1_0.index t (1 : Fin 2) * 160 + 1 * k.val = k.val; omega
  · show V c main_v32_1 (((cfg1.win 1).blk t).view.emb (ix2 p k)) = _
    refine congrArg (V c main_v32_1) (funext fun a => Fin.ext ?_)
    match a with
    | ⟨0, _⟩ => show win1_1.index t (0 : Fin 2) * 2000 + 1 * p.val = win1_5.index t (0 : Fin 2) * 2000 + p.val; omega
    | ⟨1, _⟩ => show win1_1.index t (1 : Fin 2) * 160 + 1 * k.val = k.val; omega
  · show V c main_arg5 (((cfg1.win 2).blk t).view.emb (ix2 k q)) = _
    refine congrArg (V c main_arg5) (funext fun a => Fin.ext ?_)
    match a with
    | ⟨0, _⟩ => show win1_2.index t (0 : Fin 2) * 160 + 1 * k.val = k.val; omega
    | ⟨1, _⟩ => show win1_2.index t (1 : Fin 2) * 160 + 1 * q.val = q.val; omega
  · show V c main_v14 (((cfg1.win 4).blk t).view.emb (ix2 p (0 : Fin 1))) = _
    refine congrArg (V c main_v14) (funext fun a => Fin.ext ?_)
    match a with
    | ⟨0, _⟩ => show win1_4.index t (0 : Fin 2) * 2000 + 1 * p.val = win1_5.index t (0 : Fin 2) * 2000 + p.val; omega
    | ⟨1, _⟩ => show win1_4.index t (1 : Fin 2) * 1 + 1 * 0 = 0; omega
  · show V c main_v45 (((cfg1.win 3).blk t).view.emb (ix2 (0 : Fin 1) q)) = _
    refine congrArg (V c main_v45) (funext fun a => Fin.ext ?_)
    match a with
    | ⟨0, _⟩ => show win1_3.index t (0 : Fin 2) * 1 + 1 * 0 = 0; omega
    | ⟨1, _⟩ => show win1_3.index t (1 : Fin 2) * 160 + 1 * q.val = q.val; omega

/-- An index of an output array is in a point's block iff each coordinate is in the block's range on its axis. -/
theorem mem_blk_xw (t : Fin cfg1.N) (i : S50000x160.Idx) :
    i ∈ ((cfg1.win 5).blk t).view.set ↔ ∀ a : Fin 2, win1_5.index t a * S2000x160.size a ≤ (i a).val ∧ (i a).val < win1_5.index t a * S2000x160.size a + S2000x160.size a := by
  show i ∈ ((View.whole main_v46_0).slice (win1_5.rect t)).set ↔ _
  rw [View.set_slice_whole, Rect.mem_set_unit]
  exact Iff.rfl

theorem mem_blk_self (t : Fin cfg1.N) (i : S50000x160.Idx) :
    i ∈ ((cfg1.win 6).blk t).view.set ↔ ∀ a : Fin 2, win1_6.index t a * S2000x160.size a ≤ (i a).val ∧ (i a).val < win1_6.index t a * S2000x160.size a + S2000x160.size a := by
  show i ∈ ((View.whole main_v46_1).slice (win1_6.rect t)).set ↔ _
  rw [View.set_slice_whole, Rect.mem_set_unit]
  exact Iff.rfl

/-- Row `r` lies in row block `r / 2000`: the blocks cover each output array. -/
theorem cover_xw (i : S50000x160.Idx) : ∃ t : Fin cfg1.N, (cfg1.win 5).flush t = true ∧ i ∈ ((cfg1.win 5).blk t).view.set := by
  have hi0 : (i 0).val < 50000 := (i 0).isLt
  have hi1 : (i 1).val < 160 := (i 1).isLt
  obtain ⟨t, ht⟩ := idx_onto ⟨(i 0).val / 2000, by omega⟩
  have q0 : win1_5.index t (0 : Fin 2) = (i 0).val / 2000 := ht
  obtain ⟨e00, e01, e10, e11, e20, e21, e30, e31, e40, e41, e60, e61, e50, e51⟩ := idx_facts t
  refine ⟨t, flush1_5 t, ?_⟩
  rw [mem_blk_xw]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 160 ≤ (i 1).val ∧ (i 1).val < win1_5.index t (1 : Fin 2) * 160 + 160; omega

theorem cover_self (i : S50000x160.Idx) : ∃ t : Fin cfg1.N, (cfg1.win 6).flush t = true ∧ i ∈ ((cfg1.win 6).blk t).view.set := by
  have hi0 : (i 0).val < 50000 := (i 0).isLt
  have hi1 : (i 1).val < 160 := (i 1).isLt
  obtain ⟨t, ht⟩ := idx_onto ⟨(i 0).val / 2000, by omega⟩
  have q0 : win1_5.index t (0 : Fin 2) = (i 0).val / 2000 := ht
  obtain ⟨e00, e01, e10, e11, e20, e21, e30, e31, e40, e41, e60, e61, e50, e51⟩ := idx_facts t
  refine ⟨t, flush1_6 t, ?_⟩
  rw [mem_blk_self]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 160 ≤ (i 1).val ∧ (i 1).val < win1_6.index t (1 : Fin 2) * 160 + 160; omega

/-- After the region the product's array holds the whole product of (aggregate plus previous self part) and the weights. -/
theorem xw (c : Dev nD) : (dat1 (F := Ideal) V c).arrAt 5 cfg1.N = mmMat (plus (V c main_v44) (V c main_v32_1)) (V c main_arg5) :=
  (dat1 (F := Ideal) V c).arrAt_eq_of_cover 5 _ (fun t _ => flushed_xw V c t) cover_xw

/-- After the region the second output array holds the whole self-loop-and-bias matrix. -/
theorem self (c : Dev nD) : (dat1 (F := Ideal) V c).arrAt 6 cfg1.N = selfMat (V c main_v14) (plus (V c main_v44) (V c main_v32_1)) (V c main_arg5) (V c main_v45) :=
  (dat1 (F := Ideal) V c).arrAt_eq_of_cover 6 _ (fun t _ => flushed_self V c t) cover_self

end Cert.KernelIdeal.Layer1Value

end
-- ==== Proof.Layer2Value.lean ====
/-
  The third layer's two dense pieces, read off the arrays its row-blocked region leaves.

  The region walks 25 row blocks of 2000 rows. At each it adds the blocks of its two input matrices (the aggregate
  and the previous layer's self-loop-and-bias part), multiplies the sum by the whole weight matrix, writes the
  product's block, and writes the block of "coefficient times product plus bias". Both 160-column output arrays are
  therefore, entry by entry, the whole-matrix product and the whole self-loop-and-bias matrix of the arrays the
  region finds on entry: each written block is the corresponding block of that one whole-matrix function, and the
  25 blocks cover all 50000 rows.
-/
import proofs.«133490_j51754355916835_1_alg».proof.Proof.Gen.KernelIdeal.Frame
import proofs.«133490_j51754355916835_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2Value

open Cert.KernelIdeal Cert.KernelIdeal.Gen Idealize.ShloMosaic Idealize.ShloMosaic.ValueIdx Idealize.ShloMosaic.TcCoe Idealize.SL.Sem

theorem lhs_row (i : S2000x160.Idx) (q : dot_S2000x160_S160x160_S2000x160_1_0_0_1_n_n.contr.Idx) :
    (dot_S2000x160_S160x160_S2000x160_1_0_0_1_n_n.lhsIdx i q 0).val = (i 0).val := by
  unfold DotDims.lhsIdx
  rw [dif_neg (show ¬(0 : Fin S2000x160.rank) ∈ dot_S2000x160_S160x160_S2000x160_1_0_0_1_n_n.lhsBatch by decide), dif_pos (show (0 : Fin S2000x160.rank) ∈ dot_S2000x160_S160x160_S2000x160_1_0_0_1_n_n.lhsNonContracting by decide)]
  rfl

theorem rhs_col (i : S2000x160.Idx) (q : dot_S2000x160_S160x160_S2000x160_1_0_0_1_n_n.contr.Idx) :
    (dot_S2000x160_S160x160_S2000x160_1_0_0_1_n_n.rhsIdx i q 1).val = (i 1).val := by
  unfold DotDims.rhsIdx
  rw [dif_neg (show ¬(1 : Fin S160x160.rank) ∈ dot_S2000x160_S160x160_S2000x160_1_0_0_1_n_n.rhsBatch by decide), dif_pos (show (1 : Fin S160x160.rank) ∈ dot_S2000x160_S160x160_S2000x160_1_0_0_1_n_n.rhsNonContracting by decide)]
  rfl

/-- The product payload at an entry: the sum over the shared axis of (sum of the two inputs) times the weight. -/
theorem prod_apply (x0 : Vec Ideal S2000x160 .f32) (x1 : Vec Ideal S2000x160 .f32) (x2 : Vec Ideal S160x160 .f32) (p : Fin 2000) (q : Fin 160) :
    k2_pay1 (F := Ideal) x0 x1 x2 (ix2 p q) = ∑ k : Fin 160, (x0 (ix2 p k) + x1 (ix2 p k)) * x2 (ix2 k q) := by
  unfold k2_pay1
  refine (Ideal.matmul_constant_zero_apply dot_S2000x160_S160x160_S2000x160_1_0_0_1_n_n none _ _ (ix2 p q)).trans ?_
  rw [← Equiv.sum_comp (contrEquiv1 dot_S2000x160_S160x160_S2000x160_1_0_0_1_n_n 160 rfl rfl).symm]
  refine Finset.sum_congr rfl fun k _ => ?_
  have hk := contrEquiv1_symm_val dot_S2000x160_S160x160_S2000x160_1_0_0_1_n_n 160 rfl rfl k
  have el : dot_S2000x160_S160x160_S2000x160_1_0_0_1_n_n.lhsIdx (ix2 p q) ((contrEquiv1 dot_S2000x160_S160x160_S2000x160_1_0_0_1_n_n 160 rfl rfl).symm k) = ix2 p k := funext fun a => Fin.ext (by
    match a with
    | ⟨0, _⟩ => exact lhs_row _ _
    | ⟨1, _⟩ => exact ((dot_S2000x160_S160x160_S2000x160_1_0_0_1_n_n.lhsIdx_val_of_single rfl _ _).trans hk))
  have er : dot_S2000x160_S160x160_S2000x160_1_0_0_1_n_n.rhsIdx (ix2 p q) ((contrEquiv1 dot_S2000x160_S160x160_S2000x160_1_0_0_1_n_n 160 rfl rfl).symm k) = ix2 k q := funext fun a => Fin.ext (by
    match a with
    | ⟨0, _⟩ => exact ((dot_S2000x160_S160x160_S2000x160_1_0_0_1_n_n.rhsIdx_val_of_single rfl _ _).trans hk)
    | ⟨1, _⟩ => exact rhs_col _ _)
  show (shapeCast S2000x160 x0 shapeCasts_S2000x160_S2000x160 _ + shapeCast S2000x160 x1 shapeCasts_S2000x160_S2000x160 _) * x2 _ = _
  rw [shapeCast_self, shapeCast_self, el, er]

/-- A column `[a, 1]` broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The self-loop-and-bias payload at an entry: the row's coefficient times the product's entry, plus the column's bias. -/
theorem self_apply (x0 : Vec Ideal S2000x160 .f32) (x1 : Vec Ideal S2000x160 .f32) (x2 : Vec Ideal S160x160 .f32) (x4 : Vec Ideal S2000x1 .f32) (x3 : Vec Ideal S1x160 .f32)
    (p : Fin 2000) (q : Fin 160) :
    k2_pay2 (F := Ideal) x0 x1 x2 x4 x3 (ix2 p q) = x4 (ix2 p (0 : Fin 1)) * k2_pay1 (F := Ideal) x0 x1 x2 (ix2 p q) + x3 (ix2 (0 : Fin 1) q) := by
  unfold k2_pay2
  show broadcastTo S2000x160 (shapeCast S2000x1 x4 shapeCasts_S2000x1_S2000x1) broadcasts_S2000x1_S2000x160 (ix2 p q) * k2_pay1 (F := Ideal) x0 x1 x2 (ix2 p q)
      + broadcastTo S2000x160 (shapeCast S1x160 x3 shapeCasts_S1x160_S1x160) broadcasts_S1x160_S2000x160 (ix2 p q) = _
  rw [shapeCast_self, shapeCast_self]
  exact congrArg₂ (fun u v => u * k2_pay1 (F := Ideal) x0 x1 x2 (ix2 p q) + v)
    (broadcastTo_a1_ab_apply x4 broadcasts_S2000x1_S2000x160 p q) (broadcastTo_1b_ab_apply x3 broadcasts_S1x160_S2000x160 p q)

theorem hz : (![0, 0] : Fin 2 → Nat) = fun _ => 0 := funext fun a => by fin_cases a <;> rfl

/-- The printed index maps, decided over the grid: the row-blocked windows sit at the same row block, which is below 25,
    and every other block index is zero. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = win2_5.index t (0 : Fin 2) ∧ win2_4.index t (1 : Fin 2) = 0
    ∧ win2_6.index t (0 : Fin 2) = win2_5.index t (0 : Fin 2) ∧ win2_6.index t (1 : Fin 2) = 0
    ∧ win2_5.index t (0 : Fin 2) ≤ 24 ∧ win2_5.index t (1 : Fin 2) = 0 :=
  (by decide +kernel : ∀ t : Fin grid2.N, _)

/-- Every row block is some point's. -/
theorem idx_onto : ∀ (q0 : Fin 25), ∃ t : Fin cfg2.N, win2_5.index t (0 : Fin 2) = q0.val :=
  (by decide +kernel : ∀ (q0 : Fin 25), ∃ t : Fin grid2.N, win2_5.index t (0 : Fin 2) = q0.val)

open Cert.GcnSpec

/-- One entry of the product block, given where the block's rows sit in the whole matrices. -/
theorem xw_point (x0 : Vec Ideal S2000x160 .f32) (x1 : Vec Ideal S2000x160 .f32) (x2 : Vec Ideal S160x160 .f32)
    (A C : Mat 50000 160) (W : Mat 160 160) (p : Fin 2000) (q : Fin 160) (r : Fin 50000)
    (h0 : ∀ k : Fin 160, x0 (ix2 p k) = A (ix2 r k)) (h1 : ∀ k : Fin 160, x1 (ix2 p k) = C (ix2 r k))
    (h2 : ∀ k : Fin 160, x2 (ix2 k q) = W (ix2 k q)) :
    k2_pay1 (F := Ideal) x0 x1 x2 (ix2 p q) = mm (plus A C) W r q := by
  rw [prod_apply]
  unfold mm
  exact Finset.sum_congr rfl fun k _ => by rw [h0 k, h1 k, h2 k]; rfl

/-- One entry of the self-loop-and-bias block, likewise. -/
theorem self_point (x0 : Vec Ideal S2000x160 .f32) (x1 : Vec Ideal S2000x160 .f32) (x2 : Vec Ideal S160x160 .f32) (x4 : Vec Ideal S2000x1 .f32) (x3 : Vec Ideal S1x160 .f32)
    (coeff : Mat 50000 1) (A C : Mat 50000 160) (W : Mat 160 160) (b : Mat 1 160) (p : Fin 2000) (q : Fin 160) (r : Fin 50000)
    (h0 : ∀ k : Fin 160, x0 (ix2 p k) = A (ix2 r k)) (h1 : ∀ k : Fin 160, x1 (ix2 p k) = C (ix2 r k))
    (h2 : ∀ k : Fin 160, x2 (ix2 k q) = W (ix2 k q))
    (h4 : x4 (ix2 p (0 : Fin 1)) = coeff (ix2 r (0 : Fin 1))) (h3 : x3 (ix2 (0 : Fin 1) q) = b (ix2 (0 : Fin 1) q)) :
    k2_pay2 (F := Ideal) x0 x1 x2 x4 x3 (ix2 p q) = selfPart coeff (plus A C) W b r q := by
  rw [self_apply, xw_point x0 x1 x2 A C W p q r h0 h1 h2, h4, h3]
  rfl

variable (V : (c : Dev nD) → (b : Ref sig .tc) → Buf (Elt Ideal) ((c : Thread nD τ).loc b))

/-- What a point writes back to the product's array is that point's row block of the whole product. -/
theorem flushed_xw (c : Dev nD) (t : Fin cfg2.N) :
    (dat2 (F := Ideal) V c).flushed 5 t = ((cfg2.win 5).blk t).view.read (Elt Ideal) (mmMat (plus (V c main_v58) (V c main_v46_1)) (V c main_arg7)) := by
  show (cfg2.win 5).cut (grid2.coords t) ((dat2 (F := Ideal) V c).after 5 t) = _
  rw [after2_5]
  unfold out2_5
  rw [View.canon_unit_zero hz]
  simp only [View.ld_unit_zero (S := S2000x160) hz, View.ld_unit_zero (S := S160x160) hz]
  obtain ⟨e00, e01, e10, e11, e20, e21, e30, e31, e40, e41, e60, e61, e50, e51⟩ := idx_facts t
  funext j
  obtain ⟨p, q, rfl⟩ : ∃ (p : Fin 2000) (q : Fin 160), j = ix2 p q := ⟨j 0, j 1, eq_ix2 j⟩
  have hr : win2_5.index t (0 : Fin 2) * 2000 + p.val < 50000 := by have := p.isLt; omega
  have hemb : ((cfg2.win 5).blk t).view.emb (ix2 p q) = ix2 (⟨win2_5.index t (0 : Fin 2) * 2000 + p.val, hr⟩ : Fin 50000) q := by
    funext a; apply Fin.ext
    match a with
    | ⟨0, _⟩ => show win2_5.index t (0 : Fin 2) * 2000 + 1 * p.val = win2_5.index t (0 : Fin 2) * 2000 + p.val; omega
    | ⟨1, _⟩ => show win2_5.index t (1 : Fin 2) * 160 + 1 * q.val = q.val; omega
  show k2_pay1 (F := Ideal) (iblk2 V c 0 t) (iblk2 V c 1 t) (iblk2 V c 2 t) (ix2 p q)
    = mmMat (plus (V c main_v58) (V c main_v46_1)) (V c main_arg7) (((cfg2.win 5).blk t).view.emb (ix2 p q))
  rw [hemb, mmMat_apply]
  refine xw_point _ _ _ _ _ _ p q _ (fun k => ?_) (fun k => ?_) (fun k => ?_)
  · show V c main_v58 (((cfg2.win 0).blk t).view.emb (ix2 p k)) = _
    refine congrArg (V c main_v58) (funext fun a => Fin.ext ?_)
    match a with
    | ⟨0, _⟩ => show win2_0.index t (0 : Fin 2) * 2000 + 1 * p.val = win2_5.index t (0 : Fin 2) * 2000 + p.val; omega
    | ⟨1, _⟩ => show win2_0.index t (1 : Fin 2) * 160 + 1 * k.val = k.val; omega
  · show V c main_v46_1 (((cfg2.win 1).blk t).view.emb (ix2 p k)) = _
    refine congrArg (V c main_v46_1) (funext fun a => Fin.ext ?_)
    match a with
    | ⟨0, _⟩ => show win2_1.index t (0 : Fin 2) * 2000 + 1 * p.val = win2_5.index t (0 : Fin 2) * 2000 + p.val; omega
    | ⟨1, _⟩ => show win2_1.index t (1 : Fin 2) * 160 + 1 * k.val = k.val; omega
  · show V c main_arg7 (((cfg2.win 2).blk t).view.emb (ix2 k q)) = _
    refine congrArg (V c main_arg7) (funext fun a => Fin.ext ?_)
    match a with
    | ⟨0, _⟩ => show win2_2.index t (0 : Fin 2) * 160 + 1 * k.val = k.val; omega
    | ⟨1, _⟩ => show win2_2.index t (1 : Fin 2) * 160 + 1 * q.val = q.val; omega

/-- What a point writes back to the self-loop-and-bias array is that point's row block of the whole matrix. -/
theorem flushed_self (c : Dev nD) (t : Fin cfg2.N) :
    (dat2 (F := Ideal) V c).flushed 6 t = ((cfg2.win 6).blk t).view.read (Elt Ideal) (selfMat (V c main_v14) (plus (V c main_v58) (V c main_v46_1)) (V c main_arg7) (V c main_v59)) := by
  show (cfg2.win 6).cut (grid2.coords t) ((dat2 (F := Ideal) V c).after 6 t) = _
  rw [after2_6]
  unfold out2_6
  rw [View.canon_unit_zero hz]
  simp only [View.ld_unit_zero (S := S2000x160) hz, View.ld_unit_zero (S := S160x160) hz, View.ld_unit_zero (S := S2000x1) hz, View.ld_unit_zero (S := S1x160) hz]
  obtain ⟨e00, e01, e10, e11, e20, e21, e30, e31, e40, e41, e60, e61, e50, e51⟩ := idx_facts t
  funext j
  obtain ⟨p, q, rfl⟩ : ∃ (p : Fin 2000) (q : Fin 160), j = ix2 p q := ⟨j 0, j 1, eq_ix2 j⟩
  have hr : win2_5.index t (0 : Fin 2) * 2000 + p.val < 50000 := by have := p.isLt; omega
  have hemb : ((cfg2.win 6).blk t).view.emb (ix2 p q) = ix2 (⟨win2_5.index t (0 : Fin 2) * 2000 + p.val, hr⟩ : Fin 50000) q := by
    funext a; apply Fin.ext
    match a with
    | ⟨0, _⟩ => show win2_6.index t (0 : Fin 2) * 2000 + 1 * p.val = win2_5.index t (0 : Fin 2) * 2000 + p.val; omega
    | ⟨1, _⟩ => show win2_6.index t (1 : Fin 2) * 160 + 1 * q.val = q.val; omega
  show k2_pay2 (F := Ideal) (iblk2 V c 0 t) (iblk2 V c 1 t) (iblk2 V c 2 t) (iblk2 V c 4 t) (iblk2 V c 3 t) (ix2 p q)
    = selfMat (V c main_v14) (plus (V c main_v58) (V c main_v46_1)) (V c main_arg7) (V c main_v59) (((cfg2.win 6).blk t).view.emb (ix2 p q))
  rw [hemb, selfMat_apply]
  refine self_point _ _ _ _ _ _ _ _ _ _ p q _ (fun k => ?_) (fun k => ?_) (fun k => ?_) ?_ ?_
  · show V c main_v58 (((cfg2.win 0).blk t).view.emb (ix2 p k)) = _
    refine congrArg (V c main_v58) (funext fun a => Fin.ext ?_)
    match a with
    | ⟨0, _⟩ => show win2_0.index t (0 : Fin 2) * 2000 + 1 * p.val = win2_5.index t (0 : Fin 2) * 2000 + p.val; omega
    | ⟨1, _⟩ => show win2_0.index t (1 : Fin 2) * 160 + 1 * k.val = k.val; omega
  · show V c main_v46_1 (((cfg2.win 1).blk t).view.emb (ix2 p k)) = _
    refine congrArg (V c main_v46_1) (funext fun a => Fin.ext ?_)
    match a with
    | ⟨0, _⟩ => show win2_1.index t (0 : Fin 2) * 2000 + 1 * p.val = win2_5.index t (0 : Fin 2) * 2000 + p.val; omega
    | ⟨1, _⟩ => show win2_1.index t (1 : Fin 2) * 160 + 1 * k.val = k.val; omega
  · show V c main_arg7 (((cfg2.win 2).blk t).view.emb (ix2 k q)) = _
    refine congrArg (V c main_arg7) (funext fun a => Fin.ext ?_)
    match a with
    | ⟨0, _⟩ => show win2_2.index t (0 : Fin 2) * 160 + 1 * k.val = k.val; omega
    | ⟨1, _⟩ => show win2_2.index t (1 : Fin 2) * 160 + 1 * q.val = q.val; omega
  · show V c main_v14 (((cfg2.win 4).blk t).view.emb (ix2 p (0 : Fin 1))) = _
    refine congrArg (V c main_v14) (funext fun a => Fin.ext ?_)
    match a with
    | ⟨0, _⟩ => show win2_4.index t (0 : Fin 2) * 2000 + 1 * p.val = win2_5.index t (0 : Fin 2) * 2000 + p.val; omega
    | ⟨1, _⟩ => show win2_4.index t (1 : Fin 2) * 1 + 1 * 0 = 0; omega
  · show V c main_v59 (((cfg2.win 3).blk t).view.emb (ix2 (0 : Fin 1) q)) = _
    refine congrArg (V c main_v59) (funext fun a => Fin.ext ?_)
    match a with
    | ⟨0, _⟩ => show win2_3.index t (0 : Fin 2) * 1 + 1 * 0 = 0; omega
    | ⟨1, _⟩ => show win2_3.index t (1 : Fin 2) * 160 + 1 * q.val = q.val; omega

/-- An index of an output array is in a point's block iff each coordinate is in the block's range on its axis. -/
theorem mem_blk_xw (t : Fin cfg2.N) (i : S50000x160.Idx) :
    i ∈ ((cfg2.win 5).blk t).view.set ↔ ∀ a : Fin 2, win2_5.index t a * S2000x160.size a ≤ (i a).val ∧ (i a).val < win2_5.index t a * S2000x160.size a + S2000x160.size a := by
  show i ∈ ((View.whole main_v60_0).slice (win2_5.rect t)).set ↔ _
  rw [View.set_slice_whole, Rect.mem_set_unit]
  exact Iff.rfl

theorem mem_blk_self (t : Fin cfg2.N) (i : S50000x160.Idx) :
    i ∈ ((cfg2.win 6).blk t).view.set ↔ ∀ a : Fin 2, win2_6.index t a * S2000x160.size a ≤ (i a).val ∧ (i a).val < win2_6.index t a * S2000x160.size a + S2000x160.size a := by
  show i ∈ ((View.whole main_v60_1).slice (win2_6.rect t)).set ↔ _
  rw [View.set_slice_whole, Rect.mem_set_unit]
  exact Iff.rfl

/-- Row `r` lies in row block `r / 2000`: the blocks cover each output array. -/
theorem cover_xw (i : S50000x160.Idx) : ∃ t : Fin cfg2.N, (cfg2.win 5).flush t = true ∧ i ∈ ((cfg2.win 5).blk t).view.set := by
  have hi0 : (i 0).val < 50000 := (i 0).isLt
  have hi1 : (i 1).val < 160 := (i 1).isLt
  obtain ⟨t, ht⟩ := idx_onto ⟨(i 0).val / 2000, by omega⟩
  have q0 : win2_5.index t (0 : Fin 2) = (i 0).val / 2000 := ht
  obtain ⟨e00, e01, e10, e11, e20, e21, e30, e31, e40, e41, e60, e61, e50, e51⟩ := idx_facts t
  refine ⟨t, flush2_5 t, ?_⟩
  rw [mem_blk_xw]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 160 ≤ (i 1).val ∧ (i 1).val < win2_5.index t (1 : Fin 2) * 160 + 160; omega

theorem cover_self (i : S50000x160.Idx) : ∃ t : Fin cfg2.N, (cfg2.win 6).flush t = true ∧ i ∈ ((cfg2.win 6).blk t).view.set := by
  have hi0 : (i 0).val < 50000 := (i 0).isLt
  have hi1 : (i 1).val < 160 := (i 1).isLt
  obtain ⟨t, ht⟩ := idx_onto ⟨(i 0).val / 2000, by omega⟩
  have q0 : win2_5.index t (0 : Fin 2) = (i 0).val / 2000 := ht
  obtain ⟨e00, e01, e10, e11, e20, e21, e30, e31, e40, e41, e60, e61, e50, e51⟩ := idx_facts t
  refine ⟨t, flush2_6 t, ?_⟩
  rw [mem_blk_self]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 160 ≤ (i 1).val ∧ (i 1).val < win2_6.index t (1 : Fin 2) * 160 + 160; omega

/-- After the region the product's array holds the whole product of (aggregate plus previous self part) and the weights. -/
theorem xw (c : Dev nD) : (dat2 (F := Ideal) V c).arrAt 5 cfg2.N = mmMat (plus (V c main_v58) (V c main_v46_1)) (V c main_arg7) :=
  (dat2 (F := Ideal) V c).arrAt_eq_of_cover 5 _ (fun t _ => flushed_xw V c t) cover_xw

/-- After the region the second output array holds the whole self-loop-and-bias matrix. -/
theorem self (c : Dev nD) : (dat2 (F := Ideal) V c).arrAt 6 cfg2.N = selfMat (V c main_v14) (plus (V c main_v58) (V c main_v46_1)) (V c main_arg7) (V c main_v59) :=
  (dat2 (F := Ideal) V c).arrAt_eq_of_cover 6 _ (fun t _ => flushed_self V c t) cover_self

end Cert.KernelIdeal.Layer2Value

end
-- ==== Proof.Layer3Value.lean ====
/-
  The fourth layer's two dense pieces, read off the arrays its row-blocked region leaves.

  The region walks 25 row blocks of 2000 rows. At each it adds the blocks of its two input matrices (the aggregate
  and the previous layer's self-loop-and-bias part), multiplies the sum by the whole weight matrix, writes the
  product's block, and writes the block of "coefficient times product plus bias". Both 128-column output arrays are
  therefore, entry by entry, the whole-matrix product and the whole self-loop-and-bias matrix of the arrays the
  region finds on entry: each written block is the corresponding block of that one whole-matrix function, and the
  25 blocks cover all 50000 rows.
-/
import proofs.«133490_j51754355916835_1_alg».proof.Proof.Gen.KernelIdeal.Frame
import proofs.«133490_j51754355916835_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer3Value

open Cert.KernelIdeal Cert.KernelIdeal.Gen Idealize.ShloMosaic Idealize.ShloMosaic.ValueIdx Idealize.ShloMosaic.TcCoe Idealize.SL.Sem

theorem lhs_row (i : S2000x128.Idx) (q : dot_S2000x160_S160x128_S2000x128_1_0_0_1_n_n.contr.Idx) :
    (dot_S2000x160_S160x128_S2000x128_1_0_0_1_n_n.lhsIdx i q 0).val = (i 0).val := by
  unfold DotDims.lhsIdx
  rw [dif_neg (show ¬(0 : Fin S2000x160.rank) ∈ dot_S2000x160_S160x128_S2000x128_1_0_0_1_n_n.lhsBatch by decide), dif_pos (show (0 : Fin S2000x160.rank) ∈ dot_S2000x160_S160x128_S2000x128_1_0_0_1_n_n.lhsNonContracting by decide)]
  rfl

theorem rhs_col (i : S2000x128.Idx) (q : dot_S2000x160_S160x128_S2000x128_1_0_0_1_n_n.contr.Idx) :
    (dot_S2000x160_S160x128_S2000x128_1_0_0_1_n_n.rhsIdx i q 1).val = (i 1).val := by
  unfold DotDims.rhsIdx
  rw [dif_neg (show ¬(1 : Fin S160x128.rank) ∈ dot_S2000x160_S160x128_S2000x128_1_0_0_1_n_n.rhsBatch by decide), dif_pos (show (1 : Fin S160x128.rank) ∈ dot_S2000x160_S160x128_S2000x128_1_0_0_1_n_n.rhsNonContracting by decide)]
  rfl

/-- The product payload at an entry: the sum over the shared axis of (sum of the two inputs) times the weight. -/
theorem prod_apply (x0 : Vec Ideal S2000x160 .f32) (x1 : Vec Ideal S2000x160 .f32) (x2 : Vec Ideal S160x128 .f32) (p : Fin 2000) (q : Fin 128) :
    k3_pay1 (F := Ideal) x0 x1 x2 (ix2 p q) = ∑ k : Fin 160, (x0 (ix2 p k) + x1 (ix2 p k)) * x2 (ix2 k q) := by
  unfold k3_pay1
  refine (Ideal.matmul_constant_zero_apply dot_S2000x160_S160x128_S2000x128_1_0_0_1_n_n none _ _ (ix2 p q)).trans ?_
  rw [← Equiv.sum_comp (contrEquiv1 dot_S2000x160_S160x128_S2000x128_1_0_0_1_n_n 160 rfl rfl).symm]
  refine Finset.sum_congr rfl fun k _ => ?_
  have hk := contrEquiv1_symm_val dot_S2000x160_S160x128_S2000x128_1_0_0_1_n_n 160 rfl rfl k
  have el : dot_S2000x160_S160x128_S2000x128_1_0_0_1_n_n.lhsIdx (ix2 p q) ((contrEquiv1 dot_S2000x160_S160x128_S2000x128_1_0_0_1_n_n 160 rfl rfl).symm k) = ix2 p k := funext fun a => Fin.ext (by
    match a with
    | ⟨0, _⟩ => exact lhs_row _ _
    | ⟨1, _⟩ => exact ((dot_S2000x160_S160x128_S2000x128_1_0_0_1_n_n.lhsIdx_val_of_single rfl _ _).trans hk))
  have er : dot_S2000x160_S160x128_S2000x128_1_0_0_1_n_n.rhsIdx (ix2 p q) ((contrEquiv1 dot_S2000x160_S160x128_S2000x128_1_0_0_1_n_n 160 rfl rfl).symm k) = ix2 k q := funext fun a => Fin.ext (by
    match a with
    | ⟨0, _⟩ => exact ((dot_S2000x160_S160x128_S2000x128_1_0_0_1_n_n.rhsIdx_val_of_single rfl _ _).trans hk)
    | ⟨1, _⟩ => exact rhs_col _ _)
  show (shapeCast S2000x160 x0 shapeCasts_S2000x160_S2000x160 _ + shapeCast S2000x160 x1 shapeCasts_S2000x160_S2000x160 _) * x2 _ = _
  rw [shapeCast_self, shapeCast_self, el, er]

/-- A column `[a, 1]` broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The self-loop-and-bias payload at an entry: the row's coefficient times the product's entry, plus the column's bias. -/
theorem self_apply (x0 : Vec Ideal S2000x160 .f32) (x1 : Vec Ideal S2000x160 .f32) (x2 : Vec Ideal S160x128 .f32) (x4 : Vec Ideal S2000x1 .f32) (x3 : Vec Ideal S1x128 .f32)
    (p : Fin 2000) (q : Fin 128) :
    k3_pay2 (F := Ideal) x0 x1 x2 x4 x3 (ix2 p q) = x4 (ix2 p (0 : Fin 1)) * k3_pay1 (F := Ideal) x0 x1 x2 (ix2 p q) + x3 (ix2 (0 : Fin 1) q) := by
  unfold k3_pay2
  show broadcastTo S2000x128 (shapeCast S2000x1 x4 shapeCasts_S2000x1_S2000x1) broadcasts_S2000x1_S2000x128 (ix2 p q) * k3_pay1 (F := Ideal) x0 x1 x2 (ix2 p q)
      + broadcastTo S2000x128 (shapeCast S1x128 x3 shapeCasts_S1x128_S1x128) broadcasts_S1x128_S2000x128 (ix2 p q) = _
  rw [shapeCast_self, shapeCast_self]
  exact congrArg₂ (fun u v => u * k3_pay1 (F := Ideal) x0 x1 x2 (ix2 p q) + v)
    (broadcastTo_a1_ab_apply x4 broadcasts_S2000x1_S2000x128 p q) (broadcastTo_1b_ab_apply x3 broadcasts_S1x128_S2000x128 p q)

theorem hz : (![0, 0] : Fin 2 → Nat) = fun _ => 0 := funext fun a => by fin_cases a <;> rfl

/-- The printed index maps, decided over the grid: the row-blocked windows sit at the same row block, which is below 25,
    and every other block index is zero. -/
theorem idx_facts : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = win3_5.index t (0 : Fin 2) ∧ win3_4.index t (1 : Fin 2) = 0
    ∧ win3_6.index t (0 : Fin 2) = win3_5.index t (0 : Fin 2) ∧ win3_6.index t (1 : Fin 2) = 0
    ∧ win3_5.index t (0 : Fin 2) ≤ 24 ∧ win3_5.index t (1 : Fin 2) = 0 :=
  (by decide +kernel : ∀ t : Fin grid3.N, _)

/-- Every row block is some point's. -/
theorem idx_onto : ∀ (q0 : Fin 25), ∃ t : Fin cfg3.N, win3_5.index t (0 : Fin 2) = q0.val :=
  (by decide +kernel : ∀ (q0 : Fin 25), ∃ t : Fin grid3.N, win3_5.index t (0 : Fin 2) = q0.val)

open Cert.GcnSpec

/-- One entry of the product block, given where the block's rows sit in the whole matrices. -/
theorem xw_point (x0 : Vec Ideal S2000x160 .f32) (x1 : Vec Ideal S2000x160 .f32) (x2 : Vec Ideal S160x128 .f32)
    (A C : Mat 50000 160) (W : Mat 160 128) (p : Fin 2000) (q : Fin 128) (r : Fin 50000)
    (h0 : ∀ k : Fin 160, x0 (ix2 p k) = A (ix2 r k)) (h1 : ∀ k : Fin 160, x1 (ix2 p k) = C (ix2 r k))
    (h2 : ∀ k : Fin 160, x2 (ix2 k q) = W (ix2 k q)) :
    k3_pay1 (F := Ideal) x0 x1 x2 (ix2 p q) = mm (plus A C) W r q := by
  rw [prod_apply]
  unfold mm
  exact Finset.sum_congr rfl fun k _ => by rw [h0 k, h1 k, h2 k]; rfl

/-- One entry of the self-loop-and-bias block, likewise. -/
theorem self_point (x0 : Vec Ideal S2000x160 .f32) (x1 : Vec Ideal S2000x160 .f32) (x2 : Vec Ideal S160x128 .f32) (x4 : Vec Ideal S2000x1 .f32) (x3 : Vec Ideal S1x128 .f32)
    (coeff : Mat 50000 1) (A C : Mat 50000 160) (W : Mat 160 128) (b : Mat 1 128) (p : Fin 2000) (q : Fin 128) (r : Fin 50000)
    (h0 : ∀ k : Fin 160, x0 (ix2 p k) = A (ix2 r k)) (h1 : ∀ k : Fin 160, x1 (ix2 p k) = C (ix2 r k))
    (h2 : ∀ k : Fin 160, x2 (ix2 k q) = W (ix2 k q))
    (h4 : x4 (ix2 p (0 : Fin 1)) = coeff (ix2 r (0 : Fin 1))) (h3 : x3 (ix2 (0 : Fin 1) q) = b (ix2 (0 : Fin 1) q)) :
    k3_pay2 (F := Ideal) x0 x1 x2 x4 x3 (ix2 p q) = selfPart coeff (plus A C) W b r q := by
  rw [self_apply, xw_point x0 x1 x2 A C W p q r h0 h1 h2, h4, h3]
  rfl

variable (V : (c : Dev nD) → (b : Ref sig .tc) → Buf (Elt Ideal) ((c : Thread nD τ).loc b))

/-- What a point writes back to the product's array is that point's row block of the whole product. -/
theorem flushed_xw (c : Dev nD) (t : Fin cfg3.N) :
    (dat3 (F := Ideal) V c).flushed 5 t = ((cfg3.win 5).blk t).view.read (Elt Ideal) (mmMat (plus (V c main_v72) (V c main_v60_1)) (V c main_arg9)) := by
  show (cfg3.win 5).cut (grid3.coords t) ((dat3 (F := Ideal) V c).after 5 t) = _
  rw [after3_5]
  unfold out3_5
  rw [View.canon_unit_zero hz]
  simp only [View.ld_unit_zero (S := S2000x160) hz, View.ld_unit_zero (S := S160x128) hz]
  obtain ⟨e00, e01, e10, e11, e20, e21, e30, e31, e40, e41, e60, e61, e50, e51⟩ := idx_facts t
  funext j
  obtain ⟨p, q, rfl⟩ : ∃ (p : Fin 2000) (q : Fin 128), j = ix2 p q := ⟨j 0, j 1, eq_ix2 j⟩
  have hr : win3_5.index t (0 : Fin 2) * 2000 + p.val < 50000 := by have := p.isLt; omega
  have hemb : ((cfg3.win 5).blk t).view.emb (ix2 p q) = ix2 (⟨win3_5.index t (0 : Fin 2) * 2000 + p.val, hr⟩ : Fin 50000) q := by
    funext a; apply Fin.ext
    match a with
    | ⟨0, _⟩ => show win3_5.index t (0 : Fin 2) * 2000 + 1 * p.val = win3_5.index t (0 : Fin 2) * 2000 + p.val; omega
    | ⟨1, _⟩ => show win3_5.index t (1 : Fin 2) * 128 + 1 * q.val = q.val; omega
  show k3_pay1 (F := Ideal) (iblk3 V c 0 t) (iblk3 V c 1 t) (iblk3 V c 2 t) (ix2 p q)
    = mmMat (plus (V c main_v72) (V c main_v60_1)) (V c main_arg9) (((cfg3.win 5).blk t).view.emb (ix2 p q))
  rw [hemb, mmMat_apply]
  refine xw_point _ _ _ _ _ _ p q _ (fun k => ?_) (fun k => ?_) (fun k => ?_)
  · show V c main_v72 (((cfg3.win 0).blk t).view.emb (ix2 p k)) = _
    refine congrArg (V c main_v72) (funext fun a => Fin.ext ?_)
    match a with
    | ⟨0, _⟩ => show win3_0.index t (0 : Fin 2) * 2000 + 1 * p.val = win3_5.index t (0 : Fin 2) * 2000 + p.val; omega
    | ⟨1, _⟩ => show win3_0.index t (1 : Fin 2) * 160 + 1 * k.val = k.val; omega
  · show V c main_v60_1 (((cfg3.win 1).blk t).view.emb (ix2 p k)) = _
    refine congrArg (V c main_v60_1) (funext fun a => Fin.ext ?_)
    match a with
    | ⟨0, _⟩ => show win3_1.index t (0 : Fin 2) * 2000 + 1 * p.val = win3_5.index t (0 : Fin 2) * 2000 + p.val; omega
    | ⟨1, _⟩ => show win3_1.index t (1 : Fin 2) * 160 + 1 * k.val = k.val; omega
  · show V c main_arg9 (((cfg3.win 2).blk t).view.emb (ix2 k q)) = _
    refine congrArg (V c main_arg9) (funext fun a => Fin.ext ?_)
    match a with
    | ⟨0, _⟩ => show win3_2.index t (0 : Fin 2) * 160 + 1 * k.val = k.val; omega
    | ⟨1, _⟩ => show win3_2.index t (1 : Fin 2) * 128 + 1 * q.val = q.val; omega

/-- What a point writes back to the self-loop-and-bias array is that point's row block of the whole matrix. -/
theorem flushed_self (c : Dev nD) (t : Fin cfg3.N) :
    (dat3 (F := Ideal) V c).flushed 6 t = ((cfg3.win 6).blk t).view.read (Elt Ideal) (selfMat (V c main_v14) (plus (V c main_v72) (V c main_v60_1)) (V c main_arg9) (V c main_v73)) := by
  show (cfg3.win 6).cut (grid3.coords t) ((dat3 (F := Ideal) V c).after 6 t) = _
  rw [after3_6]
  unfold out3_6
  rw [View.canon_unit_zero hz]
  simp only [View.ld_unit_zero (S := S2000x160) hz, View.ld_unit_zero (S := S160x128) hz, View.ld_unit_zero (S := S2000x1) hz, View.ld_unit_zero (S := S1x128) hz]
  obtain ⟨e00, e01, e10, e11, e20, e21, e30, e31, e40, e41, e60, e61, e50, e51⟩ := idx_facts t
  funext j
  obtain ⟨p, q, rfl⟩ : ∃ (p : Fin 2000) (q : Fin 128), j = ix2 p q := ⟨j 0, j 1, eq_ix2 j⟩
  have hr : win3_5.index t (0 : Fin 2) * 2000 + p.val < 50000 := by have := p.isLt; omega
  have hemb : ((cfg3.win 6).blk t).view.emb (ix2 p q) = ix2 (⟨win3_5.index t (0 : Fin 2) * 2000 + p.val, hr⟩ : Fin 50000) q := by
    funext a; apply Fin.ext
    match a with
    | ⟨0, _⟩ => show win3_6.index t (0 : Fin 2) * 2000 + 1 * p.val = win3_5.index t (0 : Fin 2) * 2000 + p.val; omega
    | ⟨1, _⟩ => show win3_6.index t (1 : Fin 2) * 128 + 1 * q.val = q.val; omega
  show k3_pay2 (F := Ideal) (iblk3 V c 0 t) (iblk3 V c 1 t) (iblk3 V c 2 t) (iblk3 V c 4 t) (iblk3 V c 3 t) (ix2 p q)
    = selfMat (V c main_v14) (plus (V c main_v72) (V c main_v60_1)) (V c main_arg9) (V c main_v73) (((cfg3.win 6).blk t).view.emb (ix2 p q))
  rw [hemb, selfMat_apply]
  refine self_point _ _ _ _ _ _ _ _ _ _ p q _ (fun k => ?_) (fun k => ?_) (fun k => ?_) ?_ ?_
  · show V c main_v72 (((cfg3.win 0).blk t).view.emb (ix2 p k)) = _
    refine congrArg (V c main_v72) (funext fun a => Fin.ext ?_)
    match a with
    | ⟨0, _⟩ => show win3_0.index t (0 : Fin 2) * 2000 + 1 * p.val = win3_5.index t (0 : Fin 2) * 2000 + p.val; omega
    | ⟨1, _⟩ => show win3_0.index t (1 : Fin 2) * 160 + 1 * k.val = k.val; omega
  · show V c main_v60_1 (((cfg3.win 1).blk t).view.emb (ix2 p k)) = _
    refine congrArg (V c main_v60_1) (funext fun a => Fin.ext ?_)
    match a with
    | ⟨0, _⟩ => show win3_1.index t (0 : Fin 2) * 2000 + 1 * p.val = win3_5.index t (0 : Fin 2) * 2000 + p.val; omega
    | ⟨1, _⟩ => show win3_1.index t (1 : Fin 2) * 160 + 1 * k.val = k.val; omega
  · show V c main_arg9 (((cfg3.win 2).blk t).view.emb (ix2 k q)) = _
    refine congrArg (V c main_arg9) (funext fun a => Fin.ext ?_)
    match a with
    | ⟨0, _⟩ => show win3_2.index t (0 : Fin 2) * 160 + 1 * k.val = k.val; omega
    | ⟨1, _⟩ => show win3_2.index t (1 : Fin 2) * 128 + 1 * q.val = q.val; omega
  · show V c main_v14 (((cfg3.win 4).blk t).view.emb (ix2 p (0 : Fin 1))) = _
    refine congrArg (V c main_v14) (funext fun a => Fin.ext ?_)
    match a with
    | ⟨0, _⟩ => show win3_4.index t (0 : Fin 2) * 2000 + 1 * p.val = win3_5.index t (0 : Fin 2) * 2000 + p.val; omega
    | ⟨1, _⟩ => show win3_4.index t (1 : Fin 2) * 1 + 1 * 0 = 0; omega
  · show V c main_v73 (((cfg3.win 3).blk t).view.emb (ix2 (0 : Fin 1) q)) = _
    refine congrArg (V c main_v73) (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega

/-- An index of an output array is in a point's block iff each coordinate is in the block's range on its axis. -/
theorem mem_blk_xw (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v74_0).slice (win3_5.rect t)).set ↔ _
  rw [View.set_slice_whole, Rect.mem_set_unit]
  exact Iff.rfl

theorem mem_blk_self (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v74_1).slice (win3_6.rect t)).set ↔ _
  rw [View.set_slice_whole, Rect.mem_set_unit]
  exact Iff.rfl

/-- Row `r` lies in row block `r / 2000`: the blocks cover each output array. -/
theorem cover_xw (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ := idx_onto ⟨(i 0).val / 2000, by omega⟩
  have q0 : win3_5.index t (0 : Fin 2) = (i 0).val / 2000 := ht
  obtain ⟨e00, e01, e10, e11, e20, e21, e30, e31, e40, e41, e60, e61, e50, e51⟩ := idx_facts t
  refine ⟨t, flush3_5 t, ?_⟩
  rw [mem_blk_xw]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

theorem cover_self (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht⟩ := idx_onto ⟨(i 0).val / 2000, by omega⟩
  have q0 : win3_5.index t (0 : Fin 2) = (i 0).val / 2000 := ht
  obtain ⟨e00, e01, e10, e11, e20, e21, e30, e31, e40, e41, e60, e61, e50, e51⟩ := idx_facts t
  refine ⟨t, flush3_6 t, ?_⟩
  rw [mem_blk_self]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- After the region the product's array holds the whole product of (aggregate plus previous self part) and the weights. -/
theorem xw (c : Dev nD) : (dat3 (F := Ideal) V c).arrAt 5 cfg3.N = mmMat (plus (V c main_v72) (V c main_v60_1)) (V c main_arg9) :=
  (dat3 (F := Ideal) V c).arrAt_eq_of_cover 5 _ (fun t _ => flushed_xw V c t) cover_xw

/-- After the region the second output array holds the whole self-loop-and-bias matrix. -/
theorem self (c : Dev nD) : (dat3 (F := Ideal) V c).arrAt 6 cfg3.N = selfMat (V c main_v14) (plus (V c main_v72) (V c main_v60_1)) (V c main_arg9) (V c main_v73) :=
  (dat3 (F := Ideal) V c).arrAt_eq_of_cover 6 _ (fun t _ => flushed_self V c t) cover_self

end Cert.KernelIdeal.Layer3Value

end
-- ==== Proof.AddValue.lean ====
/-
  The row-blocked entrywise sum: the array the fifth region leaves is the entrywise sum of its two
  argument arrays.

  The region's grid has 25 points; point `t` reads rows `2000 t … 2000 t + 1999` of each argument
  (all 128 columns), adds them entry by entry, and writes the sums back to the same rows of the result.
  The 25 row blocks tile the 50000 rows, so the result is the sum at every index.
-/
import proofs.«133490_j51754355916835_1_alg».proof.Proof.Gen.KernelIdeal.Frame
import proofs.«133490_j51754355916835_1_alg».proof.Proof.GcnSpec
import Idealize.ShloMosaic.Lib.Pipeline.Value
import Idealize.ShloMosaic.Lib.ValueIdx

set_option maxRecDepth 16384

noncomputable section

namespace Cert.KernelIdeal.AddValue

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, however spelt. -/
theorem zeroOff : (![0, 0] : Fin 2 → Nat) = fun _ => 0 := funext fun a => by fin_cases a <;> rfl

/-- The block's payload is the entrywise sum of the two loaded blocks. -/
theorem pay_eq (x0 x1 : Vec Ideal S2000x128 .f32) : k4_pay1 x0 x1 = addf x0 x1 := by
  unfold k4_pay1
  simp only [shapeCast_self]

/-- The three windows move together: at point `t` each reads or writes row block `t`, column block `0`. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the entrywise sum of the two argument arrays. -/
theorem flushed_eq (c : Dev nD) (t : Fin cfg4.N) :
    (dat4 (F := Ideal) V c).flushed 2 t
      = ((cfg4.win 2).blk t).view.read (Elt Ideal) (Cert.GcnSpec.plus (V c main_v86) (V c main_v74_1)) := by
  show (cfg4.win 2).cut (grid4.coords t) ((dat4 (F := Ideal) V c).after 2 t) = _
  rw [after4_2]
  unfold out4_2
  rw [View.canon_unit_zero zeroOff]
  simp only [View.ld_unit_zero (S := S2000x128) zeroOff]
  rw [pay_eq]
  obtain ⟨e0, e1, e2, e3, e4, e5⟩ := index_facts t
  funext j
  show FloatOps.addf (F := Ideal) (φ := .f32) (V c main_v86 (((cfg4.win 0).blk t).view.emb j)) (V c main_v74_1 (((cfg4.win 1).blk t).view.emb j))
      = FloatOps.addf (F := Ideal) (φ := .f32) (V c main_v86 (((cfg4.win 2).blk t).view.emb j)) (V c main_v74_1 (((cfg4.win 2).blk t).view.emb j))
  have h0 : ((cfg4.win 0).blk t).view.emb j = ((cfg4.win 2).blk t).view.emb j := by
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 2000 + 1 * (j 0).val = win4_2.index t (0 : Fin 2) * 2000 + 1 * (j 0).val; omega
    | ⟨1, _⟩ => show win4_1.index t (1 : Fin 2) * 128 + 1 * (j 1).val = win4_2.index t (1 : Fin 2) * 128 + 1 * (j 1).val; omega
  rw [h0, h1]

/-- An index of the result is in point `t`'s block iff each coordinate is in the block's range on its axis. -/
theorem mem_blk (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v87).slice (win4_2.rect t)).set ↔ _
  rw [View.set_slice_whole, Rect.mem_set_unit]
  exact Iff.rfl

/-- Row `r` lies in the block of point `r / 2000`: the 25 row blocks cover the result. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  let t : Fin cfg4.N := ⟨(i 0).val / 2000, by show (i 0).val / 2000 < 25; omega⟩
  obtain ⟨-, -, -, -, e4, e5⟩ := index_facts t
  have e4' : win4_2.index t (0 : Fin 2) = (i 0).val / 2000 := e4
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- THE RESULT ARRAY after the region: the entrywise sum of the two argument arrays as the region finds them. -/
theorem sum (c : Dev nD) :
    (dat4 (F := Ideal) V c).arrAt 2 cfg4.N = Cert.GcnSpec.plus (V c main_v86) (V c main_v74_1) :=
  (dat4 (F := Ideal) V c).arrAt_eq_of_cover 2 _ (fun t _ => flushed_eq V c t) (cover)

end Cert.KernelIdeal.AddValue

end
-- ==== Proof.TailSpec.lean ====
/-
  The pooled classifier tail, entry by entry.

  Fifty groups each carry a row of 128 feature sums and a count. The tail divides each group's sums by its
  count (at least one), multiplies the pooled row by a 128 x 10 weight matrix, adds a bias per class, and
  takes the logarithm of the softmax along each row of ten class scores: with `m` the row's maximum, the
  score minus `m` minus the logarithm of the sum over the row of the exponentials of (score minus `m`).

  Everything is over the extended reals. The two float words the computation names (one, and minus
  infinity) are kept as the words' values, never evaluated: both programs name the same words.
-/
import Idealize.ShloMosaic.PureOps.Ideal
import Idealize.ShloMosaic.Lib.ValueIdx

noncomputable section

namespace Cert.KernelIdeal.TailSpec

open Idealize.ShloMosaic Idealize.ShloMosaic.ValueIdx

/-- A matrix of `a` rows and `b` columns with extended-real entries. -/
abbrev Mat (a b : Nat) : Type := (⟨2, ![a, b]⟩ : Shape).Idx → EReal

/-- The value of the single-precision word of one. -/
def one : EReal := Ideal.ofBits .f32 0x3F800000#32

/-- The value of the single-precision word of minus infinity. -/
def negInf : EReal := Ideal.ofBits .f32 0xFF800000#32

/-- Entry `(g, q)` of the pooled features: group `g`'s sum of feature `q` over its count, the count taken as at
    least one. -/
def pooled (sums : Mat 50 128) (cnt : Fin 50 → EReal) (g : Fin 50) (q : Fin 128) : EReal :=
  Ideal.div (sums (ix2 g q)) (max (cnt g) one)

/-- Class `o`'s score for group `g`: the pooled row times column `o` of the weights, plus the class's bias. -/
def score (sums : Mat 50 128) (cnt : Fin 50 → EReal) (fcw : Mat 128 10) (fcb : Fin 10 → EReal) (g : Fin 50) (o : Fin 10) : EReal :=
  (∑ q : Fin 128, pooled sums cnt g q * fcw (ix2 q o)) + fcb o

/-- The maximum of a row of ten scores, taken from minus infinity (and once more against minus infinity, as both
    programs do). -/
def rowMax (L : Fin 10 → EReal) : EReal :=
  max negInf ((Finset.univ : Finset (Fin 10)).fold max negInf L)

/-- The logarithm of the softmax of a row of ten scores, at class `o`. -/
def logSoftmax (L : Fin 10 → EReal) (o : Fin 10) : EReal :=
  (L o - rowMax L) - Ideal.log (∑ k : Fin 10, Ideal.exp (L k - rowMax L))

/-- THE TAIL: the log-softmax over the classes of group `g`'s scores, at class `o`. -/
def tail (sums : Mat 50 128) (cnt : Fin 50 → EReal) (fcw : Mat 128 10) (fcb : Fin 10 → EReal) (g : Fin 50) (o : Fin 10) : EReal :=
  logSoftmax (score sums cnt fcw fcb g) o

end Cert.KernelIdeal.TailSpec

end
-- ==== Proof.TailRef.lean ====
/-
  The reference's tail is the pooled classifier tail.

  The reference computes, on the host, the pooled features (the group sums over the counts, the counts taken
  as at least one), their product with the weights plus the bias, and the logarithm of the softmax along each row
  of ten class scores. Read entry by entry, operation by operation, that is the function `TailSpec.tail` of the
  group sums, the counts, the weights and the bias. The row maximum is the host's reduction with a maximum body
  over one axis: a fold of `max` over the row's ten coordinates from the value of the initial word.
-/
import proofs.«133490_j51754355916835_1_alg».proof.Proof.Gen.ReferenceIdeal.Read
import proofs.«133490_j51754355916835_1_alg».proof.Proof.TailSpec
import Idealize.ShloMosaic.Lib.ValueIdx
import Idealize.ShloMosaic.PureOps.Ideal.Laws
import Idealize.ShloMosaic.PureOps.Reduce

noncomputable section

namespace Cert.KernelIdeal.TailRef

open Cert.ReferenceIdeal Cert.ReferenceIdeal.Gen Cert.ReferenceIdeal.Read Idealize.ShloMosaic Idealize.ShloMosaic.ValueIdx Idealize.ShloMosaic.TcCoe Idealize.SL.Sem
open Cert.KernelIdeal.TailSpec

variable (x0 : (⟨S50000x128, .f32⟩ : BufTy).Contents (Elt Ideal)) (x1 : (⟨S2x500000, .i32⟩ : BufTy).Contents (Elt Ideal)) (x2 : (⟨S50000, .i32⟩ : BufTy).Contents (Elt Ideal)) (x3 : (⟨S128x160, .f32⟩ : BufTy).Contents (Elt Ideal)) (x4 : (⟨S160, .f32⟩ : BufTy).Contents (Elt Ideal)) (x5 : (⟨S160x160, .f32⟩ : BufTy).Contents (Elt Ideal)) (x6 : (⟨S160, .f32⟩ : BufTy).Contents (Elt Ideal)) (x7 : (⟨S160x160, .f32⟩ : BufTy).Contents (Elt Ideal)) (x8 : (⟨S160, .f32⟩ : BufTy).Contents (Elt Ideal)) (x9 : (⟨S160x128, .f32⟩ : BufTy).Contents (Elt Ideal)) (x10 : (⟨S128, .f32⟩ : BufTy).Contents (Elt Ideal)) (x11 : (⟨S128x10, .f32⟩ : BufTy).Contents (Elt Ideal)) (x12 : (⟨S10, .f32⟩ : BufTy).Contents (Elt Ideal))

/-- The group sums the reference pools, as a matrix. -/
abbrev refSums : Mat 50 128 := val_main_v169 (F := Ideal) x0 x1 x2 x3 x4 x5 x6 x7 x8 x9 x10
/-- The group counts, one per group. -/
abbrev refCnt : Fin 50 → EReal := fun g => val_main_v173 (F := Ideal) x2 (ix1 g)
/-- The bias, one per class. -/
abbrev refBias : Fin 10 → EReal := fun o => x12 (ix1 o)

/-- The reduced index `g` with column `k` put back is `(g, k)`. -/
theorem lift_row (h : S50x10.Reduces [1] S50) (g : Fin 50) (k : Fin (S50x10.size 1)) :
    h.lift (ix1 g) k = ix2 g (⟨k.val, k.isLt⟩ : Fin 10) := by
  funext c; apply Fin.ext
  fin_cases c <;> rfl

/-- The reference's class scores: the pooled row times the weights' column, plus the bias. -/
theorem score_eq (g : Fin 50) (o : Fin 10) :
    val_main_v182 (F := Ideal) x0 x1 x2 x3 x4 x5 x6 x7 x8 x9 x10 x11 x12 (ix2 g o)
      = score (refSums x0 x1 x2 x3 x4 x5 x6 x7 x8 x9 x10) (refCnt x2) x11 (refBias x12) g o := by
  rw [val_main_v182_apply, val_main_v179_apply, val_main_v181_apply, val_main_v180_apply]
  unfold score
  rw [Ideal.addf_def]
  have eb : idx_main_v180 (idx_main_v181 (ix2 g o)) = ix1 o :=
    funext fun a => Fin.ext (by match a with | ⟨0, _⟩ => rfl)
  rw [eb]
  refine congrArg (· + x12 (ix1 o)) (Finset.sum_congr rfl fun q _ => ?_)
  have el : lidx_main_v179 (ix2 g o) q = ix2 g q :=
    funext fun a => Fin.ext (by match a with | ⟨0, _⟩ => rfl | ⟨1, _⟩ => rfl)
  have er : ridx_main_v179 (ix2 g o) q = ix2 q o :=
    funext fun a => Fin.ext (by match a with | ⟨0, _⟩ => rfl | ⟨1, _⟩ => rfl)
  rw [el, er, val_main_v178_apply, val_main_v177_apply, val_main_v176_apply, val_main_v175_apply, val_main_v174_apply,
    val_main_cst_36_apply]
  have ec : idx_main_v176 (idx_main_v177 (ix2 g q)) = ix1 g :=
    funext fun a => Fin.ext (by match a with | ⟨0, _⟩ => rfl)
  rw [ec]
  rfl

/-- The reference's row maximum: the fold of `max` over the row's ten scores from minus infinity, once more against
    minus infinity. -/
theorem rowMax_eq (g : Fin 50) :
    val_main_call0_v2 (F := Ideal) x0 x1 x2 x3 x4 x5 x6 x7 x8 x9 x10 x11 x12 (ix1 g)
      = rowMax (fun k => val_main_v182 (F := Ideal) x0 x1 x2 x3 x4 x5 x6 x7 x8 x9 x10 x11 x12 (ix2 g k)) := by
  rw [val_main_call0_v2_apply, val_main_call0_v1_apply, val_main_call0_cst_0_apply]
  unfold val_main_call0_v0
  have hr : S50x10.Reduces [1] S50 := by decide
  rw [Host.reduce_eq_fold_single FloatOps.maximumf _ _ reducesTo_S50x10_S50_d1 hr h_S_]
  unfold rowMax negInf
  have hf : ((val_main_v182 (F := Ideal) x0 x1 x2 x3 x4 x5 x6 x7 x8 x9 x10 x11 x12) ∘ hr.lift (ix1 g))
      = fun k : Fin 10 => val_main_v182 (F := Ideal) x0 x1 x2 x3 x4 x5 x6 x7 x8 x9 x10 x11 x12 (ix2 g k) :=
    funext fun k => congrArg (val_main_v182 (F := Ideal) x0 x1 x2 x3 x4 x5 x6 x7 x8 x9 x10 x11 x12) (lift_row hr g k)
  exact congrArg (fun f => max (Ideal.ofBits .f32 0xFF800000#32)
    (Finset.fold max (Ideal.ofBits .f32 0xFF800000#32) f (Finset.univ : Finset (Fin 10)))) hf

/-- The reference's shifted scores: each score minus its row's maximum. -/
theorem shifted_eq (g : Fin 50) (o : Fin 10) :
    val_main_call0_v5 (F := Ideal) x0 x1 x2 x3 x4 x5 x6 x7 x8 x9 x10 x11 x12 (ix2 g o)
      = val_main_v182 (F := Ideal) x0 x1 x2 x3 x4 x5 x6 x7 x8 x9 x10 x11 x12 (ix2 g o)
        - rowMax (fun k => val_main_v182 (F := Ideal) x0 x1 x2 x3 x4 x5 x6 x7 x8 x9 x10 x11 x12 (ix2 g k)) := by
  rw [val_main_call0_v5_apply, val_main_call0_v4_apply, val_main_call0_v3_apply]
  have e : idx_main_call0_v3 (idx_main_call0_v4 (ix2 g o)) = ix1 g :=
    funext fun a => Fin.ext (by match a with | ⟨0, _⟩ => rfl)
  rw [e, rowMax_eq]
  rfl

/-- THE REFERENCE'S RESULT at `(g, o)` is the tail of the group sums, the counts, the weights and the bias. -/
theorem ref_eq (g : Fin 50) (o : Fin 10) :
    val_main_v183 (F := Ideal) x0 x1 x2 x3 x4 x5 x6 x7 x8 x9 x10 x11 x12 (ix2 g o)
      = tail (refSums x0 x1 x2 x3 x4 x5 x6 x7 x8 x9 x10) (refCnt x2) x11 (refBias x12) g o := by
  rw [val_main_v183_apply, val_main_call0_v10_apply, val_main_call0_v9_apply, val_main_call0_v8_apply,
    val_main_call0_v7_apply, val_main_call0_cst_1_apply]
  have e : idx_main_call0_v8 (idx_main_call0_v10 (ix2 g o)) = ix1 g :=
    funext fun a => Fin.ext (by match a with | ⟨0, _⟩ => rfl)
  rw [e, shifted_eq]
  have hs : (fun k : Fin 10 => val_main_v182 (F := Ideal) x0 x1 x2 x3 x4 x5 x6 x7 x8 x9 x10 x11 x12 (ix2 g k))
      = score (refSums x0 x1 x2 x3 x4 x5 x6 x7 x8 x9 x10) (refCnt x2) x11 (refBias x12) g :=
    funext fun k => score_eq x0 x1 x2 x3 x4 x5 x6 x7 x8 x9 x10 x11 x12 g k
  have hsum : (∑ k : Fin 10, val_main_call0_v6 (F := Ideal) x0 x1 x2 x3 x4 x5 x6 x7 x8 x9 x10 x11 x12 (idx_main_call0_v7 (ix1 g) k))
      = ∑ k : Fin 10, Ideal.exp (val_main_v182 (F := Ideal) x0 x1 x2 x3 x4 x5 x6 x7 x8 x9 x10 x11 x12 (ix2 g k)
          - rowMax (fun k => val_main_v182 (F := Ideal) x0 x1 x2 x3 x4 x5 x6 x7 x8 x9 x10 x11 x12 (ix2 g k))) :=
    Finset.sum_congr rfl fun k _ => by
      have ek : idx_main_call0_v7 (ix1 g) k = ix2 g k :=
        funext fun a => Fin.ext (by match a with | ⟨0, _⟩ => rfl | ⟨1, _⟩ => rfl)
      rw [ek, val_main_call0_v6_apply, shifted_eq, Ideal.hostUnary_exp_def]
  rw [hsum, Ideal.ofBits_def, Ideal.ofBits_zero_f32, zero_add, Ideal.subf_def, Ideal.hostUnary_log_def]
  unfold tail logSoftmax
  rw [← hs]

end Cert.KernelIdeal.TailRef

end
-- ==== Proof.PoolValue.lean ====
/-
  The pooled classifier region: the array the last region leaves is the pooled classifier tail of its four
  argument arrays, and so equals the reference's result when those hold the reference's group sums, counts,
  weights and bias.

  The region has one grid point and every window is its whole array. The body divides the group sums by the
  counts (at least one) along each row, multiplies by the weights into a zero accumulator, adds the bias row,
  and takes the logarithm of the softmax along each row of ten: the row's maximum from minus infinity, the
  scores minus it, and those minus the logarithm of the row's sum of exponentials.
-/
import proofs.«133490_j51754355916835_1_alg».proof.Proof.Gen.KernelIdeal.Frame
import proofs.«133490_j51754355916835_1_alg».proof.Proof.TailSpec
import proofs.«133490_j51754355916835_1_alg».proof.Proof.TailRef
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PoolValue

open Cert.KernelIdeal Cert.KernelIdeal.Gen Idealize.ShloMosaic Idealize.ShloMosaic.ValueIdx Idealize.ShloMosaic.TcCoe Idealize.SL.Sem
open Idealize.ShloMosaic.Pipeline (Dat)
open Cert.KernelIdeal.TailSpec

/-! ## Two column layouts read at an index -/

section Layout
variable {α : Type}

/-- A column `[a, 1]` broadcast along the rows to `[a, b]` reads, at `(p, c)`, the column at row `p`. -/
theorem colBroadcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem colCast_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

end Layout

/-! ## The body's payload at an index -/

/-- The block of class scores the body computes from its four loaded blocks. -/
def scoresV (x0 : Vec Ideal S50x128 .f32) (x1 : Vec Ideal S50x1 .f32) (x2 : Vec Ideal S128x10 .f32) (x3 : Vec Ideal S1x10 .f32) :
    FVec Ideal S50x10 .f32 :=
  addf
    (matmul dot_S50x128_S128x10_S50x10_1_0_0_1_n_n none
      (truncf .bf16
        (divf (shapeCast S50x128 x0 Facts₀.shapeCasts_S50x128_S50x128)
          (broadcastTo S50x128
            (maximumf (shapeCast S50x1 x1 Facts₀.shapeCasts_S50x1_S50x1) (broadcast S50x1 (Scalar.ofBits .f32 0x3F800000#32 : Ideal .f32)))
            Facts₀.broadcasts_S50x1_S50x128))
        Facts₀.bitsLt_bf16_f32)
      (truncf .bf16 x2 Facts₀.bitsLt_bf16_f32)
      (constant S50x10 .f32 0x00000000#32))
    (broadcastTo S50x10 (shapeCast S1x10 x3 Facts₀.shapeCasts_S1x10_S1x10) Facts₀.broadcasts_S1x10_S50x10)

/-- The row maxima the body takes of a block of scores, as a column broadcast back along the rows. -/
def rowMaxV (L : FVec Ideal S50x10 .f32) : FVec Ideal S50x10 .f32 :=
  broadcastTo S50x10
    (shapeCast S50x1
      (maximumf (broadcast S50 (Scalar.ofBits .f32 0xFF800000#32 : Ideal .f32))
        (multiReduction .maximumf [1] S50 L 0xFF800000#32 Facts₀.reduces_S50x10_S50 (.inl rfl) rfl))
      Facts₀.shapeCasts_S50_S50x1)
    Facts₀.broadcasts_S50x1_S50x10

/-- The logarithm of the softmax along each row, as the body computes it from a block of scores. -/
def lsmV (L : FVec Ideal S50x10 .f32) : FVec Ideal S50x10 .f32 :=
  subf (subf L (rowMaxV L))
    (broadcastTo S50x10
      (log (shapeCast S50x1
        (multiReduction .add [1] S50 (exp (subf L (rowMaxV L))) 0x00000000#32 Facts₀.reduces_S50x10_S50 (.inl rfl) rfl)
        Facts₀.shapeCasts_S50_S50x1))
      Facts₀.broadcasts_S50x1_S50x10)

/-- The body's payload is the row log-softmax of its block of scores. -/
theorem pay_split (x0 : Vec Ideal S50x128 .f32) (x1 : Vec Ideal S50x1 .f32) (x2 : Vec Ideal S128x10 .f32) (x3 : Vec Ideal S1x10 .f32) :
    k5_pay1 x0 x1 x2 x3 = lsmV (scoresV x0 x1 x2 x3) := rfl

theorem lhs_row (i : S50x10.Idx) (q : dot_S50x128_S128x10_S50x10_1_0_0_1_n_n.contr.Idx) :
    (dot_S50x128_S128x10_S50x10_1_0_0_1_n_n.lhsIdx i q 0).val = (i 0).val := by
  unfold DotDims.lhsIdx
  rw [dif_neg (show ¬(0 : Fin S50x128.rank) ∈ dot_S50x128_S128x10_S50x10_1_0_0_1_n_n.lhsBatch by decide), dif_pos (show (0 : Fin S50x128.rank) ∈ dot_S50x128_S128x10_S50x10_1_0_0_1_n_n.lhsNonContracting by decide)]
  rfl
theorem lhs_col (i : S50x10.Idx) (q : dot_S50x128_S128x10_S50x10_1_0_0_1_n_n.contr.Idx) :
    (dot_S50x128_S128x10_S50x10_1_0_0_1_n_n.lhsIdx i q 1).val = (q ⟨0, by decide⟩).val :=
  dot_S50x128_S128x10_S50x10_1_0_0_1_n_n.lhsIdx_val_of_single rfl i q
theorem rhs_row (i : S50x10.Idx) (q : dot_S50x128_S128x10_S50x10_1_0_0_1_n_n.contr.Idx) :
    (dot_S50x128_S128x10_S50x10_1_0_0_1_n_n.rhsIdx i q 0).val = (q ⟨0, by decide⟩).val :=
  dot_S50x128_S128x10_S50x10_1_0_0_1_n_n.rhsIdx_val_of_single rfl i q
theorem rhs_col (i : S50x10.Idx) (q : dot_S50x128_S128x10_S50x10_1_0_0_1_n_n.contr.Idx) :
    (dot_S50x128_S128x10_S50x10_1_0_0_1_n_n.rhsIdx i q 1).val = (i 1).val := by
  unfold DotDims.rhsIdx
  rw [dif_neg (show ¬(1 : Fin S128x10.rank) ∈ dot_S50x128_S128x10_S50x10_1_0_0_1_n_n.rhsBatch by decide), dif_pos (show (1 : Fin S128x10.rank) ∈ dot_S50x128_S128x10_S50x10_1_0_0_1_n_n.rhsNonContracting by decide)]
  rfl

/-- The body's class scores at `(g, o)`: the pooled row times the weights' column, plus the bias. -/
theorem scoresV_apply (x0 : Vec Ideal S50x128 .f32) (x1 : Vec Ideal S50x1 .f32) (x2 : Vec Ideal S128x10 .f32) (x3 : Vec Ideal S1x10 .f32)
    (g : Fin 50) (o : Fin 10) :
    scoresV x0 x1 x2 x3 (ix2 g o) = score x0 (fun g => x1 (ix2 g (0 : Fin 1))) x2 (fun o => x3 (ix2 (0 : Fin 1) o)) g o := by
  unfold scoresV score
  rw [addf_apply, broadcastTo_1b_ab_apply]
  simp only [shapeCast_self, matmul]
  rw [Ideal.matmul_constant_zero_apply, ← Equiv.sum_comp (contrEquiv1 dot_S50x128_S128x10_S50x10_1_0_0_1_n_n 128 rfl rfl).symm]
  refine congrArg (· + x3 (ix2 (0 : Fin 1) o)) (Finset.sum_congr rfl fun q _ => ?_)
  have hk := contrEquiv1_symm_val dot_S50x128_S128x10_S50x10_1_0_0_1_n_n 128 rfl rfl q
  have el : dot_S50x128_S128x10_S50x10_1_0_0_1_n_n.lhsIdx (ix2 g o) ((contrEquiv1 dot_S50x128_S128x10_S50x10_1_0_0_1_n_n 128 rfl rfl).symm q) = ix2 g q := funext fun a => Fin.ext (by
    match a with
    | ⟨0, _⟩ => exact lhs_row _ _
    | ⟨1, _⟩ => exact (lhs_col _ _).trans hk)
  have er : dot_S50x128_S128x10_S50x10_1_0_0_1_n_n.rhsIdx (ix2 g o) ((contrEquiv1 dot_S50x128_S128x10_S50x10_1_0_0_1_n_n 128 rfl rfl).symm q) = ix2 q o := funext fun a => Fin.ext (by
    match a with
    | ⟨0, _⟩ => exact (rhs_row _ _).trans hk
    | ⟨1, _⟩ => exact rhs_col _ _)
  rw [el, er, truncf_apply, truncf_apply, divf_apply, colBroadcast_apply, maximumf_apply, broadcast_apply]
  rfl

/-- The reduced index `g` with column `k` put back is `(g, k)`. -/
theorem lift_row (h : S50x10.Reduces [1] S50) (g : Fin 50) (k : Fin (S50x10.size 1)) :
    h.lift (ix1 g) k = ix2 g (⟨k.val, k.isLt⟩ : Fin 10) := by
  funext c; apply Fin.ext
  fin_cases c <;> rfl

/-- The maximum along a row, from the value of the accumulator's word: the fold of `max` over the row's ten entries. -/
theorem rowMaxRed_apply (L : FVec Ideal S50x10 .f32) (g : Fin 50) :
    multiReduction .maximumf [1] S50 L 0xFF800000#32 Facts₀.reduces_S50x10_S50 (.inl rfl) rfl (ix1 g)
      = Finset.fold max (Ideal.ofBits .f32 0xFF800000#32) (fun k : Fin 10 => L (ix2 g k)) (Finset.univ : Finset (Fin 10)) := by
  refine (Ideal.multiReduction_maximumf_single L 0xFF800000#32 Facts₀.reduces_S50x10_S50 (.inl rfl) rfl (ix1 g)).trans ?_
  have hf : (L ∘ Facts₀.reduces_S50x10_S50.lift (ix1 g)) = fun k : Fin 10 => L (ix2 g k) :=
    funext fun k => congrArg L (lift_row Facts₀.reduces_S50x10_S50 g k)
  exact congrArg (fun f => Finset.fold max (Ideal.ofBits .f32 0xFF800000#32) f (Finset.univ : Finset (Fin 10))) hf

/-- The sum along a row: the sum of the row's ten entries. -/
theorem rowSumRed_apply (E : FVec Ideal S50x10 .f32) (g : Fin 50) :
    multiReduction .add [1] S50 E 0x00000000#32 Facts₀.reduces_S50x10_S50 (.inl rfl) rfl (ix1 g)
      = ∑ k : Fin 10, E (ix2 g k) := by
  refine (Ideal.multiReduction_add_single E 0x00000000#32 Facts₀.reduces_S50x10_S50 (.inl rfl) rfl (ix1 g)).trans ?_
  exact Finset.sum_congr rfl fun k _ => congrArg E (lift_row Facts₀.reduces_S50x10_S50 g k)

/-- The body's row maximum, read anywhere in row `g`. -/
theorem rowMaxV_apply (L : FVec Ideal S50x10 .f32) (g : Fin 50) (o : Fin 10) :
    rowMaxV L (ix2 g o) = rowMax (fun k => L (ix2 g k)) := by
  unfold rowMaxV
  rw [colBroadcast_apply, colCast_apply, maximumf_apply, broadcast_apply]
  unfold rowMax negInf
  exact congrArg (max (Ideal.ofBits .f32 0xFF800000#32)) (rowMaxRed_apply L g)

/-- The body's row log-softmax at `(g, o)`. -/
theorem lsmV_apply (L : FVec Ideal S50x10 .f32) (g : Fin 50) (o : Fin 10) :
    lsmV L (ix2 g o) = logSoftmax (fun k => L (ix2 g k)) o := by
  unfold lsmV logSoftmax
  rw [subf_apply, subf_apply, rowMaxV_apply, colBroadcast_apply]
  show _ - Ideal.log (shapeCast S50x1 _ Facts₀.shapeCasts_S50_S50x1 (ix2 g (0 : Fin 1))) = _
  rw [colCast_apply]
  refine congrArg (fun s => (L (ix2 g o) - rowMax fun k => L (ix2 g k)) - Ideal.log s) ?_
  refine (rowSumRed_apply _ g).trans (Finset.sum_congr rfl fun k _ => ?_)
  show Ideal.exp (subf L (rowMaxV L) (ix2 g k)) = _
  rw [subf_apply, rowMaxV_apply]

/-- THE PAYLOAD at `(g, o)`: the tail of the four loaded blocks. -/
theorem pay_apply (x0 : Vec Ideal S50x128 .f32) (x1 : Vec Ideal S50x1 .f32) (x2 : Vec Ideal S128x10 .f32) (x3 : Vec Ideal S1x10 .f32)
    (g : Fin 50) (o : Fin 10) :
    k5_pay1 x0 x1 x2 x3 (ix2 g o) = tail x0 (fun g => x1 (ix2 g (0 : Fin 1))) x2 (fun o => x3 (ix2 (0 : Fin 1) o)) g o := by
  rw [pay_split, lsmV_apply]
  unfold tail
  exact congrArg (fun f => logSoftmax f o) (funext fun k => scoresV_apply x0 x1 x2 x3 g k)

/-! ## From the one block to the array -/

variable (V : (c : Dev nD) → (b : Ref sig .tc) → Buf (Elt Ideal) ((c : Thread nD τ).loc b))

/-- The zero offsets of a whole-buffer access, however spelt. -/
theorem zeroOff : (![0, 0] : Fin 2 → Nat) = fun _ => 0 := funext fun a => by fin_cases a <;> rfl

/-- Every window's one block is its whole array: all block indices are zero. -/
theorem index_facts : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- The result array as one function of the four argument arrays as the region finds them. -/
abbrev G (c : Dev nD) : S50x10.Idx → EReal :=
  k5_pay1 (V c main_v90) (V c main_v95) (V c main_arg11) (V c main_v96)

/-- What the one point writes back is the payload of the four whole arrays, read through the result's block. -/
theorem flushed_eq (c : Dev nD) (t : Fin cfg5.N) :
    (dat5 (F := Ideal) V c).flushed 4 t = ((cfg5.win 4).blk t).view.read (Elt Ideal) (G V c) := by
  show (cfg5.win 4).cut (grid5.coords t) ((dat5 (F := Ideal) V c).after 4 t) = _
  rw [after5_4]
  unfold out5_4
  rw [View.canon_unit_zero zeroOff]
  simp only [View.ld_unit_zero (S := S50x128) zeroOff, View.ld_unit_zero (S := S50x1) zeroOff,
    View.ld_unit_zero (S := S128x10) zeroOff, View.ld_unit_zero (S := S1x10) zeroOff]
  obtain ⟨a0, a1, b0, b1, c0, c1, d0, d1, e0, e1⟩ := index_facts t
  have h0 : (iblk5 V c 0 t : Vec Ideal S50x128 .f32) = (V c main_v90 : Vec Ideal S50x128 .f32) := by
    funext j
    show (V c main_v90 : S50x128.Idx → EReal) (((cfg5.win 0).blk t).view.emb j) = (V c main_v90 : S50x128.Idx → EReal) j
    refine congrArg _ (funext fun a => Fin.ext ?_)
    match a with
    | ⟨0, _⟩ => show win5_0.index t (0 : Fin 2) * 50 + 1 * (j 0).val = (j 0).val; omega
    | ⟨1, _⟩ => show win5_0.index t (1 : Fin 2) * 128 + 1 * (j 1).val = (j 1).val; omega
  have h1 : (iblk5 V c 1 t : Vec Ideal S50x1 .f32) = (V c main_v95 : Vec Ideal S50x1 .f32) := by
    funext j
    show (V c main_v95 : S50x1.Idx → EReal) (((cfg5.win 1).blk t).view.emb j) = (V c main_v95 : S50x1.Idx → EReal) j
    refine congrArg _ (funext fun a => Fin.ext ?_)
    match a with
    | ⟨0, _⟩ => show win5_1.index t (0 : Fin 2) * 50 + 1 * (j 0).val = (j 0).val; omega
    | ⟨1, _⟩ => show win5_1.index t (1 : Fin 2) * 1 + 1 * (j 1).val = (j 1).val; omega
  have h2 : (iblk5 V c 2 t : Vec Ideal S128x10 .f32) = (V c main_arg11 : Vec Ideal S128x10 .f32) := by
    funext j
    show (V c main_arg11 : S128x10.Idx → EReal) (((cfg5.win 2).blk t).view.emb j) = (V c main_arg11 : S128x10.Idx → EReal) j
    refine congrArg _ (funext fun a => Fin.ext ?_)
    match a with
    | ⟨0, _⟩ => show win5_2.index t (0 : Fin 2) * 128 + 1 * (j 0).val = (j 0).val; omega
    | ⟨1, _⟩ => show win5_2.index t (1 : Fin 2) * 10 + 1 * (j 1).val = (j 1).val; omega
  have h3 : (iblk5 V c 3 t : Vec Ideal S1x10 .f32) = (V c main_v96 : Vec Ideal S1x10 .f32) := by
    funext j
    show (V c main_v96 : S1x10.Idx → EReal) (((cfg5.win 3).blk t).view.emb j) = (V c main_v96 : S1x10.Idx → EReal) j
    refine congrArg _ (funext fun a => Fin.ext ?_)
    match a with
    | ⟨0, _⟩ => show win5_3.index t (0 : Fin 2) * 1 + 1 * (j 0).val = (j 0).val; omega
    | ⟨1, _⟩ => show win5_3.index t (1 : Fin 2) * 10 + 1 * (j 1).val = (j 1).val; omega
  funext j
  show k5_pay1 (iblk5 V c 0 t) (iblk5 V c 1 t) (iblk5 V c 2 t) (iblk5 V c 3 t) j
      = k5_pay1 (V c main_v90) (V c main_v95) (V c main_arg11) (V c main_v96) (((cfg5.win 4).blk t).view.emb j)
  have hj : ((cfg5.win 4).blk t).view.emb j = j := by
    funext a; apply Fin.ext
    match a with
    | ⟨0, _⟩ => show win5_4.index t (0 : Fin 2) * 50 + 1 * (j 0).val = (j 0).val; omega
    | ⟨1, _⟩ => show win5_4.index t (1 : Fin 2) * 10 + 1 * (j 1).val = (j 1).val; omega
  rw [hj, h0, h1, h2, h3]

/-- An index of the result is in the point's block iff each coordinate is in the block's range on its axis. -/
theorem mem_blk (t : Fin cfg5.N) (i : S50x10.Idx) :
    i ∈ ((cfg5.win 4).blk t).view.set ↔ ∀ a : Fin 2, win5_4.index t a * S50x10.size a ≤ (i a).val ∧ (i a).val < win5_4.index t a * S50x10.size a + S50x10.size a := by
  show i ∈ ((View.whole main_v97).slice (win5_4.rect t)).set ↔ _
  rw [View.set_slice_whole, Rect.mem_set_unit]
  exact Iff.rfl

/-- The one block covers the result. -/
theorem cover (i : S50x10.Idx) :
    ∃ t : Fin cfg5.N, (cfg5.win 4).flush t = true ∧ i ∈ ((cfg5.win 4).blk t).view.set := by
  have hi0 : (i 0).val < 50 := (i 0).isLt
  have hi1 : (i 1).val < 10 := (i 1).isLt
  let t : Fin cfg5.N := ⟨0, by decide⟩
  obtain ⟨-, -, -, -, -, -, -, -, e0, e1⟩ := index_facts t
  refine ⟨t, flush5_4 t, ?_⟩
  rw [mem_blk]
  intro a
  match a with
  | ⟨0, _⟩ => show win5_4.index t (0 : Fin 2) * 50 ≤ (i 0).val ∧ (i 0).val < win5_4.index t (0 : Fin 2) * 50 + 50; omega
  | ⟨1, _⟩ => show win5_4.index t (1 : Fin 2) * 10 ≤ (i 1).val ∧ (i 1).val < win5_4.index t (1 : Fin 2) * 10 + 10; omega

/-- THE RESULT ARRAY after the region: the payload of the four argument arrays as the region finds them. -/
theorem final (c : Dev nD) : (dat5 (F := Ideal) V c).arrAt 4 cfg5.N = G V c :=
  (dat5 (F := Ideal) V c).arrAt_eq_of_cover 4 _ (fun t _ => flushed_eq V c t) cover

/-- THE RESULT ARRAY is the reference's result, when the region finds the reference's group sums, counts, weights
    and bias in its four argument arrays. -/
theorem out_eq (c : Dev nD) (x0 : (⟨Cert.ReferenceIdeal.S50000x128, .f32⟩ : BufTy).Contents (Elt Ideal)) (x1 : (⟨Cert.ReferenceIdeal.S2x500000, .i32⟩ : BufTy).Contents (Elt Ideal)) (x2 : (⟨Cert.ReferenceIdeal.S50000, .i32⟩ : BufTy).Contents (Elt Ideal)) (x3 : (⟨Cert.ReferenceIdeal.S128x160, .f32⟩ : BufTy).Contents (Elt Ideal)) (x4 : (⟨Cert.ReferenceIdeal.S160, .f32⟩ : BufTy).Contents (Elt Ideal)) (x5 : (⟨Cert.ReferenceIdeal.S160x160, .f32⟩ : BufTy).Contents (Elt Ideal)) (x6 : (⟨Cert.ReferenceIdeal.S160, .f32⟩ : BufTy).Contents (Elt Ideal)) (x7 : (⟨Cert.ReferenceIdeal.S160x160, .f32⟩ : BufTy).Contents (Elt Ideal)) (x8 : (⟨Cert.ReferenceIdeal.S160, .f32⟩ : BufTy).Contents (Elt Ideal)) (x9 : (⟨Cert.ReferenceIdeal.S160x128, .f32⟩ : BufTy).Contents (Elt Ideal)) (x10 : (⟨Cert.ReferenceIdeal.S128, .f32⟩ : BufTy).Contents (Elt Ideal)) (x11 : (⟨Cert.ReferenceIdeal.S128x10, .f32⟩ : BufTy).Contents (Elt Ideal)) (x12 : (⟨Cert.ReferenceIdeal.S10, .f32⟩ : BufTy).Contents (Elt Ideal))
    (hs : (V c main_v90 : S50x128.Idx → EReal) = Cert.ReferenceIdeal.Read.val_main_v169 (F := Ideal) x0 x1 x2 x3 x4 x5 x6 x7 x8 x9 x10)
    (hc : ∀ g : Fin 50, (V c main_v95 : S50x1.Idx → EReal) (ix2 g 0) = Cert.ReferenceIdeal.Read.val_main_v173 (F := Ideal) x2 (ix1 g))
    (hw : (V c main_arg11 : S128x10.Idx → EReal) = x11)
    (hb : ∀ o : Fin 10, (V c main_v96 : S1x10.Idx → EReal) (ix2 0 o) = x12 (ix1 o)) :
    (dat5 (F := Ideal) V c).arrAt 4 cfg5.N = Cert.ReferenceIdeal.Read.val_main_v183 (F := Ideal) x0 x1 x2 x3 x4 x5 x6 x7 x8 x9 x10 x11 x12 := by
  rw [final]
  funext i
  obtain ⟨g, o, rfl⟩ : ∃ (g : Fin 50) (o : Fin 10), i = ix2 g o := ⟨i 0, i 1, eq_ix2 i⟩
  refine (pay_apply _ _ _ _ g o).trans ?_
  refine Eq.trans ?_ (Cert.KernelIdeal.TailRef.ref_eq x0 x1 x2 x3 x4 x5 x6 x7 x8 x9 x10 x11 x12 g o).symm
  have e1 : (fun g : Fin 50 => (V c main_v95 : S50x1.Idx → EReal) (ix2 g (0 : Fin 1)))
      = Cert.KernelIdeal.TailRef.refCnt x2 := funext fun g => hc g
  have e3 : (fun o : Fin 10 => (V c main_v96 : S1x10.Idx → EReal) (ix2 (0 : Fin 1) o))
      = Cert.KernelIdeal.TailRef.refBias x12 := funext fun o => hb o
  show tail (V c main_v90 : S50x128.Idx → EReal) (fun g : Fin 50 => (V c main_v95 : S50x1.Idx → EReal) (ix2 g (0 : Fin 1)))
      (V c main_arg11 : S128x10.Idx → EReal) (fun o : Fin 10 => (V c main_v96 : S1x10.Idx → EReal) (ix2 (0 : Fin 1) o)) g o = _
  rw [e1, e3, hs, hw]

end Cert.KernelIdeal.PoolValue

end
-- ==== Proof.LayerBridge.lean ====
/-
  The layers of the two programs, joined.

  Per layer the reference forms `h' = (agg + coeff · (h W)) + b` with `coeff` and `b` spread over the matrix by two
  broadcasts each; the kernel forms the product `h W` and the part `coeff · (h W) + b` in one region and adds the
  aggregate in the next. Entry by entry the host's contraction is the sum over the shared axis; the spread
  coefficient at `(r, j)` is the coefficient of node `r` and the spread bias the bias of feature `j`; the aggregate
  is the same gather, scaling and scatter-add on both sides; and the two groupings of the sum agree because
  addition of extended reals associates. Everything here is about the reference's stages: the kernel's buffers
  enter through hypotheses.
-/
import proofs.«133490_j51754355916835_1_alg».proof.Proof.Gen.ReferenceIdeal.Read
import proofs.«133490_j51754355916835_1_alg».proof.Proof.GcnSpec
import proofs.«133490_j51754355916835_1_alg».proof.Proof.StretchMid
import Idealize.ShloMosaic.Lib.ValueIdx

set_option maxRecDepth 16384

noncomputable section

namespace Cert.LayerBridge

open Cert.ReferenceIdeal Cert.ReferenceIdeal.Read
open Idealize.ShloMosaic Idealize.ShloMosaic.ValueIdx

variable (x0 : (⟨S50000x128, .f32⟩ : BufTy).Contents (Elt Ideal)) (x1 : (⟨S2x500000, .i32⟩ : BufTy).Contents (Elt Ideal))
  (x2 : (⟨S50000, .i32⟩ : BufTy).Contents (Elt Ideal)) (x3 : (⟨S128x160, .f32⟩ : BufTy).Contents (Elt Ideal))
  (x4 : (⟨S160, .f32⟩ : BufTy).Contents (Elt Ideal)) (x5 : (⟨S160x160, .f32⟩ : BufTy).Contents (Elt Ideal))
  (x6 : (⟨S160, .f32⟩ : BufTy).Contents (Elt Ideal)) (x7 : (⟨S160x160, .f32⟩ : BufTy).Contents (Elt Ideal))
  (x8 : (⟨S160, .f32⟩ : BufTy).Contents (Elt Ideal)) (x9 : (⟨S160x128, .f32⟩ : BufTy).Contents (Elt Ideal))
  (x10 : (⟨S128, .f32⟩ : BufTy).Contents (Elt Ideal)) (x11 : (⟨S128x10, .f32⟩ : BufTy).Contents (Elt Ideal))
  (x12 : (⟨S10, .f32⟩ : BufTy).Contents (Elt Ideal))

/-! ## Layer 0 -/

/-- The host's product of layer 0 is the matrix product, entry by entry. -/
theorem mm0 : Cert.GcnSpec.mmMat x0 x3 = val_main_v11 (F := Ideal) x0 x3 := by
  funext i
  rw [val_main_v11_apply]
  unfold Cert.GcnSpec.mmMat Cert.GcnSpec.mm
  refine Finset.sum_congr rfl fun k _ => ?_
  have e1 : ix2 (i 0) k = lidx_main_v11 i k := funext fun a => by match a with | ⟨0, _⟩ => rfl | ⟨1, _⟩ => rfl
  have e2 : ix2 k (i 1) = ridx_main_v11 i k := funext fun a => by match a with | ⟨0, _⟩ => rfl | ⟨1, _⟩ => rfl
  exact congrArg₂ (· * ·) (congrArg _ e1) (congrArg _ e2)

/-- Layer 0's self-loop-and-bias part, from a coefficient column and a bias row that hold the reference's
    coefficient vector and the bias vector, is the reference's product scaled per node plus its bias spread per row. -/
theorem self0 (C : Cert.GcnSpec.Mat 50000 1) (B : Cert.GcnSpec.Mat 1 160)
    (hC : ∀ r : Fin 50000, C (ix2 r 0) = val_main_v42 (F := Ideal) x1 (ix1 r))
    (hB : ∀ j : Fin 160, B (ix2 0 j) = x4 (ix1 j)) :
    Cert.GcnSpec.selfMat C x0 x3 B = Cert.GcnSpec.plus (val_main_v45 (F := Ideal) x0 x1 x3) (val_main_v48 (F := Ideal) x4) := by
  funext i
  obtain ⟨r, j, rfl⟩ : ∃ (r : Fin 50000) (j : Fin 160), i = ix2 r j := ⟨i 0, i 1, eq_ix2 i⟩
  have h1 : val_main_v44 (F := Ideal) x1 (ix2 r j) = val_main_v42 (F := Ideal) x1 (ix1 r) := by
    rw [val_main_v44_apply, val_main_v43_apply]
    exact congrArg (val_main_v42 (F := Ideal) x1) (funext fun a => by match a with | ⟨0, _⟩ => rfl)
  have h2 : val_main_v48 (F := Ideal) x4 (ix2 r j) = x4 (ix1 j) := by
    rw [val_main_v48_apply, val_main_v47_apply]
    exact congrArg x4 (funext fun a => by match a with | ⟨0, _⟩ => rfl)
  rw [Cert.GcnSpec.selfMat_apply, Cert.GcnSpec.plus_apply, val_main_v45_apply, Ideal.mulf_def, h1, h2, ← hC r, ← hB j]
  unfold Cert.GcnSpec.selfPart
  rw [← Cert.GcnSpec.mmMat_apply, mm0 x0 x3]

/-- Layer 0's aggregate over the edges of the reference's product, with the reference's index vectors and spread
    edge weights, is the reference's aggregate. -/
theorem agg0 (N : (⟨S500000x160, .f32⟩ : BufTy).Contents (Elt Ideal)) (hN : N = val_main_v35 (F := Ideal) x1) :
    Cert.KernelIdeal.StretchMid.aggCore160 (val_main_v1 (F := Ideal) x1) (val_main_v3 (F := Ideal) x1) N (val_main_v11 (F := Ideal) x0 x3) = val_main_v39 (F := Ideal) x0 x1 x3 := by
  subst hN
  rfl

/-- The aggregate plus the self-loop-and-bias part is the reference's layer output: addition associates. -/
theorem out0 : Cert.GcnSpec.plus (val_main_v39 (F := Ideal) x0 x1 x3) (Cert.GcnSpec.plus (val_main_v45 (F := Ideal) x0 x1 x3) (val_main_v48 (F := Ideal) x4)) = val_main_v49 (F := Ideal) x0 x1 x3 x4 := by
  funext i
  rw [Cert.GcnSpec.plus_apply, Cert.GcnSpec.plus_apply, val_main_v49_apply, val_main_v46_apply, Ideal.addf_def, Ideal.addf_def]
  exact (add_assoc _ _ _).symm

/-! ## Layer 1 -/

/-- The host's product of layer 1 is the matrix product, entry by entry. -/
theorem mm1 : Cert.GcnSpec.mmMat (val_main_v49 (F := Ideal) x0 x1 x3 x4) x5 = val_main_v50 (F := Ideal) x0 x1 x3 x4 x5 := by
  funext i
  rw [val_main_v50_apply]
  unfold Cert.GcnSpec.mmMat Cert.GcnSpec.mm
  refine Finset.sum_congr rfl fun k _ => ?_
  have e1 : ix2 (i 0) k = lidx_main_v50 i k := funext fun a => by match a with | ⟨0, _⟩ => rfl | ⟨1, _⟩ => rfl
  have e2 : ix2 k (i 1) = ridx_main_v50 i k := funext fun a => by match a with | ⟨0, _⟩ => rfl | ⟨1, _⟩ => rfl
  exact congrArg₂ (· * ·) (congrArg _ e1) (congrArg _ e2)

/-- Layer 1 forms the coefficient vector again, by the same operations: the same vector. -/
theorem coef1 : val_main_v81 (F := Ideal) x1 = val_main_v42 (F := Ideal) x1 := rfl

/-- Layer 1's self-loop-and-bias part, from a coefficient column and a bias row that hold the reference's
    coefficient vector and the bias vector, is the reference's product scaled per node plus its bias spread per row. -/
theorem self1 (C : Cert.GcnSpec.Mat 50000 1) (B : Cert.GcnSpec.Mat 1 160)
    (hC : ∀ r : Fin 50000, C (ix2 r 0) = val_main_v42 (F := Ideal) x1 (ix1 r))
    (hB : ∀ j : Fin 160, B (ix2 0 j) = x6 (ix1 j)) :
    Cert.GcnSpec.selfMat C (val_main_v49 (F := Ideal) x0 x1 x3 x4) x5 B = Cert.GcnSpec.plus (val_main_v84 (F := Ideal) x0 x1 x3 x4 x5) (val_main_v87 (F := Ideal) x6) := by
  funext i
  obtain ⟨r, j, rfl⟩ : ∃ (r : Fin 50000) (j : Fin 160), i = ix2 r j := ⟨i 0, i 1, eq_ix2 i⟩
  have h1 : val_main_v83 (F := Ideal) x1 (ix2 r j) = val_main_v42 (F := Ideal) x1 (ix1 r) := by
    rw [val_main_v83_apply, val_main_v82_apply, coef1 x1]
    exact congrArg (val_main_v42 (F := Ideal) x1) (funext fun a => by match a with | ⟨0, _⟩ => rfl)
  have h2 : val_main_v87 (F := Ideal) x6 (ix2 r j) = x6 (ix1 j) := by
    rw [val_main_v87_apply, val_main_v86_apply]
    exact congrArg x6 (funext fun a => by match a with | ⟨0, _⟩ => rfl)
  rw [Cert.GcnSpec.selfMat_apply, Cert.GcnSpec.plus_apply, val_main_v84_apply, Ideal.mulf_def, h1, h2, ← hC r, ← hB j]
  unfold Cert.GcnSpec.selfPart
  rw [← Cert.GcnSpec.mmMat_apply, mm1 x0 x1 x3 x4 x5]

/-- Layer 1 spreads the edge weights again, by the same operations on the same index vectors: the same matrix. -/
theorem nrm1 : val_main_v74 (F := Ideal) x1 = val_main_v35 (F := Ideal) x1 := by
  have hs : val_main_v56 (F := Ideal) x1 = val_main_v17 (F := Ideal) x1 := rfl
  have hd : val_main_v63 (F := Ideal) x1 = val_main_v24 (F := Ideal) x1 := rfl
  unfold val_main_v74 val_main_v73 val_main_v65 val_main_v57 val_main_v64 val_main_v35 val_main_v34 val_main_v26 val_main_v18 val_main_v25
  rw [hs, hd]

/-- Layer 1's aggregate over the edges of the reference's product, with the reference's index vectors and spread
    edge weights, is the reference's aggregate. -/
theorem agg1 (N : (⟨S500000x160, .f32⟩ : BufTy).Contents (Elt Ideal)) (hN : N = val_main_v35 (F := Ideal) x1) :
    Cert.KernelIdeal.StretchMid.aggCore160 (val_main_v1 (F := Ideal) x1) (val_main_v3 (F := Ideal) x1) N (val_main_v50 (F := Ideal) x0 x1 x3 x4 x5) = val_main_v78 (F := Ideal) x0 x1 x3 x4 x5 := by
  subst hN
  rw [← nrm1 x1]
  rfl

/-- The aggregate plus the self-loop-and-bias part is the reference's layer output: addition associates. -/
theorem out1 : Cert.GcnSpec.plus (val_main_v78 (F := Ideal) x0 x1 x3 x4 x5) (Cert.GcnSpec.plus (val_main_v84 (F := Ideal) x0 x1 x3 x4 x5) (val_main_v87 (F := Ideal) x6)) = val_main_v88 (F := Ideal) x0 x1 x3 x4 x5 x6 := by
  funext i
  rw [Cert.GcnSpec.plus_apply, Cert.GcnSpec.plus_apply, val_main_v88_apply, val_main_v85_apply, Ideal.addf_def, Ideal.addf_def]
  exact (add_assoc _ _ _).symm

/-! ## Layer 2 -/

/-- The host's product of layer 2 is the matrix product, entry by entry. -/
theorem mm2 : Cert.GcnSpec.mmMat (val_main_v88 (F := Ideal) x0 x1 x3 x4 x5 x6) x7 = val_main_v89 (F := Ideal) x0 x1 x3 x4 x5 x6 x7 := by
  funext i
  rw [val_main_v89_apply]
  unfold Cert.GcnSpec.mmMat Cert.GcnSpec.mm
  refine Finset.sum_congr rfl fun k _ => ?_
  have e1 : ix2 (i 0) k = lidx_main_v89 i k := funext fun a => by match a with | ⟨0, _⟩ => rfl | ⟨1, _⟩ => rfl
  have e2 : ix2 k (i 1) = ridx_main_v89 i k := funext fun a => by match a with | ⟨0, _⟩ => rfl | ⟨1, _⟩ => rfl
  exact congrArg₂ (· * ·) (congrArg _ e1) (congrArg _ e2)

/-- Layer 2 forms the coefficient vector again, by the same operations: the same vector. -/
theorem coef2 : val_main_v120 (F := Ideal) x1 = val_main_v42 (F := Ideal) x1 := rfl

/-- Layer 2's self-loop-and-bias part, from a coefficient column and a bias row that hold the reference's
    coefficient vector and the bias vector, is the reference's product scaled per node plus its bias spread per row. -/
theorem self2 (C : Cert.GcnSpec.Mat 50000 1) (B : Cert.GcnSpec.Mat 1 160)
    (hC : ∀ r : Fin 50000, C (ix2 r 0) = val_main_v42 (F := Ideal) x1 (ix1 r))
    (hB : ∀ j : Fin 160, B (ix2 0 j) = x8 (ix1 j)) :
    Cert.GcnSpec.selfMat C (val_main_v88 (F := Ideal) x0 x1 x3 x4 x5 x6) x7 B = Cert.GcnSpec.plus (val_main_v123 (F := Ideal) x0 x1 x3 x4 x5 x6 x7) (val_main_v126 (F := Ideal) x8) := by
  funext i
  obtain ⟨r, j, rfl⟩ : ∃ (r : Fin 50000) (j : Fin 160), i = ix2 r j := ⟨i 0, i 1, eq_ix2 i⟩
  have h1 : val_main_v122 (F := Ideal) x1 (ix2 r j) = val_main_v42 (F := Ideal) x1 (ix1 r) := by
    rw [val_main_v122_apply, val_main_v121_apply, coef2 x1]
    exact congrArg (val_main_v42 (F := Ideal) x1) (funext fun a => by match a with | ⟨0, _⟩ => rfl)
  have h2 : val_main_v126 (F := Ideal) x8 (ix2 r j) = x8 (ix1 j) := by
    rw [val_main_v126_apply, val_main_v125_apply]
    exact congrArg x8 (funext fun a => by match a with | ⟨0, _⟩ => rfl)
  rw [Cert.GcnSpec.selfMat_apply, Cert.GcnSpec.plus_apply, val_main_v123_apply, Ideal.mulf_def, h1, h2, ← hC r, ← hB j]
  unfold Cert.GcnSpec.selfPart
  rw [← Cert.GcnSpec.mmMat_apply, mm2 x0 x1 x3 x4 x5 x6 x7]

/-- Layer 2 spreads the edge weights again, by the same operations on the same index vectors: the same matrix. -/
theorem nrm2 : val_main_v113 (F := Ideal) x1 = val_main_v35 (F := Ideal) x1 := by
  have hs : val_main_v95 (F := Ideal) x1 = val_main_v17 (F := Ideal) x1 := rfl
  have hd : val_main_v102 (F := Ideal) x1 = val_main_v24 (F := Ideal) x1 := rfl
  unfold val_main_v113 val_main_v112 val_main_v104 val_main_v96 val_main_v103 val_main_v35 val_main_v34 val_main_v26 val_main_v18 val_main_v25
  rw [hs, hd]

/-- Layer 2's aggregate over the edges of the reference's product, with the reference's index vectors and spread
    edge weights, is the reference's aggregate. -/
theorem agg2 (N : (⟨S500000x160, .f32⟩ : BufTy).Contents (Elt Ideal)) (hN : N = val_main_v35 (F := Ideal) x1) :
    Cert.KernelIdeal.StretchMid.aggCore160 (val_main_v1 (F := Ideal) x1) (val_main_v3 (F := Ideal) x1) N (val_main_v89 (F := Ideal) x0 x1 x3 x4 x5 x6 x7) = val_main_v117 (F := Ideal) x0 x1 x3 x4 x5 x6 x7 := by
  subst hN
  rw [← nrm2 x1]
  rfl

/-- The aggregate plus the self-loop-and-bias part is the reference's layer output: addition associates. -/
theorem out2 : Cert.GcnSpec.plus (val_main_v117 (F := Ideal) x0 x1 x3 x4 x5 x6 x7) (Cert.GcnSpec.plus (val_main_v123 (F := Ideal) x0 x1 x3 x4 x5 x6 x7) (val_main_v126 (F := Ideal) x8)) = val_main_v127 (F := Ideal) x0 x1 x3 x4 x5 x6 x7 x8 := by
  funext i
  rw [Cert.GcnSpec.plus_apply, Cert.GcnSpec.plus_apply, val_main_v127_apply, val_main_v124_apply, Ideal.addf_def, Ideal.addf_def]
  exact (add_assoc _ _ _).symm

/-! ## Layer 3 -/

/-- The host's product of layer 3 is the matrix product, entry by entry. -/
theorem mm3 : Cert.GcnSpec.mmMat (val_main_v127 (F := Ideal) x0 x1 x3 x4 x5 x6 x7 x8) x9 = val_main_v128 (F := Ideal) x0 x1 x3 x4 x5 x6 x7 x8 x9 := by
  funext i
  rw [val_main_v128_apply]
  unfold Cert.GcnSpec.mmMat Cert.GcnSpec.mm
  refine Finset.sum_congr rfl fun k _ => ?_
  have e1 : ix2 (i 0) k = lidx_main_v128 i k := funext fun a => by match a with | ⟨0, _⟩ => rfl | ⟨1, _⟩ => rfl
  have e2 : ix2 k (i 1) = ridx_main_v128 i k := funext fun a => by match a with | ⟨0, _⟩ => rfl | ⟨1, _⟩ => rfl
  exact congrArg₂ (· * ·) (congrArg _ e1) (congrArg _ e2)

/-- Layer 3 forms the coefficient vector again, by the same operations: the same vector. -/
theorem coef3 : val_main_v159 (F := Ideal) x1 = val_main_v42 (F := Ideal) x1 := rfl

/-- Layer 3's self-loop-and-bias part, from a coefficient column and a bias row that hold the reference's
    coefficient vector and the bias vector, is the reference's product scaled per node plus its bias spread per row. -/
theorem self3 (C : Cert.GcnSpec.Mat 50000 1) (B : Cert.GcnSpec.Mat 1 128)
    (hC : ∀ r : Fin 50000, C (ix2 r 0) = val_main_v42 (F := Ideal) x1 (ix1 r))
    (hB : ∀ j : Fin 128, B (ix2 0 j) = x10 (ix1 j)) :
    Cert.GcnSpec.selfMat C (val_main_v127 (F := Ideal) x0 x1 x3 x4 x5 x6 x7 x8) x9 B = Cert.GcnSpec.plus (val_main_v162 (F := Ideal) x0 x1 x3 x4 x5 x6 x7 x8 x9) (val_main_v165 (F := Ideal) x10) := by
  funext i
  obtain ⟨r, j, rfl⟩ : ∃ (r : Fin 50000) (j : Fin 128), i = ix2 r j := ⟨i 0, i 1, eq_ix2 i⟩
  have h1 : val_main_v161 (F := Ideal) x1 (ix2 r j) = val_main_v42 (F := Ideal) x1 (ix1 r) := by
    rw [val_main_v161_apply, val_main_v160_apply, coef3 x1]
    exact congrArg (val_main_v42 (F := Ideal) x1) (funext fun a => by match a with | ⟨0, _⟩ => rfl)
  have h2 : val_main_v165 (F := Ideal) x10 (ix2 r j) = x10 (ix1 j) := by
    rw [val_main_v165_apply, val_main_v164_apply]
    exact congrArg x10 (funext fun a => by match a with | ⟨0, _⟩ => rfl)
  rw [Cert.GcnSpec.selfMat_apply, Cert.GcnSpec.plus_apply, val_main_v162_apply, Ideal.mulf_def, h1, h2, ← hC r, ← hB j]
  unfold Cert.GcnSpec.selfPart
  rw [← Cert.GcnSpec.mmMat_apply, mm3 x0 x1 x3 x4 x5 x6 x7 x8 x9]

/-- Layer 3's aggregate over the edges of the reference's product, with the reference's index vectors and spread
    edge weights, is the reference's aggregate. -/
theorem agg3 (N : (⟨S500000x128, .f32⟩ : BufTy).Contents (Elt Ideal)) (hN : N = val_main_v152 (F := Ideal) x1) :
    Cert.KernelIdeal.StretchMid.aggCore128 (val_main_v1 (F := Ideal) x1) (val_main_v3 (F := Ideal) x1) N (val_main_v128 (F := Ideal) x0 x1 x3 x4 x5 x6 x7 x8 x9) = val_main_v156 (F := Ideal) x0 x1 x3 x4 x5 x6 x7 x8 x9 := by
  subst hN
  rfl

/-- The aggregate plus the self-loop-and-bias part is the reference's layer output: addition associates. -/
theorem out3 : Cert.GcnSpec.plus (val_main_v156 (F := Ideal) x0 x1 x3 x4 x5 x6 x7 x8 x9) (Cert.GcnSpec.plus (val_main_v162 (F := Ideal) x0 x1 x3 x4 x5 x6 x7 x8 x9) (val_main_v165 (F := Ideal) x10)) = val_main_v166 (F := Ideal) x0 x1 x3 x4 x5 x6 x7 x8 x9 x10 := by
  funext i
  rw [Cert.GcnSpec.plus_apply, Cert.GcnSpec.plus_apply, val_main_v166_apply, val_main_v163_apply, Ideal.addf_def, Ideal.addf_def]
  exact (add_assoc _ _ _).symm

end Cert.LayerBridge

end
-- ==== Proof.LibUnitColumn.lean ====
/-
  A vector laid out as a one-column matrix, and a one-column matrix spread along the rows.

  A length-`a` vector becomes an `[a, 1]` matrix either by a reshape or by a broadcast that keeps axis 0; either
  way the entry at `(i, u)` is the vector's entry `i`. Spreading an `[a, 1]` matrix to `[a, b]` repeats the
  column: the entry at `(i, j)` is the column's entry `(i, 0)`. Hence the two spellings of "the vector as a column,
  repeated along each row" are one matrix.
-/
import Idealize.ShloMosaic.Lib.Pipeline.Value
import Idealize.ShloMosaic.Lib.ValueIdx

namespace Cert.LibUnitColumn

open Idealize.ShloMosaic Idealize.ShloMosaic.ValueIdx

variable {α : Type}

/-- An `[a]` vector cast to `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` vector broadcast to `[a, 1]` along axis 0 reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x _ _ (fun d => by
    match d with
    | ⟨0, _⟩ =>
      show i.val = if a = 1 then 0 else i.val
      split_ifs with e
      · have := i.isLt; omega
      · rfl)

/-- An `[a, 1]` column spread to `[a, b]` reads, at `(i, j)`, the column at `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i 0) :=
  broadcastInDim_apply ![0, 1] h x _ _ (fun d => by
    match d with
    | ⟨0, _⟩ =>
      show i.val = if a = 1 then 0 else i.val
      split_ifs with e
      · have := i.isLt; omega
      · rfl
    | ⟨1, _⟩ =>
      show (0 : ℕ) = if (1 : ℕ) = 1 then 0 else j.val
      rw [if_pos rfl])

/-- The vector as a column repeated along each row, by a reshape or by a broadcast: one matrix. -/
theorem spread_cast_eq_spread_bcast {a b : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0])
    (h2 : (⟨2, ![a, 1]⟩ : Shape).BroadcastsInDim ⟨2, ![a, b]⟩ ![0, 1]) :
    broadcastInDim ⟨2, ![a, b]⟩ ![0, 1] h2 (shapeCast ⟨2, ![a, 1]⟩ x hc)
      = broadcastInDim ⟨2, ![a, b]⟩ ![0, 1] h2 (broadcastInDim ⟨2, ![a, 1]⟩ ![0] hb x) := by
  funext i
  obtain ⟨p, q, rfl⟩ : ∃ (p : Fin a) (q : Fin b), i = ix2 p q := ⟨i 0, i 1, eq_ix2 i⟩
  rw [broadcastInDim_a1_ab_apply, broadcastInDim_a1_ab_apply, shapeCast_a_a1_apply, broadcastInDim_a_a1_apply]

end Cert.LibUnitColumn
-- ==== Proof.Chain.lean ====
/-
  The kernel's result array as the reference's result of the same arguments.

  The run folds twelve segments over the memory. Going through the boundaries in order, each buffer a later
  segment reads is stated as one of the reference's own stages of the argument arrays: the index vectors, the
  self-loop coefficients and the edge weights after the first stretch; per layer the product `h W`, the
  self-loop-and-bias part `coeff · (h W) + b` and, after the host's gather and scatter-add, the aggregate, so that
  the next region's input `agg + (coeff · (h W) + b)` is the reference's layer output `(agg + coeff · (h W)) + b`;
  after the last layer the pooled sums and the node counts; and through the last region the log-softmax head.
-/
import proofs.«133490_j51754355916835_1_alg».proof.Proof.Gen.KernelIdeal.Frame
import proofs.«133490_j51754355916835_1_alg».proof.Proof.Gen.ReferenceIdeal.Read
import proofs.«133490_j51754355916835_1_alg».proof.Proof.Keeps
import proofs.«133490_j51754355916835_1_alg».proof.Proof.Stretch0
import proofs.«133490_j51754355916835_1_alg».proof.Proof.StretchMid
import proofs.«133490_j51754355916835_1_alg».proof.Proof.Stretch5
import proofs.«133490_j51754355916835_1_alg».proof.Proof.Layer0Value
import proofs.«133490_j51754355916835_1_alg».proof.Proof.Layer1Value
import proofs.«133490_j51754355916835_1_alg».proof.Proof.Layer2Value
import proofs.«133490_j51754355916835_1_alg».proof.Proof.Layer3Value
import proofs.«133490_j51754355916835_1_alg».proof.Proof.AddValue
import proofs.«133490_j51754355916835_1_alg».proof.Proof.PoolValue
import proofs.«133490_j51754355916835_1_alg».proof.Proof.LayerBridge
import proofs.«133490_j51754355916835_1_alg».proof.Proof.LibUnitColumn
import Idealize.ShloMosaic.Lib.ValueLayout
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-! ## After the first stretch -/

theorem w1_src : W1 m ρ c (Proc.devRef .tc main_v1) = Cert.ReferenceIdeal.Read.val_main_v1 (F := Ideal) (m ((c : Thread nD τ).loc main_arg1)) := Stretch0.src (W0 m ρ c)
theorem w1_dst : W1 m ρ c (Proc.devRef .tc main_v3) = Cert.ReferenceIdeal.Read.val_main_v3 (F := Ideal) (m ((c : Thread nD τ).loc main_arg1)) := Stretch0.dst (W0 m ρ c)
theorem w1_coeff : W1 m ρ c (Proc.devRef .tc main_v14) = shapeCast S50000x1 (Cert.ReferenceIdeal.Read.val_main_v42 (F := Ideal) (m ((c : Thread nD τ).loc main_arg1))) shapeCasts_S50000_S50000x1 :=
  Stretch0.coeff (W0 m ρ c)
theorem w1_norm : W1 m ρ c (Proc.devRef .tc main_v30) = shapeCast S500000x1 (Cert.ReferenceIdeal.Read.val_main_v26 (F := Ideal) (m ((c : Thread nD τ).loc main_arg1))) shapeCasts_S500000_S500000x1 :=
  Stretch0.norm (W0 m ρ c)
theorem w1_bias : W1 m ρ c (Proc.devRef .tc main_v31) = shapeCast S1x160 (m ((c : Thread nD τ).loc main_arg4)) shapeCasts_S160_S1x160 := Stretch0.bias (W0 m ρ c)

/-- The self-loop coefficient column holds the reference's coefficient of each node, wherever a layer reads it. -/
theorem coeff_at1 (r : Fin 50000) : (W1 m ρ c (Proc.devRef .tc main_v14) : S50000x1.Idx → EReal) (ix2 r 0) = Cert.ReferenceIdeal.Read.val_main_v42 (F := Ideal) (m ((c : Thread nD τ).loc main_arg1)) (ix1 r) := by
  rw [w1_coeff]; exact Cert.LibUnitColumn.shapeCast_a_a1_apply _ _ r 0
theorem coeff_at3 (r : Fin 50000) : (W3 m ρ c (Proc.devRef .tc main_v14) : S50000x1.Idx → EReal) (ix2 r 0) = Cert.ReferenceIdeal.Read.val_main_v42 (F := Ideal) (m ((c : Thread nD τ).loc main_arg1)) (ix1 r) := by
  rw [Keeps.v14_at3 m ρ c]; exact coeff_at1 m ρ c r
theorem coeff_at5 (r : Fin 50000) : (W5 m ρ c (Proc.devRef .tc main_v14) : S50000x1.Idx → EReal) (ix2 r 0) = Cert.ReferenceIdeal.Read.val_main_v42 (F := Ideal) (m ((c : Thread nD τ).loc main_arg1)) (ix1 r) := by
  rw [Keeps.v14_at5 m ρ c]; exact coeff_at1 m ρ c r
theorem coeff_at7 (r : Fin 50000) : (W7 m ρ c (Proc.devRef .tc main_v14) : S50000x1.Idx → EReal) (ix2 r 0) = Cert.ReferenceIdeal.Read.val_main_v42 (F := Ideal) (m ((c : Thread nD τ).loc main_arg1)) (ix1 r) := by
  rw [Keeps.v14_at7 m ρ c]; exact coeff_at1 m ρ c r

/-- The edge-weight column spread along the rows is the reference's spread weights, wherever a stretch reads it. -/
theorem nrm_at1 : broadcastInDim S500000x160 ![0, 1] bcast_S500000x1_S500000x160_0_1 (W1 m ρ c (Proc.devRef .tc main_v30)) = Cert.ReferenceIdeal.Read.val_main_v35 (F := Ideal) (m ((c : Thread nD τ).loc main_arg1)) := by
  rw [w1_norm]
  exact (Cert.LibUnitColumn.spread_cast_eq_spread_bcast (Cert.ReferenceIdeal.Read.val_main_v26 (F := Ideal) (m ((c : Thread nD τ).loc main_arg1))) _ bcast_S500000_S500000x1_0 _).trans rfl
theorem nrm128_at1 : broadcastInDim S500000x128 ![0, 1] bcast_S500000x1_S500000x128_0_1 (W1 m ρ c (Proc.devRef .tc main_v30)) = Cert.ReferenceIdeal.Read.val_main_v152 (F := Ideal) (m ((c : Thread nD τ).loc main_arg1)) := by
  rw [w1_norm]
  exact (Cert.LibUnitColumn.spread_cast_eq_spread_bcast (Cert.ReferenceIdeal.Read.val_main_v26 (F := Ideal) (m ((c : Thread nD τ).loc main_arg1))) _ bcast_S500000_S500000x1_0 _).trans rfl

/-! ## Layer 0 -/

theorem bias_at1 (j : Fin 160) : (W1 m ρ c (Proc.devRef .tc main_v31) : S1x160.Idx → EReal) (ix2 0 j) = (m ((c : Thread nD τ).loc main_arg4)) (ix1 j) := by
  rw [w1_bias]; exact shapeCast_a_1a_apply _ _ 0 j

theorem w2_xw : W2 m ρ c (Proc.devRef .tc main_v32_0) = Cert.ReferenceIdeal.Read.val_main_v11 (F := Ideal) (m ((c : Thread nD τ).loc main_arg0)) (m ((c : Thread nD τ).loc main_arg3)) :=
  (W2_arr m ρ c 4).trans ((Layer0Value.xw (V1 m ρ) c).trans (by
    rw [show V1 m ρ c main_arg0 = (m ((c : Thread nD τ).loc main_arg0)) from Keeps.arg0_at1 m ρ c, show V1 m ρ c main_arg3 = (m ((c : Thread nD τ).loc main_arg3)) from Keeps.arg3_at1 m ρ c]
    exact Cert.LayerBridge.mm0 (m ((c : Thread nD τ).loc main_arg0)) (m ((c : Thread nD τ).loc main_arg3))))

theorem w2_self : W2 m ρ c (Proc.devRef .tc main_v32_1) = Cert.GcnSpec.plus (Cert.ReferenceIdeal.Read.val_main_v45 (F := Ideal) (m ((c : Thread nD τ).loc main_arg0)) (m ((c : Thread nD τ).loc main_arg1)) (m ((c : Thread nD τ).loc main_arg3))) (Cert.ReferenceIdeal.Read.val_main_v48 (F := Ideal) (m ((c : Thread nD τ).loc main_arg4))) :=
  (W2_arr m ρ c 5).trans ((Layer0Value.self (V1 m ρ) c).trans (by
    rw [show V1 m ρ c main_arg0 = (m ((c : Thread nD τ).loc main_arg0)) from Keeps.arg0_at1 m ρ c, show V1 m ρ c main_arg3 = (m ((c : Thread nD τ).loc main_arg3)) from Keeps.arg3_at1 m ρ c]
    exact Cert.LayerBridge.self0 (m ((c : Thread nD τ).loc main_arg0)) (m ((c : Thread nD τ).loc main_arg1)) (m ((c : Thread nD τ).loc main_arg3)) (m ((c : Thread nD τ).loc main_arg4)) _ _ (coeff_at1 m ρ c) (bias_at1 m ρ c)))

/-! ## Layer 1 -/

theorem w3_agg : W3 m ρ c (Proc.devRef .tc main_v44) = Cert.ReferenceIdeal.Read.val_main_v39 (F := Ideal) (m ((c : Thread nD τ).loc main_arg0)) (m ((c : Thread nD τ).loc main_arg1)) (m ((c : Thread nD τ).loc main_arg3)) :=
  (StretchMid.agg1 (W2 m ρ c)).trans (by
    rw [Keeps.v1_at2 m ρ c, Keeps.v3_at2 m ρ c, Keeps.v30_at2 m ρ c, w1_src, w1_dst, w2_xw]
    exact Cert.LayerBridge.agg0 (m ((c : Thread nD τ).loc main_arg0)) (m ((c : Thread nD τ).loc main_arg1)) (m ((c : Thread nD τ).loc main_arg3)) _ (nrm_at1 m ρ c))

theorem w3_self : W3 m ρ c (Proc.devRef .tc main_v32_1) = Cert.GcnSpec.plus (Cert.ReferenceIdeal.Read.val_main_v45 (F := Ideal) (m ((c : Thread nD τ).loc main_arg0)) (m ((c : Thread nD τ).loc main_arg1)) (m ((c : Thread nD τ).loc main_arg3))) (Cert.ReferenceIdeal.Read.val_main_v48 (F := Ideal) (m ((c : Thread nD τ).loc main_arg4))) :=
  (Keeps.v32_1_at3 m ρ c).trans (w2_self m ρ c)

theorem bias_at3 (j : Fin 160) : (W3 m ρ c (Proc.devRef .tc main_v45) : S1x160.Idx → EReal) (ix2 0 j) = (m ((c : Thread nD τ).loc main_arg6)) (ix1 j) := by
  rw [show W3 m ρ c (Proc.devRef .tc main_v45) = _ from StretchMid.bias1 (W2 m ρ c), Keeps.arg6_at2 m ρ c]
  exact shapeCast_a_1a_apply _ _ 0 j

theorem w4_xw : W4 m ρ c (Proc.devRef .tc main_v46_0) = Cert.ReferenceIdeal.Read.val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W4_arr m ρ c 5).trans ((Layer1Value.xw (V3 m ρ) c).trans (by
    rw [show V3 m ρ c main_v44 = _ from w3_agg m ρ c, show V3 m ρ c main_v32_1 = _ from w3_self m ρ c,
      show V3 m ρ c main_arg5 = (m ((c : Thread nD τ).loc main_arg5)) from Keeps.arg5_at3 m ρ c, Cert.LayerBridge.out0 (m ((c : Thread nD τ).loc main_arg0)) (m ((c : Thread nD τ).loc main_arg1)) (m ((c : Thread nD τ).loc main_arg3)) (m ((c : Thread nD τ).loc main_arg4))]
    exact Cert.LayerBridge.mm1 (m ((c : Thread nD τ).loc main_arg0)) (m ((c : Thread nD τ).loc main_arg1)) (m ((c : Thread nD τ).loc main_arg3)) (m ((c : Thread nD τ).loc main_arg4)) (m ((c : Thread nD τ).loc main_arg5))))

theorem w4_self : W4 m ρ c (Proc.devRef .tc main_v46_1) = Cert.GcnSpec.plus (Cert.ReferenceIdeal.Read.val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (Cert.ReferenceIdeal.Read.val_main_v87 (F := Ideal) (m ((c : Thread nD τ).loc main_arg6))) :=
  (W4_arr m ρ c 6).trans ((Layer1Value.self (V3 m ρ) c).trans (by
    rw [show V3 m ρ c main_v44 = _ from w3_agg m ρ c, show V3 m ρ c main_v32_1 = _ from w3_self m ρ c,
      show V3 m ρ c main_arg5 = (m ((c : Thread nD τ).loc main_arg5)) from Keeps.arg5_at3 m ρ c, Cert.LayerBridge.out0 (m ((c : Thread nD τ).loc main_arg0)) (m ((c : Thread nD τ).loc main_arg1)) (m ((c : Thread nD τ).loc main_arg3)) (m ((c : Thread nD τ).loc main_arg4))]
    exact Cert.LayerBridge.self1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) _ _ (coeff_at3 m ρ c) (bias_at3 m ρ c)))

/-! ## Layer 2 -/

theorem w5_agg : W5 m ρ c (Proc.devRef .tc main_v58) = Cert.ReferenceIdeal.Read.val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (StretchMid.agg2 (W4 m ρ c)).trans (by
    rw [Keeps.v1_at4 m ρ c, Keeps.v3_at4 m ρ c, Keeps.v30_at4 m ρ c, w1_src, w1_dst, w4_xw]
    exact Cert.LayerBridge.agg1 (m ((c : Thread nD τ).loc main_arg0)) (m ((c : Thread nD τ).loc main_arg1)) (m ((c : Thread nD τ).loc main_arg3)) (m ((c : Thread nD τ).loc main_arg4)) (m ((c : Thread nD τ).loc main_arg5)) _ (nrm_at1 m ρ c))

theorem w5_self : W5 m ρ c (Proc.devRef .tc main_v46_1) = Cert.GcnSpec.plus (Cert.ReferenceIdeal.Read.val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (Cert.ReferenceIdeal.Read.val_main_v87 (F := Ideal) (m ((c : Thread nD τ).loc main_arg6))) :=
  (Keeps.v46_1_at5 m ρ c).trans (w4_self m ρ c)

theorem bias_at5 (j : Fin 160) : (W5 m ρ c (Proc.devRef .tc main_v59) : S1x160.Idx → EReal) (ix2 0 j) = (m ((c : Thread nD τ).loc main_arg8)) (ix1 j) := by
  rw [show W5 m ρ c (Proc.devRef .tc main_v59) = _ from StretchMid.bias2 (W4 m ρ c), Keeps.arg8_at4 m ρ c]
  exact shapeCast_a_1a_apply _ _ 0 j

theorem w6_xw : W6 m ρ c (Proc.devRef .tc main_v60_0) = Cert.ReferenceIdeal.Read.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 5).trans ((Layer2Value.xw (V5 m ρ) c).trans (by
    rw [show V5 m ρ c main_v58 = _ from w5_agg m ρ c, show V5 m ρ c main_v46_1 = _ from w5_self m ρ c,
      show V5 m ρ c main_arg7 = (m ((c : Thread nD τ).loc main_arg7)) from Keeps.arg7_at5 m ρ c, Cert.LayerBridge.out1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))]
    exact Cert.LayerBridge.mm2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))))

theorem w6_self : W6 m ρ c (Proc.devRef .tc main_v60_1) = Cert.GcnSpec.plus (Cert.ReferenceIdeal.Read.val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.Read.val_main_v126 (F := Ideal) (m ((c : Thread nD τ).loc main_arg8))) :=
  (W6_arr m ρ c 6).trans ((Layer2Value.self (V5 m ρ) c).trans (by
    rw [show V5 m ρ c main_v58 = _ from w5_agg m ρ c, show V5 m ρ c main_v46_1 = _ from w5_self m ρ c,
      show V5 m ρ c main_arg7 = (m ((c : Thread nD τ).loc main_arg7)) from Keeps.arg7_at5 m ρ c, Cert.LayerBridge.out1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))]
    exact Cert.LayerBridge.self2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) _ _ (coeff_at5 m ρ c) (bias_at5 m ρ c)))

/-! ## Layer 3 -/

theorem w7_agg : W7 m ρ c (Proc.devRef .tc main_v72) = Cert.ReferenceIdeal.Read.val_main_v117 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (StretchMid.agg3 (W6 m ρ c)).trans (by
    rw [Keeps.v1_at6 m ρ c, Keeps.v3_at6 m ρ c, Keeps.v30_at6 m ρ c, w1_src, w1_dst, w6_xw]
    exact Cert.LayerBridge.agg2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) _ (nrm_at1 m ρ c))

theorem w7_self : W7 m ρ c (Proc.devRef .tc main_v60_1) = Cert.GcnSpec.plus (Cert.ReferenceIdeal.Read.val_main_v123 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (Cert.ReferenceIdeal.Read.val_main_v126 (F := Ideal) (m ((c : Thread nD τ).loc main_arg8))) :=
  (Keeps.v60_1_at7 m ρ c).trans (w6_self m ρ c)

theorem bias_at7 (j : Fin 128) : (W7 m ρ c (Proc.devRef .tc main_v73) : S1x128.Idx → EReal) (ix2 0 j) = (m ((c : Thread nD τ).loc main_arg10)) (ix1 j) := by
  rw [show W7 m ρ c (Proc.devRef .tc main_v73) = _ from StretchMid.bias3 (W6 m ρ c), Keeps.arg10_at6 m ρ c]
  exact shapeCast_a_1a_apply _ _ 0 j

theorem w8_xw : W8 m ρ c (Proc.devRef .tc main_v74_0) = Cert.ReferenceIdeal.Read.val_main_v128 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W8_arr m ρ c 5).trans ((Layer3Value.xw (V7 m ρ) c).trans (by
    rw [show V7 m ρ c main_v72 = _ from w7_agg m ρ c, show V7 m ρ c main_v60_1 = _ from w7_self m ρ c,
      show V7 m ρ c main_arg9 = (m ((c : Thread nD τ).loc main_arg9)) from Keeps.arg9_at7 m ρ c, Cert.LayerBridge.out2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))]
    exact Cert.LayerBridge.mm3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))

theorem w8_self : W8 m ρ c (Proc.devRef .tc main_v74_1) = Cert.GcnSpec.plus (Cert.ReferenceIdeal.Read.val_main_v162 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Cert.ReferenceIdeal.Read.val_main_v165 (F := Ideal) (m ((c : Thread nD τ).loc main_arg10))) :=
  (W8_arr m ρ c 6).trans ((Layer3Value.self (V7 m ρ) c).trans (by
    rw [show V7 m ρ c main_v72 = _ from w7_agg m ρ c, show V7 m ρ c main_v60_1 = _ from w7_self m ρ c,
      show V7 m ρ c main_arg9 = (m ((c : Thread nD τ).loc main_arg9)) from Keeps.arg9_at7 m ρ c, Cert.LayerBridge.out2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))]
    exact Cert.LayerBridge.self3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ (coeff_at7 m ρ c) (bias_at7 m ρ c)))

/-! ## The last sum, the pooling and the head -/

theorem w9_agg : W9 m ρ c (Proc.devRef .tc main_v86) = Cert.ReferenceIdeal.Read.val_main_v156 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (StretchMid.agg4 (W8 m ρ c)).trans (by
    rw [Keeps.v1_at8 m ρ c, Keeps.v3_at8 m ρ c, Keeps.v30_at8 m ρ c, w1_src, w1_dst, w8_xw]
    exact Cert.LayerBridge.agg3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ (nrm128_at1 m ρ c))

theorem w9_self : W9 m ρ c (Proc.devRef .tc main_v74_1) = Cert.GcnSpec.plus (Cert.ReferenceIdeal.Read.val_main_v162 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Cert.ReferenceIdeal.Read.val_main_v165 (F := Ideal) (m ((c : Thread nD τ).loc main_arg10))) :=
  (Keeps.v74_1_at9 m ρ c).trans (w8_self m ρ c)

theorem w10_h : W10 m ρ c (Proc.devRef .tc main_v87) = Cert.ReferenceIdeal.Read.val_main_v166 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W10_arr m ρ c 2).trans ((AddValue.sum (V9 m ρ) c).trans (by
    rw [show V9 m ρ c main_v86 = _ from w9_agg m ρ c, show V9 m ρ c main_v74_1 = _ from w9_self m ρ c]
    exact Cert.LayerBridge.out3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))))

theorem w11_sums : W11 m ρ c (Proc.devRef .tc main_v90) = Cert.ReferenceIdeal.Read.val_main_v169 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (Stretch5.sums (W10 m ρ c)).trans (by rw [Keeps.arg2_at10 m ρ c, w10_h]; rfl)

theorem w11_cnts (g : Fin 50) : (W11 m ρ c (Proc.devRef .tc main_v95) : S50x1.Idx → EReal) (ix2 g 0) = Cert.ReferenceIdeal.Read.val_main_v173 (F := Ideal) (m ((c : Thread nD τ).loc main_arg2)) (ix1 g) := by
  rw [show W11 m ρ c (Proc.devRef .tc main_v95) = _ from Stretch5.cnts (W10 m ρ c), Keeps.arg2_at10 m ρ c]
  exact (Cert.LibUnitColumn.shapeCast_a_a1_apply _ _ g 0).trans rfl

theorem w11_fcb (o : Fin 10) : (W11 m ρ c (Proc.devRef .tc main_v96) : S1x10.Idx → EReal) (ix2 0 o) = (m ((c : Thread nD τ).loc main_arg12)) (ix1 o) := by
  rw [show W11 m ρ c (Proc.devRef .tc main_v96) = _ from Stretch5.bias (W10 m ρ c), Keeps.arg12_at10 m ρ c]
  exact shapeCast_a_1a_apply _ _ 0 o

/-- The result array after the run is the reference's result of the same arguments. -/
theorem result : W12 m ρ c (Proc.devRef .tc main_v97) = Cert.ReferenceIdeal.Read.val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W12_arr m ρ c 4).trans (PoolValue.out_eq (V11 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (w11_sums m ρ c) (w11_cnts m ρ c) (Keeps.arg11_at11 m ρ c) (w11_fcb m ρ c))

end Cert.KernelIdeal.Chain

end
-- ==== Proof.lean ====
/-
  The certificate of a four-layer graph convolution network with a pooled log-softmax head, computed by six
  row-blocked regions among host gathers and scatter-adds, against its plain reference.

  Per layer the reference computes `h' = (agg + coeff · (h W)) + b`: the product `h W`, its aggregate `agg` over the
  incoming edges (each edge gathers its source's row, weighted by `dinv[src] · dinv[dst]`), the self-loop part with
  `coeff = 2 · dinv²`, and the bias. The kernel computes `h W` and `coeff · (h W) + b` in one region, aggregates on
  the host exactly as the reference does, and adds `agg` in the next region: `agg + (coeff · (h W) + b)`. On the
  extended reals both are the same number because addition associates; every change of float format is the
  identity there, a block product into a zero accumulator and the host's contraction are the same sum, and the
  pooled mean, the dense head and the row-wise log-softmax are spelt alike on both sides. No argument needs to be
  finite for any of this, so the precondition is not opened.

  The three frame claims are the generated frames (the reference's from its generated run); the idealization rewrote
  nothing, so `preserves` is trivial; the algebraic claim joins the kernel's run with its result array named
  (Proof/RunValue.lean), that array read back boundary by boundary as the reference's result of the same arguments
  (Proof/Chain.lean over the regions' whole-array values and the host stretches), and the reference's generated run.
-/
import proofs.«133490_j51754355916835_1_alg».proof.Defs
import proofs.«133490_j51754355916835_1_alg».proof.Proof.Gen.Kernel
import proofs.«133490_j51754355916835_1_alg».proof.Proof.Gen.Kernel.Skeleton
import proofs.«133490_j51754355916835_1_alg».proof.Proof.Gen.Kernel.Launch
import proofs.«133490_j51754355916835_1_alg».proof.Proof.Gen.Kernel.Points
import proofs.«133490_j51754355916835_1_alg».proof.Proof.Gen.Kernel.Frame
import proofs.«133490_j51754355916835_1_alg».proof.Proof.Gen.KernelIdeal
import proofs.«133490_j51754355916835_1_alg».proof.Proof.Gen.KernelIdeal.Skeleton
import proofs.«133490_j51754355916835_1_alg».proof.Proof.Gen.KernelIdeal.Launch
import proofs.«133490_j51754355916835_1_alg».proof.Proof.Gen.KernelIdeal.Points
import proofs.«133490_j51754355916835_1_alg».proof.Proof.Gen.KernelIdeal.Frame
import proofs.«133490_j51754355916835_1_alg».proof.Proof.Gen.ReferenceIdeal
import proofs.«133490_j51754355916835_1_alg».proof.Proof.Gen.Pre_finite_inputs
import proofs.«133490_j51754355916835_1_alg».proof.Proof.Gen.ReferenceIdeal.Run
import proofs.«133490_j51754355916835_1_alg».proof.Proof.Gen.ReferenceIdeal.Read
import proofs.«133490_j51754355916835_1_alg».proof.Proof.RunValue
import proofs.«133490_j51754355916835_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end, the kernel's result array and the reference's
    at one function of the arguments: the reference's last stage. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Chain.result m ρ c), (h c).2⟩) (Cert.KernelIdeal.RunValue.run m ρ), ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7, e8, e9, e10, e11, e12⟩ := hagree c
  rw [(h c).1, Cert.ReferenceIdeal.Read.val_main_v183_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
